-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x128 : Shape := ⟨2, ![100000, 128]⟩
abbrev S1001x128 : Shape := ⟨2, ![1001, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1001x128 : S_.BroadcastsInDim S1001x128 (![] : Fin 0 → Fin S1001x128.rank)
  reducesTo_S1001x128_S_d0_1 : S1001x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : IVec S2x1600000 32) (main_arg1 : IVec S1600000 32) (main_arg2 : FVec F S100000x128 .f32) (main_arg3 : FVec F S1001x128 .f32) (main_arg4 : FVec F S128x128 .f32) (main_arg5 : FVec F S128x128 .f32) (main_arg6 : FVec F S128 .f32) (main_arg7 : FVec F S128 .f32) (main_arg8 : FVec F S128 .f32) (main_arg9 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1001x128 .f32 := Host.absf main_arg3
  let main_cst_0 : FVec F S_ .f32 := constant S_ .f32 0x7F800000#32
  let main_v5 : FVec F S1001x128 .f32 := broadcastInDim S1001x128 ![] bcast_S_S1001x128 main_cst_0
  let main_v6 : IVec S1001x128 1 := cmpf .olt main_v4 main_v5
  let main_c_1 : IVec S_ 1 := constantI S_ 1 1#1
  let main_v7 : IVec S_ 1 := (fun x v => Host.reduce IntOp.andi x v reducesTo_S1001x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S2x1600000 : Shape := ⟨2, ![2, 1600000]⟩
abbrev S1600000 : Shape := ⟨1, ![1600000]⟩
abbrev S100000x128 : Shape := ⟨2, ![100000, 128]⟩
abbrev S1001x128 : Shape := ⟨2, ![1001, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1001 : Shape := ⟨1, ![1001]⟩
abbrev S1001x1 : Shape := ⟨2, ![1001, 1]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S6400x128 : Shape := ⟨2, ![6400, 128]⟩
abbrev S6400 : Shape := ⟨1, ![6400]⟩
abbrev S6400x1 : Shape := ⟨2, ![6400, 1]⟩
abbrev S4000x128 : Shape := ⟨2, ![4000, 128]⟩
abbrev S4000 : Shape := ⟨1, ![4000]⟩
abbrev S4000x1 : Shape := ⟨2, ![4000, 1]⟩
abbrev S1x128 : Shape := ⟨2, ![1, 128]⟩

abbrev nBuf : Space → Nat
  | .hbm => 91
  | .vmem => 30
  | .smem => 0
  | _ => 0

abbrev bufTy : (tb : Table) → Fin (tcTables nBuf tb) → BufTy
  | .hbm, ⟨0, _⟩ => ⟨S2x1600000, .i32⟩
  | .hbm, ⟨1, _⟩ => ⟨S1600000, .i32⟩
  | .hbm, ⟨2, _⟩ => ⟨S100000x128, .f32⟩
  | .hbm, ⟨3, _⟩ => ⟨S1001x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1001x128, .f32⟩
  | .hbm, ⟨15, _⟩ => ⟨S_, .f32⟩
  | .hbm, ⟨16, _⟩ => ⟨S1001, .f32⟩
  | .hbm, ⟨17, _⟩ => ⟨S1001x1, .f32⟩
  | .hbm, ⟨18, _⟩ => ⟨S1001x1, .f32⟩
  | .hbm, ⟨19, _⟩ => ⟨S_, .f32⟩
  | .hbm, ⟨20, _⟩ => ⟨S1001x1, .f32⟩
  | .hbm, ⟨21, _⟩ => ⟨S1001x1, .f32⟩
  | .hbm, ⟨22, _⟩ => ⟨S1001x128, .f32⟩
  | .hbm, ⟨23, _⟩ => ⟨S1001x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S128x128, .f32⟩
  | .hbm, ⟨90, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S4000x128, .f32⟩
  | .local _ .vmem, ⟨14, _⟩ => ⟨S4000x128, .f32⟩
  | .local _ .vmem, ⟨15, _⟩ => ⟨S6400x128, .f32⟩
  | .local _ .vmem, ⟨16, _⟩ => ⟨S6400x128, .f32⟩
  | .local _ .vmem, ⟨17, _⟩ => ⟨S6400x128, .f32⟩
  | .local _ .vmem, ⟨18, _⟩ => ⟨S6400x128, .f32⟩
  | .local _ .vmem, ⟨19, _⟩ => ⟨S6400x128, .f32⟩
  | .local _ .vmem, ⟨20, _⟩ => ⟨S6400x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1001x128_S1001_d1 : S1001x128.ReducesTo [1] S1001
  h_S_ : 0 < S_.numel
  bcast_S1001_S1001x1_0 : S1001.BroadcastsInDim S1001x1 (![0] : Fin 1 → Fin S1001x1.rank)
  bcast_S_S1001x1 : S_.BroadcastsInDim S1001x1 (![] : Fin 0 → Fin S1001x1.rank)
  bcast_S1001x1_S1001x128_0_1 : S1001x1.BroadcastsInDim S1001x128 (![0, 1] : Fin 2 → Fin S1001x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  reduces_S6400x128_S6400 : S6400x128.Reduces [1] S6400
  shapeCasts_S6400_S6400x1 : S6400.ShapeCasts S6400x1
  broadcasts_S6400x1_S6400x128 : S6400x1.Broadcasts S6400x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  reduces_S4000x128_S4000 : S4000x128.Reduces [1] S4000
  shapeCasts_S4000_S4000x1 : S4000.ShapeCasts S4000x1
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S1001x128_S1600000x1_S1600000x128_1_0_n_n_0_1_1128_wf : GatherDims.WF S1001x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S1600000x128.size a
  hwx2_0 : ∀ i : grid2.Coords, EltTy.bits .f32 = 32 ∨ (Rect.block (s := S1600000x128) S6400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S1600000x128.size a
  hwx2_1 : ∀ i : grid2.Coords, EltTy.bits .f32 = 32 ∨ (Rect.block (s := S1600000x128) S6400x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x128.size a ≤ S1600000x128.size a
  hwx2_2 : ∀ i : grid2.Coords, EltTy.bits .f32 = 32 ∨ (Rect.block (s := S1600000x128) S6400x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S1001x128_S1600000x1_S1600000x128_1_0_n_n_0_1_1128 : GatherDims S1001x128 S1600000x1 S1600000x128 where
  offsetDims := [1]
  collapsedSliceDims := [0]
  operandBatchingDims := []
  startIndicesBatchingDims := []
  startIndexMap := [0]
  indexVectorDim := 1
  sliceSizes := ![1, 128]
  wf := gather_S1001x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v27) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S6400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x128 : Shape := ⟨2, ![100000, 128]⟩
abbrev S1001x128 : Shape := ⟨2, ![1001, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1001 : Shape := ⟨1, ![1001]⟩
abbrev S1001x1 : Shape := ⟨2, ![1001, 1]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 189
  | .vmem => 0
  | .smem => 0
  | _ => 0

abbrev hbmTy0_0 (i : Nat) : BufTy := match i % 128 with
  | 0 => ⟨S2x1600000, .i32⟩
  | 1 => ⟨S1600000, .i32⟩
  | 2 => ⟨S100000x128, .f32⟩
  | 3 => ⟨S1001x128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S1001x128, .f32⟩
  | 15 => ⟨S_, .f32⟩
  | 16 => ⟨S1001, .f32⟩
  | 17 => ⟨S1001x1, .f32⟩
  | 18 => ⟨S1001x1, .f32⟩
  | 19 => ⟨S_, .f32⟩
  | 20 => ⟨S1001x1, .f32⟩
  | 21 => ⟨S1001x1, .f32⟩
  | 22 => ⟨S1001x128, .f32⟩
  | 23 => ⟨S1001x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S1600000x128, .f32⟩
  | 43 => ⟨S_, .f32⟩
  | 44 => ⟨S1600000, .f32⟩
  | 45 => ⟨S1600000x1, .f32⟩
  | 46 => ⟨S_, .f32⟩
  | 47 => ⟨S1600000x1, .f32⟩
  | 48 => ⟨S1600000x1, .f32⟩
  | 49 => ⟨S1600000x128, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S1600000, .f32⟩
  | 58 => ⟨S_, .f32⟩
  | 59 => ⟨S100000, .f32⟩
  | 60 => ⟨S1600000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x128, .f32⟩
  | 67 => ⟨S100000x128, .f32⟩
  | 68 => ⟨S128x128, .f32⟩
  | 69 => ⟨S100000x128, .f32⟩
  | 70 => ⟨S100000x128, .f32⟩
  | 71 => ⟨S_, .f32⟩
  | 72 => ⟨S100000, .f32⟩
  | 73 => ⟨S100000x1, .f32⟩
  | 74 => ⟨S_, .f32⟩
  | 75 => ⟨S100000x1, .f32⟩
  | 76 => ⟨S100000x1, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S_, .f32⟩
  | 89 => ⟨S100000x1, .f32⟩
  | 90 => ⟨S100000x1, .f32⟩
  | 91 => ⟨S100000x1, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1001x128, .f32⟩
  | 104 => ⟨S_, .f32⟩
  | 105 => ⟨S1001, .f32⟩
  | 106 => ⟨S1001x1, .f32⟩
  | 107 => ⟨S1001x1, .f32⟩
  | 108 => ⟨S_, .f32⟩
  | 109 => ⟨S1001x1, .f32⟩
  | 110 => ⟨S1001x1, .f32⟩
  | 111 => ⟨S1001x128, .f32⟩
  | 112 => ⟨S1001x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S2x1600000, .i32⟩

abbrev hbmTy0_1 (i : Nat) : BufTy := match i % 128 with
  | 0 => ⟨S1600000, .i32⟩
  | 1 => ⟨S1600000x1, .i32⟩
  | 2 => ⟨S1600000x128, .f32⟩
  | 3 => ⟨S1600000x128, .f32⟩
  | 4 => ⟨S_, .f32⟩
  | 5 => ⟨S1600000, .f32⟩
  | 6 => ⟨S1600000x1, .f32⟩
  | 7 => ⟨S_, .f32⟩
  | 8 => ⟨S1600000x1, .f32⟩
  | 9 => ⟨S1600000x1, .f32⟩
  | 10 => ⟨S1600000x128, .f32⟩
  | 11 => ⟨S1600000x128, .f32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S128x128, .f32⟩
  | 30 => ⟨S100000x128, .f32⟩
  | 31 => ⟨S100000x128, .f32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x128, .f32⟩
  | 39 => ⟨S100000x128, .f32⟩
  | 40 => ⟨S100000x128, .f32⟩
  | 41 => ⟨S_, .f32⟩
  | 42 => ⟨S100000, .f32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S_, .f32⟩
  | 50 => ⟨S100000x1, .f32⟩
  | 51 => ⟨S100000x1, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call0_cst : Ref sig .tc := ⟨.hbm, 100, rfl⟩
abbrev main_call0_v0 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_c_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩
abbrev main_cst_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_24 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_26 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_27 : Ref sig .tc := ⟨.hbm, 160, rfl⟩
abbrev main_v119 : Ref sig .tc := ⟨.hbm, 161, rfl⟩
abbrev main_v120 : Ref sig .tc := ⟨.hbm, 162, rfl⟩
abbrev main_cst_28 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_29 : Ref sig .tc := ⟨.hbm, 169, rfl⟩
abbrev main_v126 : Ref sig .tc := ⟨.hbm, 170, rfl⟩
abbrev main_v127 : Ref sig .tc := ⟨.hbm, 171, rfl⟩
abbrev main_cst_30 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_31 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1001x128_S1001_d1 : S1001x128.ReducesTo [1] S1001
  h_S_ : 0 < S_.numel
  bcast_S1001_S1001x1_0 : S1001.BroadcastsInDim S1001x1 (![0] : Fin 1 → Fin S1001x1.rank)
  bcast_S_S1001x1 : S_.BroadcastsInDim S1001x1 (![] : Fin 0 → Fin S1001x1.rank)
  bcast_S1001x1_S1001x128_0_1 : S1001x1.BroadcastsInDim S1001x128 (![0, 1] : Fin 2 → Fin S1001x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  bcast_S_S1600000x1 : S_.BroadcastsInDim S1600000x1 (![] : Fin 0 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  gather_S1001x128_S1600000x1_S1600000x128_1_0_n_n_0_1_1128_wf : GatherDims.WF S1001x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S1001x128_S1600000x1_S1600000x128_1_0_n_n_0_1_1128 : GatherDims S1001x128 S1600000x1 S1600000x128 where
  offsetDims := [1]
  collapsedSliceDims := [0]
  operandBatchingDims := []
  startIndicesBatchingDims := []
  startIndexMap := [0]
  indexVectorDim := 1
  sliceSizes := ![1, 128]
  wf := gather_S1001x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its memory named at the end. @main is eight segments: four stretches of host
  operations and, between them, four kernel regions (two Householder reflections over the edges, two linear + layer-norm
  passes over the nodes). Folding the segments over the launch memory gives the contents of every buffer at each segment
  boundary; the last of these, after the fourth region, is what every unscoped buffer holds in any final state of any
  weakly fair execution. The result array and the argument arrays are read off that one statement.
-/
import proofs.«114701_j26036091748361_1_alg».proof.Proof.Gen.KernelIdeal.Frame
import Idealize.ShloMosaic.Lib.Pipeline.Regions

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of
    every core holds the contents the fold of the eight segments assigns to it after the last region. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The result array of @main in a final state of the run: the fold's last contents at the fourth region's output. -/
theorem result_of_fold {s : MemSt nD τ sig (Elt F)} (h : ∀ c : Dev nD, ∀ b ∈ Pipeline.ucRefs τ sig, s.mem (((c : Thread nD τ)).1, b) = W8 m ρ c b)
    (c : Dev nD) : s.mem ((c.tc : Thread nD τ).loc main_v64) = W8 m ρ c (Proc.devRef .tc main_v64) :=
  h c _ (mem_uc main_v64 (by decide))

end Cert.KernelIdeal.Fold

end
-- ==== Proof.Spec.lean ====
/-
  The two array functions the network is built from, each stated twice: as a whole-array term of host operations (the
  form the reference program computes it in), and as a formula for one entry in terms of the 128 entries of its row.

  * The REFLECTION of an edge's source row `hs` across its relation row `hr`:  hs_j − (2 · Σ_k hs_k · hr_k) · hr_j.
  * The NORMALIZED PROJECTION of a node's aggregated row `o`: first p_k = (Σ_i o_i · w_{i,k}) + x_k (the linear map
    plus the residual), then with μ = (Σ_k p_k) / 128, d_k = p_k − μ and σ² = (Σ_k d_k²) / 128 the entry
    d_q / √(σ² + ε) · g_q + b_q, and for the first layer its maximum with 0.

  Every operation is the exact one on the extended reals; the literals 2, 128, ε and 0 stay as the binary words both
  programs print, so that they are compared as words and never evaluated.
-/
import proofs.«114701_j26036091748361_1_alg».proof.Proof.Gen.ReferenceIdeal
import Idealize.ShloMosaic.PureOps.Ideal
import Idealize.ShloMosaic.Lib.ValueIdx

noncomputable section

namespace Cert.Spec

open Idealize.ShloMosaic Cert.ReferenceIdeal Cert.ReferenceIdeal.Gen

/-! ## One row at a time -/

/-- The reflected row's entry `j`: `hs_j − (2 · ⟨hs, hr⟩) · hr_j`. -/
def reflectRow (hs hr : Fin 128 → EReal) (j : Fin 128) : EReal :=
  hs j - (Ideal.ofBits .f32 0x40000000#32 * ∑ k, hs k * hr k) * hr j

/-- The linear map plus the residual, entry `k`: `(Σ_i o_i · w_{i,k}) + x_k`. -/
def projRow (o : Fin 128 → EReal) (w : Fin 128 → Fin 128 → EReal) (x : Fin 128 → EReal) (k : Fin 128) : EReal :=
  (∑ i, o i * w i k) + x k

/-- The mean of a row of 128 entries: their sum divided by the word 128.0. -/
def mean128 (f : Fin 128 → EReal) : EReal :=
  Ideal.div (∑ k, f k) (Ideal.ofBits .f32 0x43000000#32)

/-- The layer norm's entry `q` of a row `f`, scaled by `gq` and shifted by `bq`. -/
def normRow (f : Fin 128 → EReal) (gq bq : EReal) (q : Fin 128) : EReal :=
  Ideal.div (f q - mean128 f)
      (Ideal.sqrt (mean128 (fun k => (f k - mean128 f) * (f k - mean128 f)) + Ideal.ofBits .f32 0x3727C5AC#32)) * gq + bq

/-! ## Whole arrays, as host operations -/

/-- Every edge's source row reflected across its relation row. -/
def reflect (hs hr : FVec Ideal S1600000x128 .f32) : FVec Ideal S1600000x128 .f32 :=
  subf hs (mulf (broadcastInDim S1600000x128 ![0, 1] bcast_S1600000x1_S1600000x128_0_1
      (mulf (broadcastInDim S1600000x1 ![] bcast_S_S1600000x1 (constant (F := Ideal) S_ .f32 0x40000000#32))
        (broadcastInDim S1600000x1 ![0] bcast_S1600000_S1600000x1_0
          (Host.reduceAdd (mulf hs hr) (constant (F := Ideal) S_ .f32 0x00000000#32) reducesTo_S1600000x128_S1600000_d1 h_S_))))
    hr)

/-- The linear map of every node's aggregated row plus the residual. -/
def project (o x : FVec Ideal S100000x128 .f32) (wt : FVec Ideal S128x128 .f32) : FVec Ideal S100000x128 .f32 :=
  addf (Host.dotGeneral dot_S100000x128_S128x128_S100000x128_1_0_0_1_n_n none o wt) x

/-- Every row's mean, as a column. -/
def rowMean (p : FVec Ideal S100000x128 .f32) : FVec Ideal S100000x1 .f32 :=
  Host.divf (broadcastInDim S100000x1 ![0] bcast_S100000_S100000x1_0
      (Host.reduceAdd p (constant (F := Ideal) S_ .f32 0x00000000#32) reducesTo_S100000x128_S100000_d1 h_S_))
    (broadcastInDim S100000x1 ![] bcast_S_S100000x1 (constant (F := Ideal) S_ .f32 0x43000000#32))

/-- Every row minus its mean. -/
def centered (p : FVec Ideal S100000x128 .f32) : FVec Ideal S100000x128 .f32 :=
  subf p (broadcastInDim S100000x128 ![0, 1] bcast_S100000x1_S100000x128_0_1 (rowMean p))

/-- The layer norm of every row, scaled by `g` and shifted by `b` along the row. -/
def layerNorm (p : FVec Ideal S100000x128 .f32) (g b : FVec Ideal S128 .f32) : FVec Ideal S100000x128 .f32 :=
  addf (mulf (Host.divf (centered p)
        (broadcastInDim S100000x128 ![0, 1] bcast_S100000x1_S100000x128_0_1
          (Host.sqrt (addf (rowMean (mulf (centered p) (centered p)))
            (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The entrywise maximum with zero. -/
def relu (y : FVec Ideal S100000x128 .f32) : FVec Ideal S100000x128 .f32 :=
  maximumf y (broadcastInDim S100000x128 ![] bcast_S_S100000x128 (constant (F := Ideal) S_ .f32 0x00000000#32))

end Cert.Spec

end
-- ==== Proof.ReflectRows.lean ====
/-
  The reflection read one entry at a time, on both sides.

  The reference computes, for the whole [1600000, 128] arrays `hs` and `hr`, the term `Spec.reflect hs hr` of host
  operations; a kernel region computes the same arithmetic on a block of 6400 rows. Read at row `e` and lane `j` each is
      hs_{e,j} − (2 · Σ_k hs_{e,k} · hr_{e,k}) · hr_{e,j}
  — `Spec.reflectRow` of the two rows. The sum over a row is the host's reduce-add (its initial word is 0) on one side and
  the lane reduction on the other; a keepdims column and its broadcast along the row read one entry of their operand.
-/
import proofs.«114701_j26036091748361_1_alg».proof.Proof.Spec
import proofs.«114701_j26036091748361_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

/-! ## The reference's host term -/

namespace Cert.Spec

open Cert.ReferenceIdeal Cert.ReferenceIdeal.Gen

/-- A scalar word splat into a column reads that word's value everywhere. -/
theorem splat_col_apply (w : BitVec 32) (i : S1600000x1.Idx) :
    broadcastInDim S1600000x1 ![] bcast_S_S1600000x1 (constant (F := Ideal) S_ .f32 w) i = Ideal.ofBits .f32 w :=
  broadcastInDim_apply _ bcast_S_S1600000x1 (constant (F := Ideal) S_ .f32 w) i ix0 (fun a => a.elim0)

/-- A vector of per-row values made a column: row `e` of the column is entry `e` of the vector. -/
theorem keep_col_apply (v : FVec Ideal S1600000 .f32) (e : Fin 1600000) :
    broadcastInDim S1600000x1 ![0] bcast_S1600000_S1600000x1_0 v (ix2 e (⟨0, Nat.one_pos⟩ : Fin 1)) = v (ix1 e) :=
  broadcastInDim_apply _ bcast_S1600000_S1600000x1_0 v _ (ix1 e) (fun a => match a with
    | ⟨0, _⟩ => by show e.val = if (1600000 : Nat) = 1 then 0 else e.val; rw [if_neg (by decide)])

/-- A column broadcast along the rows: entry `(e, j)` is the column's entry at row `e`. -/
theorem along_row_apply (v : FVec Ideal S1600000x1 .f32) (e : Fin 1600000) (j : Fin 128) :
    broadcastInDim S1600000x128 ![0, 1] bcast_S1600000x1_S1600000x128_0_1 v (ix2 e j) = v (ix2 e (⟨0, Nat.one_pos⟩ : Fin 1)) :=
  broadcastInDim_apply _ bcast_S1600000x1_S1600000x128_0_1 v _ (ix2 e (⟨0, Nat.one_pos⟩ : Fin 1)) (fun a => match a with
    | ⟨0, _⟩ => by show e.val = if (1600000 : Nat) = 1 then 0 else e.val; rw [if_neg (by decide)]
    | ⟨1, _⟩ => by show 0 = if (1 : Nat) = 1 then 0 else j.val; rw [if_pos rfl])

/-- The host's sum over the lanes, from the initial word 0: the sum of the row's 128 entries. -/
theorem row_sum_apply (x : FVec Ideal S1600000x128 .f32) (e : Fin 1600000) :
    Host.reduceAdd x (constant (F := Ideal) S_ .f32 0x00000000#32) reducesTo_S1600000x128_S1600000_d1 h_S_ (ix1 e)
      = ∑ k : Fin 128, x (ix2 e k) := by
  simp only [Host.reduceAdd, Ideal.hostReduceAdd_def]
  rw [Ideal.hostReduceAdd_single reducesTo_S1600000x128_S1600000_d1 (by decide)]
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-- The reference's reflection at row `e`, lane `j`, is the row formula of rows `e` of its two operands. -/
theorem reflect_apply (hs hr : FVec Ideal S1600000x128 .f32) (e : Fin 1600000) (j : Fin 128) :
    reflect hs hr (ix2 e j) = reflectRow (fun k => hs (ix2 e k)) (fun k => hr (ix2 e k)) j := by
  unfold reflect reflectRow
  rw [subf_apply, mulf_apply, along_row_apply, mulf_apply, splat_col_apply, keep_col_apply, row_sum_apply]
  rfl

end Cert.Spec

/-! ## The kernel's block payload -/

namespace Cert.KernelIdeal.Rows

open Cert.KernelIdeal Cert.KernelIdeal.Gen

/-- The lane reduction of a block, from the zero word: the sum of the row's 128 entries. -/
theorem lane_sum_apply (x : FVec Ideal S6400x128 .f32) (p : Fin 6400) :
    multiReduction (F := Ideal) .add [1] S6400 x 0x00000000#32 reduces_S6400x128_S6400 (.inl rfl) rfl (ix1 p)
      = ∑ k : Fin 128, x (ix2 p k) :=
  (Ideal.multiReduction_add_single x 0x00000000#32 reduces_S6400x128_S6400 (.inl rfl) rfl (ix1 p)).trans
    (Finset.sum_congr rfl fun k _ => congrArg x (funext fun a => Fin.ext (by match a with | ⟨0, _⟩ => rfl | ⟨1, _⟩ => rfl)))

/-- Per-row values cast to a column: row `p` of the column is entry `p`. -/
theorem keepdims_apply (v : FVec Ideal S6400 .f32) (p : Fin 6400) :
    shapeCast S6400x1 v shapeCasts_S6400_S6400x1 (ix2 p (⟨0, Nat.one_pos⟩ : Fin 1)) = v (ix1 p) :=
  shapeCast_apply v shapeCasts_S6400_S6400x1 _ (ix1 p) (by
    rw [Shape.rowMajor_val_two, Shape.rowMajor_val_one]
    show p.val = p.val * 1 + 0
    omega)

/-- A column broadcast along the lanes: entry `(p, j)` is the column's entry at row `p`. -/
theorem along_lanes_apply (v : FVec Ideal S6400x1 .f32) (p : Fin 6400) (j : Fin 128) :
    broadcastTo S6400x128 v broadcasts_S6400x1_S6400x128 (ix2 p j) = v (ix2 p (⟨0, Nat.one_pos⟩ : Fin 1)) :=
  broadcastTo_apply v broadcasts_S6400x1_S6400x128 _ (ix2 p (⟨0, Nat.one_pos⟩ : Fin 1)) (fun a => match a with
    | ⟨0, _⟩ => by show p.val = if (6400 : Nat) = 1 then 0 else p.val; rw [if_neg (by decide)]
    | ⟨1, _⟩ => by show 0 = if (1 : Nat) = 1 then 0 else j.val; rw [if_pos rfl])

/-- The first reflection region's payload at row `p`, lane `j` of the block: the row formula of the two blocks' rows `p`. -/
theorem reflect0_apply (x0 x1 : Vec Ideal S6400x128 .f32) (p : Fin 6400) (j : Fin 128) :
    k0_pay1 (F := Ideal) x0 x1 (ix2 p j) = Cert.Spec.reflectRow (fun k => x0 (ix2 p k)) (fun k => x1 (ix2 p k)) j := by
  unfold k0_pay1 Cert.Spec.reflectRow
  rw [shapeCast_self x0, shapeCast_self x1]
  exact congrArg (fun z => x0 (ix2 p j) - z * x1 (ix2 p j))
    ((along_lanes_apply _ p j).trans
      (congrArg₂ (· * ·) rfl ((keepdims_apply _ p).trans (lane_sum_apply (mulf x0 x1) p))))

/-- The second reflection region's payload: the same arithmetic. -/
theorem reflect2_apply (x0 x1 : Vec Ideal S6400x128 .f32) (p : Fin 6400) (j : Fin 128) :
    k2_pay1 (F := Ideal) x0 x1 (ix2 p j) = Cert.Spec.reflectRow (fun k => x0 (ix2 p k)) (fun k => x1 (ix2 p k)) j := by
  unfold k2_pay1 Cert.Spec.reflectRow
  rw [shapeCast_self x0, shapeCast_self x1]
  exact congrArg (fun z => x0 (ix2 p j) - z * x1 (ix2 p j))
    ((along_lanes_apply _ p j).trans
      (congrArg₂ (· * ·) rfl ((keepdims_apply _ p).trans (lane_sum_apply (mulf x0 x1) p))))

end Cert.KernelIdeal.Rows

end
-- ==== Proof.ReflectRegions.lean ====
/-
  The two reflection regions, from blocks to whole arrays.

  A reflection region runs over 250 grid points; at point `t` its three windows hold rows `6400 t … 6400 t + 6399` of the
  source array, of the relation array and of the output array. What the body leaves in the output's block is, entry by
  entry, the reflection's row formula of the two input blocks' rows; those rows are rows of the two arrays, so the block
  written back is block `t` of the whole-array reflection. The 250 blocks tile the output array, so after the region it
  holds the reflection of the two arrays the region found — whatever those are: everything here is stated for arbitrary
  contents `V` of the buffers at the region's entry.
-/
import proofs.«114701_j26036091748361_1_alg».proof.Proof.ReflectRows
import proofs.«114701_j26036091748361_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## Region 0 -/

/-- Each of region 0's three windows moves down the rows with the grid: block `t` starts at row `6400 · t`, lane 0. -/
theorem steps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A row of a block is a row of the array. -/
theorem rows0 (t : Fin cfg0.N) (p : Fin 6400) : t.val * 6400 + p.val < 1600000 := by
  have hN : cfg0.N = 250 := N_0
  have h1 := t.isLt
  have h2 := p.isLt
  omega

/-- The source window's block at point `t` is rows `6400 t … 6400 t + 6399` of the source array. -/
theorem src0_apply (c : Dev nD) (t : Fin cfg0.N) (p : Fin 6400) (k : Fin 128) :
    (iblk0 V c 0 t : Vec Ideal S6400x128 .f32) (ix2 p k)
      = (V c main_v27 : S1600000x128.Idx → Elt Ideal .f32) (ix2 ⟨t.val * 6400 + p.val, rows0 t p⟩ k) := by
  obtain ⟨h0, h1, -⟩ := steps0 t
  unfold iblk0
  rw [View.read_apply]
  show V c main_v27 _ = V c main_v27 _
  refine congrArg (V c main_v27) (funext fun a => Fin.ext ?_)
  match a with
  | ⟨0, _⟩ => show win0_0.index t (0 : Fin 2) * 6400 + 1 * p.val = t.val * 6400 + p.val; rw [h0]; omega
  | ⟨1, _⟩ => show win0_0.index t (1 : Fin 2) * 128 + 1 * k.val = k.val; rw [h1]; omega

/-- The relation window's block likewise. -/
theorem rel0_apply (c : Dev nD) (t : Fin cfg0.N) (p : Fin 6400) (k : Fin 128) :
    (iblk0 V c 1 t : Vec Ideal S6400x128 .f32) (ix2 p k)
      = (V c main_v34 : S1600000x128.Idx → Elt Ideal .f32) (ix2 ⟨t.val * 6400 + p.val, rows0 t p⟩ k) := by
  obtain ⟨-, -, h0, h1, -⟩ := steps0 t
  unfold iblk0
  rw [View.read_apply]
  show V c main_v34 _ = V c main_v34 _
  refine congrArg (V c main_v34) (funext fun a => Fin.ext ?_)
  match a with
  | ⟨0, _⟩ => show win0_1.index t (0 : Fin 2) * 6400 + 1 * p.val = t.val * 6400 + p.val; rw [h0]; omega
  | ⟨1, _⟩ => show win0_1.index t (1 : Fin 2) * 128 + 1 * k.val = k.val; rw [h1]; omega

/-- Where entry `(p, q)` of the output's block at point `t` sits in the output array. -/
theorem out0_emb (t : Fin cfg0.N) (p : Fin 6400) (q : Fin 128) :
    ((cfg0.win 2).blk t).view.emb (ix2 p q) = (ix2 ⟨t.val * 6400 + p.val, rows0 t p⟩ q : S1600000x128.Idx) := by
  obtain ⟨-, -, -, -, h0, h1⟩ := steps0 t
  funext a
  apply Fin.ext
  match a with
  | ⟨0, _⟩ => show win0_2.index t (0 : Fin 2) * 6400 + 1 * p.val = t.val * 6400 + p.val; rw [h0]; omega
  | ⟨1, _⟩ => show win0_2.index t (1 : Fin 2) * 128 + 1 * q.val = q.val; rw [h1]; omega

/-- What point `t` writes back is block `t` of the reflection of the two arrays the region finds. -/
theorem flushed0 (c : Dev nD) (t : Fin cfg0.N) :
    (dat0 V c).flushed 2 t
      = ((cfg0.win 2).blk t).view.read (Elt Ideal) (Cert.Spec.reflect (V c main_v27) (V c main_v34)) := by
  show (cfg0.win 2).cut (grid0.coords t) ((dat0 V c).after 2 t) = _
  rw [after0_2]
  unfold out0_2
  rw [View.canon_unit_zero zero_offsets]
  simp only [View.ld_unit_zero (S := S6400x128) zero_offsets]
  funext j
  obtain ⟨p, q, rfl⟩ : ∃ (p : Fin 6400) (q : Fin 128), j = ix2 p q := ⟨j 0, j 1, eq_ix2 j⟩
  refine (Rows.reflect0_apply _ _ p q).trans ?_
  rw [View.read_apply, out0_emb t p q, Cert.Spec.reflect_apply]
  exact congrArg₂ (fun a b => Cert.Spec.reflectRow a b q) (funext fun k => src0_apply V c t p k) (funext fun k => rel0_apply V c t p k)

/-- An index of the output array is in point `t`'s block iff each coordinate is in the block's range on its axis. -/
theorem mem_blk0 (t : Fin cfg0.N) (i : S1600000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v35).slice (win0_2.rect t)).set ↔ _
  rw [View.set_slice_whole, Rect.mem_set_unit]
  exact Iff.rfl

/-- Every row of the output array is in the block of the point `row / 6400`. -/
theorem cover0 (i : S1600000x128.Idx) : ∃ t : Fin cfg0.N, (cfg0.win 2).flush t = true ∧ i ∈ ((cfg0.win 2).blk t).view.set := by
  have hN : cfg0.N = 250 := N_0
  have hi0 : (i 0).val < 1600000 := (i 0).isLt
  have hi1 : (i 1).val < 128 := (i 1).isLt
  let t : Fin cfg0.N := ⟨(i 0).val / 6400, by rw [hN]; omega⟩
  obtain ⟨-, -, -, -, h0, h1⟩ := steps0 t
  refine ⟨t, flush0_2 t, ?_⟩
  rw [mem_blk0]
  intro a
  match a with
  | ⟨0, _⟩ => show win0_2.index t (0 : Fin 2) * 6400 ≤ (i 0).val ∧ (i 0).val < win0_2.index t (0 : Fin 2) * 6400 + 6400
              rw [h0]; show (i 0).val / 6400 * 6400 ≤ (i 0).val ∧ (i 0).val < (i 0).val / 6400 * 6400 + 6400; omega
  | ⟨1, _⟩ => show win0_2.index t (1 : Fin 2) * 128 ≤ (i 1).val ∧ (i 1).val < win0_2.index t (1 : Fin 2) * 128 + 128
              rw [h1]; omega

/-- The output array after region 0: the reflection of the two arrays the region finds. -/
theorem reflect0_final (c : Dev nD) :
    (dat0 V c).arrAt 2 cfg0.N = Cert.Spec.reflect (V c main_v27) (V c main_v34) :=
  (dat0 V c).arrAt_eq_of_cover 2 _ (fun t _ => flushed0 V c t) (cover0)

/-! ## Region 2 -/

/-- Each of region 2's three windows moves down the rows with the grid: block `t` starts at row `6400 · t`, lane 0. -/
theorem steps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- A row of a block is a row of the array. -/
theorem rows2 (t : Fin cfg2.N) (p : Fin 6400) : t.val * 6400 + p.val < 1600000 := by
  have hN : cfg2.N = 250 := N_2
  have h1 := t.isLt
  have h2 := p.isLt
  omega

/-- The source window's block at point `t` is rows `6400 t … 6400 t + 6399` of the source array. -/
theorem src2_apply (c : Dev nD) (t : Fin cfg2.N) (p : Fin 6400) (k : Fin 128) :
    (iblk2 V c 0 t : Vec Ideal S6400x128 .f32) (ix2 p k)
      = (V c main_v49 : S1600000x128.Idx → Elt Ideal .f32) (ix2 ⟨t.val * 6400 + p.val, rows2 t p⟩ k) := by
  obtain ⟨h0, h1, -⟩ := steps2 t
  unfold iblk2
  rw [View.read_apply]
  show V c main_v49 _ = V c main_v49 _
  refine congrArg (V c main_v49) (funext fun a => Fin.ext ?_)
  match a with
  | ⟨0, _⟩ => show win2_0.index t (0 : Fin 2) * 6400 + 1 * p.val = t.val * 6400 + p.val; rw [h0]; omega
  | ⟨1, _⟩ => show win2_0.index t (1 : Fin 2) * 128 + 1 * k.val = k.val; rw [h1]; omega

/-- The relation window's block likewise. -/
theorem rel2_apply (c : Dev nD) (t : Fin cfg2.N) (p : Fin 6400) (k : Fin 128) :
    (iblk2 V c 1 t : Vec Ideal S6400x128 .f32) (ix2 p k)
      = (V c main_v56 : S1600000x128.Idx → Elt Ideal .f32) (ix2 ⟨t.val * 6400 + p.val, rows2 t p⟩ k) := by
  obtain ⟨-, -, h0, h1, -⟩ := steps2 t
  unfold iblk2
  rw [View.read_apply]
  show V c main_v56 _ = V c main_v56 _
  refine congrArg (V c main_v56) (funext fun a => Fin.ext ?_)
  match a with
  | ⟨0, _⟩ => show win2_1.index t (0 : Fin 2) * 6400 + 1 * p.val = t.val * 6400 + p.val; rw [h0]; omega
  | ⟨1, _⟩ => show win2_1.index t (1 : Fin 2) * 128 + 1 * k.val = k.val; rw [h1]; omega

/-- Where entry `(p, q)` of the output's block at point `t` sits in the output array. -/
theorem out2_emb (t : Fin cfg2.N) (p : Fin 6400) (q : Fin 128) :
    ((cfg2.win 2).blk t).view.emb (ix2 p q) = (ix2 ⟨t.val * 6400 + p.val, rows2 t p⟩ q : S1600000x128.Idx) := by
  obtain ⟨-, -, -, -, h0, h1⟩ := steps2 t
  funext a
  apply Fin.ext
  match a with
  | ⟨0, _⟩ => show win2_2.index t (0 : Fin 2) * 6400 + 1 * p.val = t.val * 6400 + p.val; rw [h0]; omega
  | ⟨1, _⟩ => show win2_2.index t (1 : Fin 2) * 128 + 1 * q.val = q.val; rw [h1]; omega

/-- What point `t` writes back is block `t` of the reflection of the two arrays the region finds. -/
theorem flushed2 (c : Dev nD) (t : Fin cfg2.N) :
    (dat2 V c).flushed 2 t
      = ((cfg2.win 2).blk t).view.read (Elt Ideal) (Cert.Spec.reflect (V c main_v49) (V c main_v56)) := by
  show (cfg2.win 2).cut (grid2.coords t) ((dat2 V c).after 2 t) = _
  rw [after2_2]
  unfold out2_2
  rw [View.canon_unit_zero zero_offsets]
  simp only [View.ld_unit_zero (S := S6400x128) zero_offsets]
  funext j
  obtain ⟨p, q, rfl⟩ : ∃ (p : Fin 6400) (q : Fin 128), j = ix2 p q := ⟨j 0, j 1, eq_ix2 j⟩
  refine (Rows.reflect2_apply _ _ p q).trans ?_
  rw [View.read_apply, out2_emb t p q, Cert.Spec.reflect_apply]
  exact congrArg₂ (fun a b => Cert.Spec.reflectRow a b q) (funext fun k => src2_apply V c t p k) (funext fun k => rel2_apply V c t p k)

/-- An index of the output array is in point `t`'s block iff each coordinate is in the block's range on its axis. -/
theorem mem_blk2 (t : Fin cfg2.N) (i : S1600000x128.Idx) :
    i ∈ ((cfg2.win 2).blk t).view.set ↔ ∀ a : Fin 2, win2_2.index t a * S6400x128.size a ≤ (i a).val ∧ (i a).val < win2_2.index t a * S6400x128.size a + S6400x128.size a := by
  show i ∈ ((View.whole main_v57).slice (win2_2.rect t)).set ↔ _
  rw [View.set_slice_whole, Rect.mem_set_unit]
  exact Iff.rfl

/-- Every row of the output array is in the block of the point `row / 6400`. -/
theorem cover2 (i : S1600000x128.Idx) : ∃ t : Fin cfg2.N, (cfg2.win 2).flush t = true ∧ i ∈ ((cfg2.win 2).blk t).view.set := by
  have hN : cfg2.N = 250 := N_2
  have hi0 : (i 0).val < 1600000 := (i 0).isLt
  have hi1 : (i 1).val < 128 := (i 1).isLt
  let t : Fin cfg2.N := ⟨(i 0).val / 6400, by rw [hN]; omega⟩
  obtain ⟨-, -, -, -, h0, h1⟩ := steps2 t
  refine ⟨t, flush2_2 t, ?_⟩
  rw [mem_blk2]
  intro a
  match a with
  | ⟨0, _⟩ => show win2_2.index t (0 : Fin 2) * 6400 ≤ (i 0).val ∧ (i 0).val < win2_2.index t (0 : Fin 2) * 6400 + 6400
              rw [h0]; show (i 0).val / 6400 * 6400 ≤ (i 0).val ∧ (i 0).val < (i 0).val / 6400 * 6400 + 6400; omega
  | ⟨1, _⟩ => show win2_2.index t (1 : Fin 2) * 128 ≤ (i 1).val ∧ (i 1).val < win2_2.index t (1 : Fin 2) * 128 + 128
              rw [h1]; omega

/-- The output array after region 2: the reflection of the two arrays the region finds. -/
theorem reflect2_final (c : Dev nD) :
    (dat2 V c).arrAt 2 cfg2.N = Cert.Spec.reflect (V c main_v49) (V c main_v56) :=
  (dat2 V c).arrAt_eq_of_cover 2 _ (fun t _ => flushed2 V c t) (cover2)

end Cert.KernelIdeal.Regions

end
-- ==== Proof.NormRows.lean ====
/-
  The normalized projection read one entry at a time, on both sides.

  On the reference's side the whole-array host terms `project`, `layerNorm` and `relu` of the specification are read at
  an index (n, q) as the row formulas `projRow` and `normRow` of row n. On the kernel's side the two payloads that a block
  of 4000 rows computes are read at (p, q) as the same row formulas of the block's row p.

  The steps are the same on both sides: a sum along the lane axis is the sum of the row's 128 entries (the host's has its
  initial word 0 in front, and 0 + s = s); a matrix product into the zero accumulator, or the host's dot, at (p, k) is
  Σ_i lhs(p,i) · rhs(i,k), the contraction's one axis re-indexed by its coordinate; a column [N] viewed [N,1] and then
  spread along the lanes reads the column's entry of the row; a row [128] viewed [1,128] and spread along the rows reads the
  row's entry of the lane; every pointwise operation reads pointwise.
-/
import proofs.«114701_j26036091748361_1_alg».proof.Proof.Spec
import proofs.«114701_j26036091748361_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.Spec

open Cert.ReferenceIdeal Cert.ReferenceIdeal.Gen

/-- The entrywise maximum with the zero word, at an index. -/
theorem relu_apply (y : FVec Ideal S100000x128 .f32) (i : S100000x128.Idx) :
    relu y i = max (y i) (Ideal.ofBits .f32 0x00000000#32) := rfl

/-! ### The host's dot: its operand indices at (n, k) and contraction coordinate i are (n, i) and (i, k) -/

/-- The left operand's first coordinate is the output's first. -/
theorem hostDot_lhs0 (j : S100000x128.Idx) (q : dot_S100000x128_S128x128_S100000x128_1_0_0_1_n_n.contr.Idx) :
    (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's second coordinate is the contraction's. -/
theorem hostDot_lhs1 (j : S100000x128.Idx) (q : dot_S100000x128_S128x128_S100000x128_1_0_0_1_n_n.contr.Idx) :
    (dot_S100000x128_S128x128_S100000x128_1_0_0_1_n_n.lhsIdx j q 1).val = (q ⟨0, by decide⟩).val :=
  dot_S100000x128_S128x128_S100000x128_1_0_0_1_n_n.lhsIdx_val_of_single rfl j q

/-- The right operand's first coordinate is the contraction's. -/
theorem hostDot_rhs0 (j : S100000x128.Idx) (q : dot_S100000x128_S128x128_S100000x128_1_0_0_1_n_n.contr.Idx) :
    (dot_S100000x128_S128x128_S100000x128_1_0_0_1_n_n.rhsIdx j q 0).val = (q ⟨0, by decide⟩).val :=
  dot_S100000x128_S128x128_S100000x128_1_0_0_1_n_n.rhsIdx_val_of_single rfl j q

/-- The right operand's second coordinate is the output's second. -/
theorem hostDot_rhs1 (j : S100000x128.Idx) (q : dot_S100000x128_S128x128_S100000x128_1_0_0_1_n_n.contr.Idx) :
    (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The left operand's index at output (n, k) and contraction coordinate i is (n, i). -/
theorem hostDot_lhsIdx (n : Fin 100000) (k i : Fin 128) :
    dot_S100000x128_S128x128_S100000x128_1_0_0_1_n_n.lhsIdx (ix2 n k) ((contrEquiv1 dot_S100000x128_S128x128_S100000x128_1_0_0_1_n_n 128 rfl rfl).symm i) = ix2 n i := by
  have hk := contrEquiv1_symm_val dot_S100000x128_S128x128_S100000x128_1_0_0_1_n_n 128 rfl rfl i
  exact funext fun a => Fin.ext (by
    match a with
    | ⟨0, _⟩ => exact hostDot_lhs0 _ _
    | ⟨1, _⟩ => exact (hostDot_lhs1 _ _).trans hk)

/-- The right operand's index at output (n, k) and contraction coordinate i is (i, k). -/
theorem hostDot_rhsIdx (n : Fin 100000) (k i : Fin 128) :
    dot_S100000x128_S128x128_S100000x128_1_0_0_1_n_n.rhsIdx (ix2 n k) ((contrEquiv1 dot_S100000x128_S128x128_S100000x128_1_0_0_1_n_n 128 rfl rfl).symm i) = ix2 i k := by
  have hk := contrEquiv1_symm_val dot_S100000x128_S128x128_S100000x128_1_0_0_1_n_n 128 rfl rfl i
  exact funext fun a => Fin.ext (by
    match a with
    | ⟨0, _⟩ => exact (hostDot_rhs0 _ _).trans hk
    | ⟨1, _⟩ => exact hostDot_rhs1 _ _)

/-- The host's dot at (n, k): Σ_i lhs(n,i) · rhs(i,k). -/
theorem hostDot_apply (o : FVec Ideal S100000x128 .f32) (wt : FVec Ideal S128x128 .f32) (n : Fin 100000) (k : Fin 128) :
    Host.dotGeneral (F := Ideal) dot_S100000x128_S128x128_S100000x128_1_0_0_1_n_n none o wt (ix2 n k)
      = ∑ i : Fin 128, o (ix2 n i) * wt (ix2 i k) := by
  simp only [Host.dotGeneral]
  rw [Ideal.dotGeneral_apply,
    ← Equiv.sum_comp (contrEquiv1 dot_S100000x128_S128x128_S100000x128_1_0_0_1_n_n 128 rfl rfl).symm]
  refine Finset.sum_congr rfl fun i _ => ?_
  rw [hostDot_lhsIdx, hostDot_rhsIdx]

/-- The linear map plus the residual at (n, k) is the row formula of row n. -/
theorem project_apply (o x : FVec Ideal S100000x128 .f32) (wt : FVec Ideal S128x128 .f32) (n : Fin 100000) (k : Fin 128) :
    project o x wt (ix2 n k)
      = projRow (fun i => o (ix2 n i)) (fun i k' => wt (ix2 i k')) (fun k' => x (ix2 n k')) k := by
  unfold project projRow
  exact congrArg (· + x (ix2 n k)) (hostDot_apply o wt n k)

/-! ### The host's row sum, the column view and the two spreads, each at an index -/

/-- The host's quotient reads pointwise. -/
theorem hostDivf_apply {s : Shape} (a b : FVec Ideal s .f32) (i : s.Idx) : Host.divf a b i = Ideal.div (a i) (b i) := rfl

/-- The host's square root reads pointwise. -/
theorem hostSqrt_apply {s : Shape} (a : FVec Ideal s .f32) (i : s.Idx) : Host.sqrt a i = Ideal.sqrt (a i) := rfl

/-- The host's sum along the lanes from the initial word 0, at row n: the sum of the row's 128 entries. -/
theorem hostRowSum_apply (p : FVec Ideal S100000x128 .f32) (n : Fin 100000) :
    Host.reduceAdd (F := Ideal) p (constant (F := Ideal) S_ .f32 0x00000000#32) reducesTo_S100000x128_S100000_d1 h_S_ (ix1 n)
      = ∑ k : Fin 128, p (ix2 n k) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg p (funext fun a => Fin.ext (by match a with | ⟨0, _⟩ => rfl | ⟨1, _⟩ => rfl))

/-- A vector of 100000 entries viewed as a column reads, at (n, 0), its entry n. -/
theorem column_apply (y : FVec Ideal S100000 .f32) (n : Fin 100000) (z : Fin 1) :
    broadcastInDim S100000x1 ![0] bcast_S100000_S100000x1_0 y (ix2 n z) = y (ix1 n) :=
  broadcastInDim_apply _ bcast_S100000_S100000x1_0 y (ix2 n z) (ix1 n) (fun a => match a with
    | ⟨0, _⟩ => by show n.val = if (100000 : Nat) = 1 then 0 else n.val; rw [if_neg (by decide)])

/-- A column spread along the lanes reads, at (n, q), the column's entry of row n. -/
theorem spread_apply (c : FVec Ideal S100000x1 .f32) (n : Fin 100000) (q : Fin 128) :
    broadcastInDim S100000x128 ![0, 1] bcast_S100000x1_S100000x128_0_1 c (ix2 n q) = c (ix2 n 0) :=
  broadcastInDim_apply _ bcast_S100000x1_S100000x128_0_1 c (ix2 n q) (ix2 n 0) (fun a => match a with
    | ⟨0, _⟩ => by show n.val = if (100000 : Nat) = 1 then 0 else n.val; rw [if_neg (by decide)]
    | ⟨1, _⟩ => by show 0 = if (1 : Nat) = 1 then 0 else q.val; rw [if_pos rfl])

/-- A vector of 128 entries viewed as a row and spread along the rows reads, at (n, q), its entry q. -/
theorem laneRow_apply (g : FVec Ideal S128 .f32) (n : Fin 100000) (q : Fin 128) :
    broadcastInDim S100000x128 ![0, 1] bcast_S1x128_S100000x128_0_1 (broadcastInDim S1x128 ![1] bcast_S128_S1x128_1 g) (ix2 n q)
      = g (ix1 q) :=
  (broadcastInDim_apply _ bcast_S1x128_S100000x128_0_1 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])).trans
  (broadcastInDim_apply _ bcast_S128_S1x128_1 g (ix2 (0 : Fin 1) q) (ix1 q) (fun a => match a with
    | ⟨0, _⟩ => by show q.val = if (128 : Nat) = 1 then 0 else q.val; rw [if_neg (by decide)]))

/-! ### The mean, the centered row and the layer norm at an index -/

/-- Every row's mean, at (n, 0): the mean of row n. -/
theorem rowMean_apply (p : FVec Ideal S100000x128 .f32) (n : Fin 100000) (z : Fin 1) :
    rowMean p (ix2 n z) = mean128 (fun k => p (ix2 n k)) := by
  unfold rowMean mean128
  rw [hostDivf_apply, column_apply, hostRowSum_apply]
  rfl

/-- Every row minus its mean, at (n, q). -/
theorem centered_apply (p : FVec Ideal S100000x128 .f32) (n : Fin 100000) (q : Fin 128) :
    centered p (ix2 n q) = p (ix2 n q) - mean128 (fun k => p (ix2 n k)) := by
  unfold centered
  rw [subf_apply, spread_apply, rowMean_apply]

/-- The layer norm at (n, q) is the row formula of row n. -/
theorem layerNorm_apply (p : FVec Ideal S100000x128 .f32) (g b : FVec Ideal S128 .f32) (n : Fin 100000) (q : Fin 128) :
    layerNorm p g b (ix2 n q) = normRow (fun k => p (ix2 n k)) (g (ix1 q)) (b (ix1 q)) q := by
  have hv : rowMean (mulf (centered p) (centered p)) (ix2 n 0)
      = mean128 (fun k => (p (ix2 n k) - mean128 (fun k => p (ix2 n k))) * (p (ix2 n k) - mean128 (fun k => p (ix2 n k)))) := by
    rw [rowMean_apply]
    exact congrArg mean128 (funext fun k => by rw [mulf_apply, centered_apply])
  unfold layerNorm normRow
  rw [addf_apply, mulf_apply, hostDivf_apply, spread_apply, hostSqrt_apply, addf_apply, laneRow_apply, laneRow_apply,
    centered_apply, hv]
  rfl

end Cert.Spec

namespace Cert.KernelIdeal.Rows

open Cert.KernelIdeal Cert.KernelIdeal.Gen

/-! ### The matrix product of a block: its operand indices at (p, k) and contraction coordinate i are (p, i) and (i, k) -/

/-- The left operand's first coordinate is the output's first. -/
theorem blockDot_lhs0 (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The left operand's second coordinate is the contraction's. -/
theorem blockDot_lhs1 (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q

/-- The right operand's first coordinate is the contraction's. -/
theorem blockDot_rhs0 (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q

/-- The right operand's second coordinate is the output's second. -/
theorem blockDot_rhs1 (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The left operand's index at output (n, k) and contraction coordinate i is (n, i). -/
theorem blockDot_lhsIdx (n : Fin 4000) (k i : Fin 128) :
    dot_S4000x128_S128x128_S4000x128_1_0_0_1_n_n.lhsIdx (ix2 n k) ((contrEquiv1 dot_S4000x128_S128x128_S4000x128_1_0_0_1_n_n 128 rfl rfl).symm i) = ix2 n i := by
  have hk := contrEquiv1_symm_val dot_S4000x128_S128x128_S4000x128_1_0_0_1_n_n 128 rfl rfl i
  exact funext fun a => Fin.ext (by
    match a with
    | ⟨0, _⟩ => exact blockDot_lhs0 _ _
    | ⟨1, _⟩ => exact (blockDot_lhs1 _ _).trans hk)

/-- The right operand's index at output (n, k) and contraction coordinate i is (i, k). -/
theorem blockDot_rhsIdx (n : Fin 4000) (k i : Fin 128) :
    dot_S4000x128_S128x128_S4000x128_1_0_0_1_n_n.rhsIdx (ix2 n k) ((contrEquiv1 dot_S4000x128_S128x128_S4000x128_1_0_0_1_n_n 128 rfl rfl).symm i) = ix2 i k := by
  have hk := contrEquiv1_symm_val dot_S4000x128_S128x128_S4000x128_1_0_0_1_n_n 128 rfl rfl i
  exact funext fun a => Fin.ext (by
    match a with
    | ⟨0, _⟩ => exact (blockDot_rhs0 _ _).trans hk
    | ⟨1, _⟩ => exact blockDot_rhs1 _ _)

/-- The matrix product into the zero accumulator at (p, k): Σ_i lhs(p,i) · rhs(i,k); the format changes of its operands
    are the identity. -/
theorem blockDot_apply (a : FVec Ideal S4000x128 .f32) (w : FVec Ideal S128x128 .f32)
    (hb : FTy.bits .bf16 < FTy.bits .f32) (p : Fin 4000) (k : Fin 128) :
    matmul (F := Ideal) dot_S4000x128_S128x128_S4000x128_1_0_0_1_n_n none (truncf .bf16 a hb) (truncf .bf16 w hb)
        (constant (F := Ideal) S4000x128 .f32 0x00000000#32) (ix2 p k)
      = ∑ i : Fin 128, a (ix2 p i) * w (ix2 i k) := by
  simp only [matmul]
  rw [Ideal.matmul_constant_zero_apply,
    ← Equiv.sum_comp (contrEquiv1 dot_S4000x128_S128x128_S4000x128_1_0_0_1_n_n 128 rfl rfl).symm]
  refine Finset.sum_congr rfl fun i _ => ?_
  rw [blockDot_lhsIdx, blockDot_rhsIdx]
  rfl

/-! ### The lane sum, the column view and the two spreads of a block, each at an index -/

/-- The sum along the lanes at row p: the sum of the row's 128 entries. -/
theorem laneSum_apply (v : FVec Ideal S4000x128 .f32) (h : S4000x128.Reduces [1] S4000) (hφ : FKind.Formats .f32)
    (hacc : (0x00000000#32 : BitVec 32) = FKind.add.neutral .f32 hφ) (p : Fin 4000) :
    multiReduction .add [1] S4000 v 0x00000000#32 h hφ hacc (ix1 p) = ∑ k : Fin 128, v (ix2 p k) := by
  rw [Ideal.multiReduction_add_single]
  refine Finset.sum_congr rfl fun k _ => ?_
  exact congrArg v (funext fun a => Fin.ext (by match a with | ⟨0, _⟩ => rfl | ⟨1, _⟩ => rfl))

/-- A vector of 4000 entries viewed as a column reads, at (p, 0), its entry p. -/
theorem column_apply (y : FVec Ideal S4000 .f32) (h : S4000.ShapeCasts S4000x1) (p : Fin 4000) (z : Fin 1) :
    shapeCast S4000x1 y h (ix2 p z) = y (ix1 p) :=
  shapeCast_apply y h (ix2 p z) (ix1 p) (by
    rewrite [Shape.rowMajor_val_one, Shape.rowMajor_val_two]
    have hz : z.val < 1 := z.isLt
    show p.val = p.val * 1 + z.val
    omega)

/-- A column spread along the lanes reads, at (p, q), the column's entry of row p. -/
theorem spread_apply (c : FVec Ideal S4000x1 .f32) (h : S4000x1.Broadcasts S4000x128) (p : Fin 4000) (q : Fin 128) :
    broadcastTo S4000x128 c h (ix2 p q) = c (ix2 p 0) :=
  broadcastTo_apply c h (ix2 p q) (ix2 p 0) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A vector of 128 entries viewed as a row and spread along the rows reads, at (p, q), its entry q. -/
theorem laneRow_apply (g : FVec Ideal S128 .f32) (h : S128.ShapeCasts S1x128) (h' : S1x128.Broadcasts S4000x128)
    (p : Fin 4000) (q : Fin 128) :
    broadcastTo S4000x128 (shapeCast S1x128 g h) h' (ix2 p q) = g (ix1 q) :=
  (broadcastTo_apply (shapeCast S1x128 g h) h' (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (shapeCast_apply g h (ix2 (0 : Fin 1) q) (ix1 q) (by
    rewrite [Shape.rowMajor_val_one, Shape.rowMajor_val_two]
    show q.val = 0 * 128 + q.val
    omega))

/-! ### A block's projection, mean, centered rows and layer norm as whole-block terms, and each at an index -/

/-- The linear map of a block's rows plus the residual: the matrix product into the zero accumulator, plus x. -/
def blockProject (o x : FVec Ideal S4000x128 .f32) (w : FVec Ideal S128x128 .f32) : FVec Ideal S4000x128 .f32 :=
  addf (matmul dot_S4000x128_S128x128_S4000x128_1_0_0_1_n_n none (truncf .bf16 o bitsLt_bf16_f32) (truncf .bf16 w bitsLt_bf16_f32)
    (constant S4000x128 .f32 0x00000000#32)) x

/-- f32 is a format a lane sum is taken at. -/
theorem f32_formats : FKind.Formats .f32 := .inl rfl

/-- The zero word is the neutral word of the sum at f32. -/
theorem zeroWord_neutral : (0x00000000#32 : BitVec 32) = FKind.add.neutral .f32 f32_formats := rfl

/-- Every row's mean, as a column: the lane sum viewed as a column, divided by the word 128.0. -/
def blockMean (v : FVec Ideal S4000x128 .f32) : FVec Ideal S4000x1 .f32 :=
  divf (shapeCast S4000x1 (multiReduction .add [1] S4000 v 0x00000000#32 reduces_S4000x128_S4000 f32_formats zeroWord_neutral) shapeCasts_S4000_S4000x1)
    (broadcast S4000x1 (Scalar.ofBits .f32 0x43000000#32))

/-- Every row minus its mean. -/
def blockCentered (v : FVec Ideal S4000x128 .f32) : FVec Ideal S4000x128 .f32 :=
  subf v (broadcastTo S4000x128 (blockMean v) broadcasts_S4000x1_S4000x128)

/-- The layer norm of every row of a block, scaled by g and shifted by b along the row. -/
def blockNorm (v : FVec Ideal S4000x128 .f32) (g b : FVec Ideal S128 .f32) : FVec Ideal S4000x128 .f32 :=
  addf (mulf (divf (blockCentered v)
        (broadcastTo S4000x128
          (sqrt (addf (blockMean (mulf (blockCentered v) (blockCentered v))) (broadcast S4000x1 (Scalar.ofBits .f32 0x3727C5AC#32))))
          broadcasts_S4000x1_S4000x128))
      (broadcastTo S4000x128 (shapeCast S1x128 g shapeCasts_S128_S1x128) broadcasts_S1x128_S4000x128))
    (broadcastTo S4000x128 (shapeCast S1x128 b shapeCasts_S128_S1x128) broadcasts_S1x128_S4000x128)

/-- The block's projection at (p, k) is the row formula of row p. -/
theorem blockProject_apply (o x : FVec Ideal S4000x128 .f32) (w : FVec Ideal S128x128 .f32) (p : Fin 4000) (k : Fin 128) :
    blockProject o x w (ix2 p k)
      = Cert.Spec.projRow (fun i => o (ix2 p i)) (fun i k' => w (ix2 i k')) (fun k' => x (ix2 p k')) k := by
  unfold blockProject Cert.Spec.projRow
  rw [addf_apply, blockDot_apply]

/-- The block's mean column at (p, 0): the mean of row p. -/
theorem blockMean_apply (v : FVec Ideal S4000x128 .f32) (p : Fin 4000) (z : Fin 1) :
    blockMean v (ix2 p z) = Cert.Spec.mean128 (fun k => v (ix2 p k)) := by
  unfold blockMean Cert.Spec.mean128
  rw [divf_apply, column_apply, laneSum_apply]
  rfl

/-- The block's centered rows at (p, q). -/
theorem blockCentered_apply (v : FVec Ideal S4000x128 .f32) (p : Fin 4000) (q : Fin 128) :
    blockCentered v (ix2 p q) = v (ix2 p q) - Cert.Spec.mean128 (fun k => v (ix2 p k)) := by
  unfold blockCentered
  rw [subf_apply, spread_apply, blockMean_apply]

/-- The block's layer norm at (p, q) is the row formula of row p. -/
theorem blockNorm_apply (v : FVec Ideal S4000x128 .f32) (g b : FVec Ideal S128 .f32) (p : Fin 4000) (q : Fin 128) :
    blockNorm v g b (ix2 p q) = Cert.Spec.normRow (fun k => v (ix2 p k)) (g (ix1 q)) (b (ix1 q)) q := by
  have hv : blockMean (mulf (blockCentered v) (blockCentered v)) (ix2 p 0)
      = Cert.Spec.mean128 (fun k => (v (ix2 p k) - Cert.Spec.mean128 (fun k => v (ix2 p k)))
          * (v (ix2 p k) - Cert.Spec.mean128 (fun k => v (ix2 p k)))) := by
    rw [blockMean_apply]
    exact congrArg Cert.Spec.mean128 (funext fun k => by rw [mulf_apply, blockCentered_apply])
  unfold blockNorm Cert.Spec.normRow
  rw [addf_apply, mulf_apply, divf_apply, spread_apply, laneRow_apply, laneRow_apply, blockCentered_apply]
  show Ideal.div _ (Ideal.sqrt (blockMean (mulf (blockCentered v) (blockCentered v)) (ix2 p 0) + _)) * _ + _ = _
  rw [hv]
  rfl

/-! ### The two payloads -/

/-- The first layer's payload is the maximum with zero of the block's layer norm of its projection. -/
theorem pay1_eq (x0 x1 : Vec Ideal S4000x128 .f32) (x2 : Vec Ideal S128x128 .f32) (x3 x4 : Vec Ideal S128 .f32) :
    k1_pay1 (F := Ideal) x0 x1 x2 x3 x4
      = maximumf (blockNorm (blockProject x0 x1 x2) x3 x4) (broadcast S4000x128 (Scalar.ofBits .f32 0x00000000#32)) := by
  unfold k1_pay1
  simp only [shapeCast_self]
  rfl

/-- The second layer's payload is the block's layer norm of its projection. -/
theorem pay3_eq (x0 x1 : Vec Ideal S4000x128 .f32) (x2 : Vec Ideal S128x128 .f32) (x3 x4 : Vec Ideal S128 .f32) :
    k3_pay1 (F := Ideal) x0 x1 x2 x3 x4 = blockNorm (blockProject x0 x1 x2) x3 x4 := by
  unfold k3_pay1
  simp only [shapeCast_self]
  rfl

/-- The first layer's payload at (p, q): the row formulas of row p, and the maximum with zero. -/
theorem pay1_apply (x0 x1 : Vec Ideal S4000x128 .f32) (x2 : Vec Ideal S128x128 .f32) (x3 x4 : Vec Ideal S128 .f32)
    (p : Fin 4000) (q : Fin 128) :
    k1_pay1 (F := Ideal) x0 x1 x2 x3 x4 (ix2 p q)
      = max (Cert.Spec.normRow (Cert.Spec.projRow (fun i => x0 (ix2 p i)) (fun i k => x2 (ix2 i k)) (fun k => x1 (ix2 p k)))
          (x3 (ix1 q)) (x4 (ix1 q)) q) (Ideal.ofBits .f32 0x00000000#32) := by
  rw [pay1_eq, maximumf_apply, blockNorm_apply]
  exact congrArg (fun f => max (Cert.Spec.normRow f (x3 (ix1 q)) (x4 (ix1 q)) q) (Ideal.ofBits .f32 0x00000000#32))
    (funext fun k => blockProject_apply x0 x1 x2 p k)

/-- The second layer's payload at (p, q): the row formulas of row p. -/
theorem pay3_apply (x0 x1 : Vec Ideal S4000x128 .f32) (x2 : Vec Ideal S128x128 .f32) (x3 x4 : Vec Ideal S128 .f32)
    (p : Fin 4000) (q : Fin 128) :
    k3_pay1 (F := Ideal) x0 x1 x2 x3 x4 (ix2 p q)
      = Cert.Spec.normRow (Cert.Spec.projRow (fun i => x0 (ix2 p i)) (fun i k => x2 (ix2 i k)) (fun k => x1 (ix2 p k)))
          (x3 (ix1 q)) (x4 (ix1 q)) q := by
  rw [pay3_eq, blockNorm_apply]
  exact congrArg (fun f => Cert.Spec.normRow f (x3 (ix1 q)) (x4 (ix1 q)) q) (funext fun k => blockProject_apply x0 x1 x2 p k)

end Cert.KernelIdeal.Rows

end
-- ==== Proof.NormRegions.lean ====
/-
  Each normalized-projection region's output array as one whole-array function of the arrays the region finds.

  A region runs over 25 points; point t reads rows 4000·t … 4000·t + 3999 of the aggregated array and of the residual, the
  whole 128 × 128 matrix and the two whole rows of 128 scales and shifts, and writes back rows 4000·t … 4000·t + 3999 of the
  output. What it writes at row p of its block and lane q is the row formula of that row (the block's payload read at an
  entry), which is the entry (4000·t + p, q) of the whole-array function (the specification's host terms read at an
  entry). The 25 blocks tile the 100000 rows: row r is in block r / 4000. So the output array ends holding the whole-array
  function.
-/
import proofs.«114701_j26036091748361_1_alg».proof.Proof.NormRows
import proofs.«114701_j26036091748361_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The zero offsets of a rank-2 access. -/
theorem zeroOffsets2 : (![0, 0] : Fin 2 → Nat) = fun _ => 0 := funext fun a => by fin_cases a <;> rfl

/-- The zero offset of a rank-1 access. -/
theorem zeroOffsets1 : (![0] : Fin 1 → Nat) = fun _ => 0 := funext fun a => by fin_cases a; rfl

/-- Two functions of a rank-2 index agree when they agree at every pair of coordinates. -/
theorem funext_ix2 {α : Type} {n0 n1 : Nat} (f g : (⟨2, ![n0, n1]⟩ : Shape).Idx → α)
    (h : ∀ (p : Fin n0) (q : Fin n1), f (ix2 p q) = g (ix2 p q)) : f = g :=
  funext fun j => by rw [eq_ix2 j]; exact h _ _

/-! ## Region 1 -/

/-- The index maps of the windows of region 1, decided over its 25 points: the two row-blocked inputs and the output are at
    block (t, 0); the matrix and the two rows of 128 are at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- Input window 0's block at point t is rows 4000·t … 4000·t + 3999 of its array. -/
theorem in0_apply1 (c : Dev nD) (t : Fin cfg1.N) (p : Fin 4000) (k : Fin 128) (h : t.val * 4000 + p.val < 100000) :
    (iblk1 V c 0 t : Vec Ideal S4000x128 .f32) (ix2 p k)
      = (V c main_v40 : S100000x128.Idx → Elt Ideal .f32) (ix2 ⟨t.val * 4000 + p.val, h⟩ k) := by
  obtain ⟨e00, e01, e10, e11, -⟩ := idx_facts1 t
  unfold iblk1
  rw [View.read_apply]
  show V c main_v40 _ = V c main_v40 _
  congr 1
  funext a; apply Fin.ext
  match a with
  | ⟨0, _⟩ => show win1_0.index t (0 : Fin 2) * 4000 + 1 * p.val = t.val * 4000 + p.val; rw [e00]; omega
  | ⟨1, _⟩ => show win1_0.index t (1 : Fin 2) * 128 + 1 * k.val = k.val; rw [e01]; omega

/-- Input window 1's block at point t is rows 4000·t … 4000·t + 3999 of its array. -/
theorem in1_apply1 (c : Dev nD) (t : Fin cfg1.N) (p : Fin 4000) (k : Fin 128) (h : t.val * 4000 + p.val < 100000) :
    (iblk1 V c 1 t : Vec Ideal S4000x128 .f32) (ix2 p k)
      = (V c main_arg2 : S100000x128.Idx → Elt Ideal .f32) (ix2 ⟨t.val * 4000 + p.val, h⟩ k) := by
  obtain ⟨e00, e01, e10, e11, -⟩ := idx_facts1 t
  unfold iblk1
  rw [View.read_apply]
  show V c main_arg2 _ = V c main_arg2 _
  congr 1
  funext a; apply Fin.ext
  match a with
  | ⟨0, _⟩ => show win1_1.index t (0 : Fin 2) * 4000 + 1 * p.val = t.val * 4000 + p.val; rw [e10]; omega
  | ⟨1, _⟩ => show win1_1.index t (1 : Fin 2) * 128 + 1 * k.val = k.val; rw [e11]; omega

/-- Input window 2's block at every point is the whole 128 × 128 matrix. -/
theorem in2_eq1 (c : Dev nD) (t : Fin cfg1.N) :
    (iblk1 V c 2 t : Vec Ideal S128x128 .f32) = (V c main_v41 : S128x128.Idx → Elt Ideal .f32) := by
  obtain ⟨-, -, -, -, e0, e1, -⟩ := idx_facts1 t
  funext j
  unfold iblk1
  rw [View.read_apply]
  show V c main_v41 _ = V c main_v41 _
  congr 1
  funext a; apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- Input window 3's block at every point is its whole row of 128. -/
theorem in3_eq1 (c : Dev nD) (t : Fin cfg1.N) :
    (iblk1 V c 3 t : Vec Ideal S128 .f32) = (V c main_arg6 : S128.Idx → Elt Ideal .f32) := by
  obtain ⟨-, -, -, -, -, -, e3, e4, -⟩ := idx_facts1 t
  funext j
  unfold iblk1
  rw [View.read_apply]
  show V c main_arg6 _ = V c main_arg6 _
  congr 1
  funext a; apply Fin.ext
  match a with
  | ⟨0, _⟩ => show win1_3.index t (0 : Fin 1) * 128 + 1 * (j 0).val = (j 0).val; rw [e3]; omega

/-- Input window 4's block at every point is its whole row of 128. -/
theorem in4_eq1 (c : Dev nD) (t : Fin cfg1.N) :
    (iblk1 V c 4 t : Vec Ideal S128 .f32) = (V c main_arg7 : S128.Idx → Elt Ideal .f32) := by
  obtain ⟨-, -, -, -, -, -, e3, e4, -⟩ := idx_facts1 t
  funext j
  unfold iblk1
  rw [View.read_apply]
  show V c main_arg7 _ = V c main_arg7 _
  congr 1
  funext a; apply Fin.ext
  match a with
  | ⟨0, _⟩ => show win1_4.index t (0 : Fin 1) * 128 + 1 * (j 0).val = (j 0).val; rw [e4]; omega

/-- The output block's entry (p, q) at point t is the array's entry (4000·t + p, q). -/
theorem out_emb1 (t : Fin cfg1.N) (p : Fin 4000) (q : Fin 128) (h : t.val * 4000 + p.val < 100000) :
    ((cfg1.win 5).blk t).view.emb (ix2 p q) = (ix2 ⟨t.val * 4000 + p.val, h⟩ q : S100000x128.Idx) := by
  obtain ⟨-, -, -, -, -, -, -, -, e0, e1⟩ := idx_facts1 t
  funext a; apply Fin.ext
  match a with
  | ⟨0, _⟩ => show win1_5.index t (0 : Fin 2) * 4000 + 1 * p.val = t.val * 4000 + p.val; rw [e0]; omega
  | ⟨1, _⟩ => show win1_5.index t (1 : Fin 2) * 128 + 1 * q.val = q.val; rw [e1]; omega

/-- The payload at entry (p, q) of a block whose rows are rows of the arrays, row p being row n, is the whole-array
    function's entry (n, q): both are the row formulas of that row. -/
theorem block_entry1 (X0 X1 : Vec Ideal S4000x128 .f32) (X2 : Vec Ideal S128x128 .f32) (X3 X4 : Vec Ideal S128 .f32)
    (A0 A1 : FVec Ideal S100000x128 .f32) (A2 : FVec Ideal S128x128 .f32) (A3 A4 : FVec Ideal S128 .f32)
    (p : Fin 4000) (n : Fin 100000)
    (h0 : ∀ i, X0 (ix2 p i) = A0 (ix2 n i)) (h1 : ∀ k, X1 (ix2 p k) = A1 (ix2 n k))
    (h2 : ∀ i k, X2 (ix2 i k) = A2 (ix2 i k)) (h3 : ∀ q, X3 (ix1 q) = A3 (ix1 q)) (h4 : ∀ q, X4 (ix1 q) = A4 (ix1 q))
    (q : Fin 128) :
    k1_pay1 (F := Ideal) X0 X1 X2 X3 X4 (ix2 p q) = Cert.Spec.relu (Cert.Spec.layerNorm (Cert.Spec.project A0 A1 A2) A3 A4) (ix2 n q) := by
  rw [Rows.pay1_apply, Cert.Spec.relu_apply, Cert.Spec.layerNorm_apply,
    show (fun k => Cert.Spec.project A0 A1 A2 (ix2 n k))
        = Cert.Spec.projRow (fun i => A0 (ix2 n i)) (fun i k' => A2 (ix2 i k')) (fun k' => A1 (ix2 n k'))
      from funext fun k => Cert.Spec.project_apply A0 A1 A2 n k,
    show (fun i => X0 (ix2 p i)) = fun i => A0 (ix2 n i) from funext h0,
    show (fun k => X1 (ix2 p k)) = fun k => A1 (ix2 n k) from funext h1,
    show (fun i k => X2 (ix2 i k)) = fun i k => A2 (ix2 i k) from funext fun i => funext fun k => h2 i k,
    h3 q, h4 q]

/-- What point t writes back is block t of the whole-array function of the arrays the region finds. -/
theorem flushed1_eq (c : Dev nD) (t : Fin cfg1.N) :
    (dat1 V c).flushed 5 t = ((cfg1.win 5).blk t).view.read (Elt Ideal)
      (Cert.Spec.relu (Cert.Spec.layerNorm (Cert.Spec.project (V c main_v40) (V c main_arg2) (V c main_v41)) (V c main_arg6) (V c main_arg7))) := by
  have hN : cfg1.N = 25 := N_1
  show (cfg1.win 5).cut (grid1.coords t) ((dat1 V c).after 5 t) = _
  rw [after1_5]
  unfold out1_5
  rw [View.canon_unit_zero zeroOffsets2]
  simp only [View.ld_unit_zero (S := S4000x128) zeroOffsets2, View.ld_unit_zero (S := S128x128) zeroOffsets2,
    View.ld_unit_zero (S := S128) zeroOffsets1]
  refine funext_ix2 _ _ fun p q => ?_
  have hp : t.val * 4000 + p.val < 100000 := by have := t.isLt; have := p.isLt; omega
  rw [View.read_apply, out_emb1 t p q hp]
  exact block_entry1 _ _ _ _ _ _ _ _ _ _ p ⟨_, hp⟩ (fun i => in0_apply1 V c t p i hp) (fun k => in1_apply1 V c t p k hp)
    (fun i k => congrFun (in2_eq1 V c t) (ix2 i k)) (fun q => congrFun (in3_eq1 V c t) (ix1 q))
    (fun q => congrFun (in4_eq1 V c t) (ix1 q)) q

/-- An entry of the output array is in point t's block iff each coordinate is in the block's range on its axis. -/
theorem mem_blk1 (t : Fin cfg1.N) (i : S100000x128.Idx) :
    i ∈ ((cfg1.win 5).blk t).view.set
      ↔ ∀ a : Fin 2, win1_5.index t a * S4000x128.size a ≤ (i a).val
          ∧ (i a).val < win1_5.index t a * S4000x128.size a + S4000x128.size a := by
  show i ∈ ((View.whole main_v42).slice (win1_5.rect t)).set ↔ _
  rw [View.set_slice_whole, Rect.mem_set_unit]
  exact Iff.rfl

/-- The 25 blocks of 4000 rows tile the 100000 rows: row r is in the block of point r / 4000, and every point writes back. -/
theorem cover1 (i : S100000x128.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 128 := (i 1).isLt
  have ht : (i 0).val / 4000 < cfg1.N := by omega
  obtain ⟨-, -, -, -, -, -, -, -, e0, e1⟩ := idx_facts1 ⟨(i 0).val / 4000, ht⟩
  refine ⟨⟨(i 0).val / 4000, ht⟩, flush1_5 _, ?_⟩
  rw [mem_blk1]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [e1]
    omega

/-- The output array after the region's 25 points: the whole-array function of the arrays the region finds. -/
theorem norm1_final (c : Dev nD) :
    (dat1 V c).arrAt 5 cfg1.N
      = Cert.Spec.relu (Cert.Spec.layerNorm (Cert.Spec.project (V c main_v40) (V c main_arg2) (V c main_v41)) (V c main_arg6) (V c main_arg7)) :=
  (dat1 V c).arrAt_eq_of_cover 5 _ (fun t _ => flushed1_eq V c t) cover1

/-! ## Region 3 -/

/-- The index maps of the windows of region 3, decided over its 25 points: the two row-blocked inputs and the output are at
    block (t, 0); the matrix and the two rows of 128 are at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 1) = 0
    ∧ win3_5.index t (0 : Fin 2) = t.val ∧ win3_5.index t (1 : Fin 2) = 0 :=
  (by decide +kernel : ∀ t : Fin grid3.N, _)

/-- Input window 0's block at point t is rows 4000·t … 4000·t + 3999 of its array. -/
theorem in0_apply3 (c : Dev nD) (t : Fin cfg3.N) (p : Fin 4000) (k : Fin 128) (h : t.val * 4000 + p.val < 100000) :
    (iblk3 V c 0 t : Vec Ideal S4000x128 .f32) (ix2 p k)
      = (V c main_v62 : S100000x128.Idx → Elt Ideal .f32) (ix2 ⟨t.val * 4000 + p.val, h⟩ k) := by
  obtain ⟨e00, e01, e10, e11, -⟩ := idx_facts3 t
  unfold iblk3
  rw [View.read_apply]
  show V c main_v62 _ = V c main_v62 _
  congr 1
  funext a; apply Fin.ext
  match a with
  | ⟨0, _⟩ => show win3_0.index t (0 : Fin 2) * 4000 + 1 * p.val = t.val * 4000 + p.val; rw [e00]; omega
  | ⟨1, _⟩ => show win3_0.index t (1 : Fin 2) * 128 + 1 * k.val = k.val; rw [e01]; omega

/-- Input window 1's block at point t is rows 4000·t … 4000·t + 3999 of its array. -/
theorem in1_apply3 (c : Dev nD) (t : Fin cfg3.N) (p : Fin 4000) (k : Fin 128) (h : t.val * 4000 + p.val < 100000) :
    (iblk3 V c 1 t : Vec Ideal S4000x128 .f32) (ix2 p k)
      = (V c main_v42 : S100000x128.Idx → Elt Ideal .f32) (ix2 ⟨t.val * 4000 + p.val, h⟩ k) := by
  obtain ⟨e00, e01, e10, e11, -⟩ := idx_facts3 t
  unfold iblk3
  rw [View.read_apply]
  show V c main_v42 _ = V c main_v42 _
  congr 1
  funext a; apply Fin.ext
  match a with
  | ⟨0, _⟩ => show win3_1.index t (0 : Fin 2) * 4000 + 1 * p.val = t.val * 4000 + p.val; rw [e10]; omega
  | ⟨1, _⟩ => show win3_1.index t (1 : Fin 2) * 128 + 1 * k.val = k.val; rw [e11]; omega

/-- Input window 2's block at every point is the whole 128 × 128 matrix. -/
theorem in2_eq3 (c : Dev nD) (t : Fin cfg3.N) :
    (iblk3 V c 2 t : Vec Ideal S128x128 .f32) = (V c main_v63 : S128x128.Idx → Elt Ideal .f32) := by
  obtain ⟨-, -, -, -, e0, e1, -⟩ := idx_facts3 t
  funext j
  unfold iblk3
  rw [View.read_apply]
  show V c main_v63 _ = V c main_v63 _
  congr 1
  funext a; apply Fin.ext
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

/-- Input window 3's block at every point is its whole row of 128. -/
theorem in3_eq3 (c : Dev nD) (t : Fin cfg3.N) :
    (iblk3 V c 3 t : Vec Ideal S128 .f32) = (V c main_arg8 : S128.Idx → Elt Ideal .f32) := by
  obtain ⟨-, -, -, -, -, -, e3, e4, -⟩ := idx_facts3 t
  funext j
  unfold iblk3
  rw [View.read_apply]
  show V c main_arg8 _ = V c main_arg8 _
  congr 1
  funext a; apply Fin.ext
  match a with
  | ⟨0, _⟩ => show win3_3.index t (0 : Fin 1) * 128 + 1 * (j 0).val = (j 0).val; rw [e3]; omega

/-- Input window 4's block at every point is its whole row of 128. -/
theorem in4_eq3 (c : Dev nD) (t : Fin cfg3.N) :
    (iblk3 V c 4 t : Vec Ideal S128 .f32) = (V c main_arg9 : S128.Idx → Elt Ideal .f32) := by
  obtain ⟨-, -, -, -, -, -, e3, e4, -⟩ := idx_facts3 t
  funext j
  unfold iblk3
  rw [View.read_apply]
  show V c main_arg9 _ = V c main_arg9 _
  congr 1
  funext a; apply Fin.ext
  match a with
  | ⟨0, _⟩ => show win3_4.index t (0 : Fin 1) * 128 + 1 * (j 0).val = (j 0).val; rw [e4]; omega

/-- The output block's entry (p, q) at point t is the array's entry (4000·t + p, q). -/
theorem out_emb3 (t : Fin cfg3.N) (p : Fin 4000) (q : Fin 128) (h : t.val * 4000 + p.val < 100000) :
    ((cfg3.win 5).blk t).view.emb (ix2 p q) = (ix2 ⟨t.val * 4000 + p.val, h⟩ q : S100000x128.Idx) := by
  obtain ⟨-, -, -, -, -, -, -, -, e0, e1⟩ := idx_facts3 t
  funext a; apply Fin.ext
  match a with
  | ⟨0, _⟩ => show win3_5.index t (0 : Fin 2) * 4000 + 1 * p.val = t.val * 4000 + p.val; rw [e0]; omega
  | ⟨1, _⟩ => show win3_5.index t (1 : Fin 2) * 128 + 1 * q.val = q.val; rw [e1]; omega

/-- The payload at entry (p, q) of a block whose rows are rows of the arrays, row p being row n, is the whole-array
    function's entry (n, q): both are the row formulas of that row. -/
theorem block_entry3 (X0 X1 : Vec Ideal S4000x128 .f32) (X2 : Vec Ideal S128x128 .f32) (X3 X4 : Vec Ideal S128 .f32)
    (A0 A1 : FVec Ideal S100000x128 .f32) (A2 : FVec Ideal S128x128 .f32) (A3 A4 : FVec Ideal S128 .f32)
    (p : Fin 4000) (n : Fin 100000)
    (h0 : ∀ i, X0 (ix2 p i) = A0 (ix2 n i)) (h1 : ∀ k, X1 (ix2 p k) = A1 (ix2 n k))
    (h2 : ∀ i k, X2 (ix2 i k) = A2 (ix2 i k)) (h3 : ∀ q, X3 (ix1 q) = A3 (ix1 q)) (h4 : ∀ q, X4 (ix1 q) = A4 (ix1 q))
    (q : Fin 128) :
    k3_pay1 (F := Ideal) X0 X1 X2 X3 X4 (ix2 p q) = Cert.Spec.layerNorm (Cert.Spec.project A0 A1 A2) A3 A4 (ix2 n q) := by
  rw [Rows.pay3_apply, Cert.Spec.layerNorm_apply,
    show (fun k => Cert.Spec.project A0 A1 A2 (ix2 n k))
        = Cert.Spec.projRow (fun i => A0 (ix2 n i)) (fun i k' => A2 (ix2 i k')) (fun k' => A1 (ix2 n k'))
      from funext fun k => Cert.Spec.project_apply A0 A1 A2 n k,
    show (fun i => X0 (ix2 p i)) = fun i => A0 (ix2 n i) from funext h0,
    show (fun k => X1 (ix2 p k)) = fun k => A1 (ix2 n k) from funext h1,
    show (fun i k => X2 (ix2 i k)) = fun i k => A2 (ix2 i k) from funext fun i => funext fun k => h2 i k,
    h3 q, h4 q]

/-- What point t writes back is block t of the whole-array function of the arrays the region finds. -/
theorem flushed3_eq (c : Dev nD) (t : Fin cfg3.N) :
    (dat3 V c).flushed 5 t = ((cfg3.win 5).blk t).view.read (Elt Ideal)
      (Cert.Spec.layerNorm (Cert.Spec.project (V c main_v62) (V c main_v42) (V c main_v63)) (V c main_arg8) (V c main_arg9)) := by
  have hN : cfg3.N = 25 := N_3
  show (cfg3.win 5).cut (grid3.coords t) ((dat3 V c).after 5 t) = _
  rw [after3_5]
  unfold out3_5
  rw [View.canon_unit_zero zeroOffsets2]
  simp only [View.ld_unit_zero (S := S4000x128) zeroOffsets2, View.ld_unit_zero (S := S128x128) zeroOffsets2,
    View.ld_unit_zero (S := S128) zeroOffsets1]
  refine funext_ix2 _ _ fun p q => ?_
  have hp : t.val * 4000 + p.val < 100000 := by have := t.isLt; have := p.isLt; omega
  rw [View.read_apply, out_emb3 t p q hp]
  exact block_entry3 _ _ _ _ _ _ _ _ _ _ p ⟨_, hp⟩ (fun i => in0_apply3 V c t p i hp) (fun k => in1_apply3 V c t p k hp)
    (fun i k => congrFun (in2_eq3 V c t) (ix2 i k)) (fun q => congrFun (in3_eq3 V c t) (ix1 q))
    (fun q => congrFun (in4_eq3 V c t) (ix1 q)) q

/-- An entry of the output array is in point t's block iff each coordinate is in the block's range on its axis. -/
theorem mem_blk3 (t : Fin cfg3.N) (i : S100000x128.Idx) :
    i ∈ ((cfg3.win 5).blk t).view.set
      ↔ ∀ a : Fin 2, win3_5.index t a * S4000x128.size a ≤ (i a).val
          ∧ (i a).val < win3_5.index t a * S4000x128.size a + S4000x128.size a := by
  show i ∈ ((View.whole main_v64).slice (win3_5.rect t)).set ↔ _
  rw [View.set_slice_whole, Rect.mem_set_unit]
  exact Iff.rfl

/-- The 25 blocks of 4000 rows tile the 100000 rows: row r is in the block of point r / 4000, and every point writes back. -/
theorem cover3 (i : S100000x128.Idx) :
    ∃ t : Fin cfg3.N, (cfg3.win 5).flush t = true ∧ i ∈ ((cfg3.win 5).blk t).view.set := by
  have hN : cfg3.N = 25 := N_3
  have hi0 : (i 0).val < 100000 := (i 0).isLt
  have hi1 : (i 1).val < 128 := (i 1).isLt
  have ht : (i 0).val / 4000 < cfg3.N := by omega
  obtain ⟨-, -, -, -, -, -, -, -, e0, e1⟩ := idx_facts3 ⟨(i 0).val / 4000, ht⟩
  refine ⟨⟨(i 0).val / 4000, ht⟩, flush3_5 _, ?_⟩
  rw [mem_blk3]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win3_5.index ⟨(i 0).val / 4000, ht⟩ (1 : Fin 2) * 128 ≤ (i 1).val
      ∧ (i 1).val < win3_5.index ⟨(i 0).val / 4000, ht⟩ (1 : Fin 2) * 128 + 128
    rw [e1]
    omega

/-- The output array after the region's 25 points: the whole-array function of the arrays the region finds. -/
theorem norm3_final (c : Dev nD) :
    (dat3 V c).arrAt 5 cfg3.N
      = Cert.Spec.layerNorm (Cert.Spec.project (V c main_v62) (V c main_v42) (V c main_v63)) (V c main_arg8) (V c main_arg9) :=
  (dat3 V c).arrAt_eq_of_cover 5 _ (fun t _ => flushed3_eq V c t) cover3

end Cert.KernelIdeal.Regions

end
-- ==== Proof.KernelValue.lean ====
/-
  The idealized kernel program's result as one composed term of its arguments.

  Between the regions the program runs host operations: before the first region it separates the edge list into sources
  and targets, scales every relation row to unit length (dividing by the larger of its norm and 1e-6), counts each node's
  incoming edges and takes the reciprocal of the larger of that count and one, and gathers a source row and a relation
  row for every edge; after a reflection region it adds every edge's message into its target's row and multiplies the row
  by the node's reciprocal degree, and transposes the layer's weight matrix. Each of these is a small function of arrays;
  each region's output is the reflection, or the normalized projection, of the arrays it finds (proved for arbitrary entry
  contents). Walking the buffers' contents through the eight segments, the result array is the second layer's normalized
  projection of the first layer's, of the arguments as launched.
-/
import proofs.«114701_j26036091748361_1_alg».proof.Proof.KernelRun
import proofs.«114701_j26036091748361_1_alg».proof.Proof.ReflectRegions
import proofs.«114701_j26036091748361_1_alg».proof.Proof.NormRegions
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen

/-- Integer and float arrays of a shape, at the extended reals. -/
abbrev I32 (s : Shape) := (⟨s, .i32⟩ : BufTy).Contents (Elt Ideal)
abbrev F32 (s : Shape) := (⟨s, .f32⟩ : BufTy).Contents (Elt Ideal)

/-! ## The host stretches as functions of arrays -/

/-- The edges' source nodes: row 0 of the edge list. -/
def sources (a0 : I32 S2x1600000) : I32 S1600000 :=
  shapeCast _ (extractStridedSlice S1x1600000 ![0, 0] a0 slices_S2x1600000_S1x1600000_0_0) shapeCasts_S1x1600000_S1600000

/-- The edges' target nodes: row 1 of the edge list. -/
def targets (a0 : I32 S2x1600000) : I32 S1600000 :=
  shapeCast _ (extractStridedSlice S1x1600000 ![1, 0] a0 slices_S2x1600000_S1x1600000_1_0) shapeCasts_S1x1600000_S1600000

/-- An index vector with negative entries wrapped by the table's length `n`, as a column of gather indices. -/
def wrapped (n : BitVec 32) (i : I32 S1600000) : I32 S1600000x1 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 n))) i)

/-- Every relation row divided by the larger of its Euclidean norm and the word 1e-6. -/
def unitRelations (r : F32 S1001x128) : F32 S1001x128 :=
  Host.divf r (broadcastInDim S1001x128 ![0, 1] bcast_S1001x1_S1001x128_0_1
    (maximumf (Host.sqrt (broadcastInDim S1001x1 ![0] bcast_S1001_S1001x1_0
        (Host.reduceAdd (mulf r r) (constant (F := Ideal) S_ .f32 0x00000000#32) reducesTo_S1001x128_S1001_d1 h_S_)))
      (broadcastInDim S1001x1 ![] bcast_S_S1001x1 (constant (F := Ideal) S_ .f32 0x358637BD#32))))

/-- Each node's number of incoming edges, at least one: ones added at the targets into zeros, then the maximum with one. -/
def degree (tgt : I32 S1600000) : F32 S100000 :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 tgt)
      (broadcastInDim S1600000 ![] bcast_S_S1600000 (constant (F := Ideal) S_ .f32 0x3F800000#32)))
    (broadcastInDim S100000 ![] bcast_S_S100000 (constant (F := Ideal) S_ .f32 0x3F800000#32))

/-- One over the degree, as a column. -/
def inverseDegree (tgt : I32 S1600000) : F32 S100000x1 :=
  broadcastInDim S100000x1 ![0] bcast_S100000_S100000x1_0
    (Host.divf (broadcastInDim S100000 ![] bcast_S_S100000 (constant (F := Ideal) S_ .f32 0x3F800000#32)) (degree tgt))

/-- Every edge's source row of the node features. -/
def sourceRows (x : F32 S100000x128) (src : I32 S1600000) : F32 S1600000x128 :=
  Host.gather gather_S100000x128_S1600000x1_S1600000x128_1_0_n_n_0_1_1128 x (wrapped 100000#32 src)

/-- Every edge's relation row. -/
def relationRows (rel : F32 S1001x128) (et : I32 S1600000) : F32 S1600000x128 :=
  Host.gather gather_S1001x128_S1600000x1_S1600000x128_1_0_n_n_0_1_1128 rel (wrapped 1001#32 et)

/-- The edges' messages added into their targets' rows, each row times the node's reciprocal degree. -/
def aggregate (msg : F32 S1600000x128) (tgt : I32 S1600000) (dinv : F32 S100000x1) : F32 S100000x128 :=
  mulf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 tgt) msg)
    (broadcastInDim S100000x128 ![0, 1] bcast_S100000x1_S100000x128_0_1 dinv)

/-- A weight matrix transposed. -/
def transposed (w : F32 S128x128) : F32 S128x128 := transpose S128x128 [1, 0] w transposes_S128x128_S128x128_1_0

/-- One layer before its normalization's optional maximum with zero: gather, reflect, aggregate, project, normalize. -/
def layer (x : F32 S100000x128) (a0 : I32 S2x1600000) (a1 : I32 S1600000) (r : F32 S1001x128) (w : F32 S128x128)
    (g b : F32 S128) : F32 S100000x128 :=
  Cert.Spec.layerNorm (Cert.Spec.project
      (aggregate (Cert.Spec.reflect (sourceRows x (sources a0)) (relationRows (unitRelations r) a1)) (targets a0) (inverseDegree (targets a0)))
      x (transposed w)) g b

/-- The program's result: the second layer of the first layer's maximum with zero. -/
def result (a0 : I32 S2x1600000) (a1 : I32 S1600000) (x0 : F32 S100000x128) (r : F32 S1001x128) (w1 w2 : F32 S128x128)
    (g1 b1 g2 b2 : F32 S128) : F32 S100000x128 :=
  layer (Cert.Spec.relu (layer x0 a0 a1 r w1 g1 b1)) a0 a1 r w2 g2 b2

/-! ## What each stretch writes, for any contents it starts from -/

variable (W : Valuation τ sig (Elt Ideal))

theorem stretch0_sources : after hostOps0 W (Proc.devRef .tc main_v1) = sources (W (Proc.devRef .tc main_arg0)) := by
  after_results_simp <;> rfl
theorem stretch0_targets : after hostOps0 W (Proc.devRef .tc main_v3) = targets (W (Proc.devRef .tc main_arg0)) := by
  after_results_simp <;> rfl
theorem stretch0_relations : after hostOps0 W (Proc.devRef .tc main_v11) = unitRelations (W (Proc.devRef .tc main_arg3)) := by
  after_results_simp <;> rfl
theorem stretch0_inverseDegree : after hostOps0 W (Proc.devRef .tc main_v20) = inverseDegree (targets (W (Proc.devRef .tc main_arg0))) := by
  after_results_simp <;> rfl
theorem stretch0_sourceRows : after hostOps0 W (Proc.devRef .tc main_v27)
    = sourceRows (W (Proc.devRef .tc main_arg2)) (sources (W (Proc.devRef .tc main_arg0))) := by
  after_results_simp <;> rfl
theorem stretch0_relationRows : after hostOps0 W (Proc.devRef .tc main_v34)
    = relationRows (unitRelations (W (Proc.devRef .tc main_arg3))) (W (Proc.devRef .tc main_arg1)) := by
  after_results_simp <;> rfl

theorem stretch1_aggregate : after hostOps1 W (Proc.devRef .tc main_v40)
    = aggregate (W (Proc.devRef .tc main_v35)) (W (Proc.devRef .tc main_v3)) (W (Proc.devRef .tc main_v20)) := by
  after_results_simp <;> rfl
theorem stretch1_weights : after hostOps1 W (Proc.devRef .tc main_v41) = transposed (W (Proc.devRef .tc main_arg4)) := by
  after_results_simp <;> rfl

theorem stretch2_sourceRows : after hostOps2 W (Proc.devRef .tc main_v49)
    = sourceRows (W (Proc.devRef .tc main_v42)) (W (Proc.devRef .tc main_v1)) := by
  after_results_simp <;> rfl
theorem stretch2_relationRows : after hostOps2 W (Proc.devRef .tc main_v56)
    = relationRows (W (Proc.devRef .tc main_v11)) (W (Proc.devRef .tc main_arg1)) := by
  after_results_simp <;> rfl

theorem stretch3_aggregate : after hostOps3 W (Proc.devRef .tc main_v62)
    = aggregate (W (Proc.devRef .tc main_v57)) (W (Proc.devRef .tc main_v3)) (W (Proc.devRef .tc main_v20)) := by
  after_results_simp <;> rfl
theorem stretch3_weights : after hostOps3 W (Proc.devRef .tc main_v63) = transposed (W (Proc.devRef .tc main_arg5)) := by
  after_results_simp <;> rfl

/-! ## Buffers a stretch or a region leaves alone -/

/-- No operation of the four host stretches writes the named buffer: decided operation by operation. -/
macro "not_written" : tactic => `(tactic| exact List.forall_iff_forall_mem.mp (by
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The buffers' contents at each of the eight boundaries

`atK_b` says what buffer `b` holds after segment `K` (1: the first host stretch, 2: the first reflection region, 3: the
second stretch, 4: the first normalized projection, and 5–8 the same for the second layer), as a term of the arguments. -/
theorem at1_v1 : W1 m ρ c (Proc.devRef .tc main_v1) = (sources (m ((c : Thread nD τ).loc main_arg0))) :=
  stretch0_sources (W0 m ρ c)
theorem at1_v3 : W1 m ρ c (Proc.devRef .tc main_v3) = (targets (m ((c : Thread nD τ).loc main_arg0))) :=
  stretch0_targets (W0 m ρ c)
theorem at1_v11 : W1 m ρ c (Proc.devRef .tc main_v11) = (unitRelations (m ((c : Thread nD τ).loc main_arg3))) :=
  stretch0_relations (W0 m ρ c)
theorem at1_v20 : W1 m ρ c (Proc.devRef .tc main_v20) = (inverseDegree (targets (m ((c : Thread nD τ).loc main_arg0)))) :=
  stretch0_inverseDegree (W0 m ρ c)
theorem at1_v27 : W1 m ρ c (Proc.devRef .tc main_v27) = (sourceRows (m ((c : Thread nD τ).loc main_arg2)) (sources (m ((c : Thread nD τ).loc main_arg0)))) :=
  stretch0_sourceRows (W0 m ρ c)
theorem at1_v34 : W1 m ρ c (Proc.devRef .tc main_v34) = (relationRows (unitRelations (m ((c : Thread nD τ).loc main_arg3))) (m ((c : Thread nD τ).loc main_arg1))) :=
  stretch0_relationRows (W0 m ρ c)
theorem at1_arg1 : W1 m ρ c (Proc.devRef .tc main_arg1) = (m ((c : Thread nD τ).loc main_arg1)) :=
  (StableHlo.after_of_forall_not_mem (b := (Proc.devRef .tc main_arg1)) _ _ (by not_written))
theorem at1_arg2 : W1 m ρ c (Proc.devRef .tc main_arg2) = (m ((c : Thread nD τ).loc main_arg2)) :=
  (StableHlo.after_of_forall_not_mem (b := (Proc.devRef .tc main_arg2)) _ _ (by not_written))
theorem at1_arg4 : W1 m ρ c (Proc.devRef .tc main_arg4) = (m ((c : Thread nD τ).loc main_arg4)) :=
  (StableHlo.after_of_forall_not_mem (b := (Proc.devRef .tc main_arg4)) _ _ (by not_written))
theorem at1_arg5 : W1 m ρ c (Proc.devRef .tc main_arg5) = (m ((c : Thread nD τ).loc main_arg5)) :=
  (StableHlo.after_of_forall_not_mem (b := (Proc.devRef .tc main_arg5)) _ _ (by not_written))
theorem at1_arg6 : W1 m ρ c (Proc.devRef .tc main_arg6) = (m ((c : Thread nD τ).loc main_arg6)) :=
  (StableHlo.after_of_forall_not_mem (b := (Proc.devRef .tc main_arg6)) _ _ (by not_written))
theorem at1_arg7 : W1 m ρ c (Proc.devRef .tc main_arg7) = (m ((c : Thread nD τ).loc main_arg7)) :=
  (StableHlo.after_of_forall_not_mem (b := (Proc.devRef .tc main_arg7)) _ _ (by not_written))
theorem at1_arg8 : W1 m ρ c (Proc.devRef .tc main_arg8) = (m ((c : Thread nD τ).loc main_arg8)) :=
  (StableHlo.after_of_forall_not_mem (b := (Proc.devRef .tc main_arg8)) _ _ (by not_written))
theorem at1_arg9 : W1 m ρ c (Proc.devRef .tc main_arg9) = (m ((c : Thread nD τ).loc main_arg9)) :=
  (StableHlo.after_of_forall_not_mem (b := (Proc.devRef .tc main_arg9)) _ _ (by not_written))
theorem at2_v35 : W2 m ρ c (Proc.devRef .tc main_v35) = (Cert.Spec.reflect (sourceRows (m ((c : Thread nD τ).loc main_arg2)) (sources (m ((c : Thread nD τ).loc main_arg0)))) (relationRows (unitRelations (m ((c : Thread nD τ).loc main_arg3))) (m ((c : Thread nD τ).loc main_arg1)))) :=
  (W2_arr m ρ c 2).trans ((Regions.reflect0_final (V1 m ρ) c).trans
    (show Cert.Spec.reflect (W1 m ρ c (Proc.devRef .tc main_v27)) (W1 m ρ c (Proc.devRef .tc main_v34)) = _ from by rw [at1_v27 m ρ c, at1_v34 m ρ c]))
theorem at2_v1 : W2 m ρ c (Proc.devRef .tc main_v1) = (sources (m ((c : Thread nD τ).loc main_arg0))) :=
  (W2_of_ne m ρ c main_v1 (by decide)).trans (at1_v1 m ρ c)
theorem at2_v3 : W2 m ρ c (Proc.devRef .tc main_v3) = (targets (m ((c : Thread nD τ).loc main_arg0))) :=
  (W2_of_ne m ρ c main_v3 (by decide)).trans (at1_v3 m ρ c)
theorem at2_v11 : W2 m ρ c (Proc.devRef .tc main_v11) = (unitRelations (m ((c : Thread nD τ).loc main_arg3))) :=
  (W2_of_ne m ρ c main_v11 (by decide)).trans (at1_v11 m ρ c)
theorem at2_v20 : W2 m ρ c (Proc.devRef .tc main_v20) = (inverseDegree (targets (m ((c : Thread nD τ).loc main_arg0)))) :=
  (W2_of_ne m ρ c main_v20 (by decide)).trans (at1_v20 m ρ c)
theorem at2_arg1 : W2 m ρ c (Proc.devRef .tc main_arg1) = (m ((c : Thread nD τ).loc main_arg1)) :=
  (W2_of_ne m ρ c main_arg1 (by decide)).trans (at1_arg1 m ρ c)
theorem at2_arg2 : W2 m ρ c (Proc.devRef .tc main_arg2) = (m ((c : Thread nD τ).loc main_arg2)) :=
  (W2_of_ne m ρ c main_arg2 (by decide)).trans (at1_arg2 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_arg9 : W2 m ρ c (Proc.devRef .tc main_arg9) = (m ((c : Thread nD τ).loc main_arg9)) :=
  (W2_of_ne m ρ c main_arg9 (by decide)).trans (at1_arg9 m ρ c)
theorem at3_v40 : W3 m ρ c (Proc.devRef .tc main_v40) = (aggregate (Cert.Spec.reflect (sourceRows (m ((c : Thread nD τ).loc main_arg2)) (sources (m ((c : Thread nD τ).loc main_arg0)))) (relationRows (unitRelations (m ((c : Thread nD τ).loc main_arg3))) (m ((c : Thread nD τ).loc main_arg1)))) (targets (m ((c : Thread nD τ).loc main_arg0))) (inverseDegree (targets (m ((c : Thread nD τ).loc main_arg0))))) :=
  (stretch1_aggregate (W2 m ρ c)).trans (by rw [at2_v35 m ρ c, at2_v3 m ρ c, at2_v20 m ρ c])
theorem at3_v41 : W3 m ρ c (Proc.devRef .tc main_v41) = (transposed (m ((c : Thread nD τ).loc main_arg4))) :=
  (stretch1_weights (W2 m ρ c)).trans (by rw [at2_arg4 m ρ c])
theorem at3_v1 : W3 m ρ c (Proc.devRef .tc main_v1) = (sources (m ((c : Thread nD τ).loc main_arg0))) :=
  (StableHlo.after_of_forall_not_mem (b := (Proc.devRef .tc main_v1)) _ _ (by not_written)).trans (at2_v1 m ρ c)
theorem at3_v3 : W3 m ρ c (Proc.devRef .tc main_v3) = (targets (m ((c : Thread nD τ).loc main_arg0))) :=
  (StableHlo.after_of_forall_not_mem (b := (Proc.devRef .tc main_v3)) _ _ (by not_written)).trans (at2_v3 m ρ c)
theorem at3_v11 : W3 m ρ c (Proc.devRef .tc main_v11) = (unitRelations (m ((c : Thread nD τ).loc main_arg3))) :=
  (StableHlo.after_of_forall_not_mem (b := (Proc.devRef .tc main_v11)) _ _ (by not_written)).trans (at2_v11 m ρ c)
theorem at3_v20 : W3 m ρ c (Proc.devRef .tc main_v20) = (inverseDegree (targets (m ((c : Thread nD τ).loc main_arg0)))) :=
  (StableHlo.after_of_forall_not_mem (b := (Proc.devRef .tc main_v20)) _ _ (by not_written)).trans (at2_v20 m ρ c)
theorem at3_arg1 : W3 m ρ c (Proc.devRef .tc main_arg1) = (m ((c : Thread nD τ).loc main_arg1)) :=
  (StableHlo.after_of_forall_not_mem (b := (Proc.devRef .tc main_arg1)) _ _ (by not_written)).trans (at2_arg1 m ρ c)
theorem at3_arg2 : W3 m ρ c (Proc.devRef .tc main_arg2) = (m ((c : Thread nD τ).loc main_arg2)) :=
  (StableHlo.after_of_forall_not_mem (b := (Proc.devRef .tc main_arg2)) _ _ (by not_written)).trans (at2_arg2 m ρ c)
theorem at3_arg5 : W3 m ρ c (Proc.devRef .tc main_arg5) = (m ((c : Thread nD τ).loc main_arg5)) :=
  (StableHlo.after_of_forall_not_mem (b := (Proc.devRef .tc main_arg5)) _ _ (by not_written)).trans (at2_arg5 m ρ c)
theorem at3_arg6 : W3 m ρ c (Proc.devRef .tc main_arg6) = (m ((c : Thread nD τ).loc main_arg6)) :=
  (StableHlo.after_of_forall_not_mem (b := (Proc.devRef .tc main_arg6)) _ _ (by not_written)).trans (at2_arg6 m ρ c)
theorem at3_arg7 : W3 m ρ c (Proc.devRef .tc main_arg7) = (m ((c : Thread nD τ).loc main_arg7)) :=
  (StableHlo.after_of_forall_not_mem (b := (Proc.devRef .tc main_arg7)) _ _ (by not_written)).trans (at2_arg7 m ρ c)
theorem at3_arg8 : W3 m ρ c (Proc.devRef .tc main_arg8) = (m ((c : Thread nD τ).loc main_arg8)) :=
  (StableHlo.after_of_forall_not_mem (b := (Proc.devRef .tc main_arg8)) _ _ (by not_written)).trans (at2_arg8 m ρ c)
theorem at3_arg9 : W3 m ρ c (Proc.devRef .tc main_arg9) = (m ((c : Thread nD τ).loc main_arg9)) :=
  (StableHlo.after_of_forall_not_mem (b := (Proc.devRef .tc main_arg9)) _ _ (by not_written)).trans (at2_arg9 m ρ c)
theorem at4_v42 : W4 m ρ c (Proc.devRef .tc main_v42) = (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) :=
  (W4_arr m ρ c 5).trans ((Regions.norm1_final (V3 m ρ) c).trans
    (show Cert.Spec.relu (Cert.Spec.layerNorm (Cert.Spec.project (W3 m ρ c (Proc.devRef .tc main_v40)) (W3 m ρ c (Proc.devRef .tc main_arg2)) (W3 m ρ c (Proc.devRef .tc main_v41))) (W3 m ρ c (Proc.devRef .tc main_arg6)) (W3 m ρ c (Proc.devRef .tc main_arg7))) = _ from by
      rw [at3_v40 m ρ c, at3_arg2 m ρ c, at3_v41 m ρ c, at3_arg6 m ρ c, at3_arg7 m ρ c]; rfl))
theorem at4_v1 : W4 m ρ c (Proc.devRef .tc main_v1) = (sources (m ((c : Thread nD τ).loc main_arg0))) :=
  (W4_of_ne m ρ c main_v1 (by decide)).trans (at3_v1 m ρ c)
theorem at4_v3 : W4 m ρ c (Proc.devRef .tc main_v3) = (targets (m ((c : Thread nD τ).loc main_arg0))) :=
  (W4_of_ne m ρ c main_v3 (by decide)).trans (at3_v3 m ρ c)
theorem at4_v11 : W4 m ρ c (Proc.devRef .tc main_v11) = (unitRelations (m ((c : Thread nD τ).loc main_arg3))) :=
  (W4_of_ne m ρ c main_v11 (by decide)).trans (at3_v11 m ρ c)
theorem at4_v20 : W4 m ρ c (Proc.devRef .tc main_v20) = (inverseDegree (targets (m ((c : Thread nD τ).loc main_arg0)))) :=
  (W4_of_ne m ρ c main_v20 (by decide)).trans (at3_v20 m ρ c)
theorem at4_arg1 : W4 m ρ c (Proc.devRef .tc main_arg1) = (m ((c : Thread nD τ).loc main_arg1)) :=
  (W4_of_ne m ρ c main_arg1 (by decide)).trans (at3_arg1 m ρ c)
theorem at4_arg5 : W4 m ρ c (Proc.devRef .tc main_arg5) = (m ((c : Thread nD τ).loc main_arg5)) :=
  (W4_of_ne m ρ c main_arg5 (by decide)).trans (at3_arg5 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at5_v49 : W5 m ρ c (Proc.devRef .tc main_v49) = (sourceRows (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) (sources (m ((c : Thread nD τ).loc main_arg0)))) :=
  (stretch2_sourceRows (W4 m ρ c)).trans (by rw [at4_v42 m ρ c, at4_v1 m ρ c])
theorem at5_v56 : W5 m ρ c (Proc.devRef .tc main_v56) = (relationRows (unitRelations (m ((c : Thread nD τ).loc main_arg3))) (m ((c : Thread nD τ).loc main_arg1))) :=
  (stretch2_relationRows (W4 m ρ c)).trans (by rw [at4_v11 m ρ c, at4_arg1 m ρ c])
theorem at5_v3 : W5 m ρ c (Proc.devRef .tc main_v3) = (targets (m ((c : Thread nD τ).loc main_arg0))) :=
  (StableHlo.after_of_forall_not_mem (b := (Proc.devRef .tc main_v3)) _ _ (by not_written)).trans (at4_v3 m ρ c)
theorem at5_v20 : W5 m ρ c (Proc.devRef .tc main_v20) = (inverseDegree (targets (m ((c : Thread nD τ).loc main_arg0)))) :=
  (StableHlo.after_of_forall_not_mem (b := (Proc.devRef .tc main_v20)) _ _ (by not_written)).trans (at4_v20 m ρ c)
theorem at5_v42 : W5 m ρ c (Proc.devRef .tc main_v42) = (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) :=
  (StableHlo.after_of_forall_not_mem (b := (Proc.devRef .tc main_v42)) _ _ (by not_written)).trans (at4_v42 m ρ c)
theorem at5_arg5 : W5 m ρ c (Proc.devRef .tc main_arg5) = (m ((c : Thread nD τ).loc main_arg5)) :=
  (StableHlo.after_of_forall_not_mem (b := (Proc.devRef .tc main_arg5)) _ _ (by not_written)).trans (at4_arg5 m ρ c)
theorem at5_arg8 : W5 m ρ c (Proc.devRef .tc main_arg8) = (m ((c : Thread nD τ).loc main_arg8)) :=
  (StableHlo.after_of_forall_not_mem (b := (Proc.devRef .tc main_arg8)) _ _ (by not_written)).trans (at4_arg8 m ρ c)
theorem at5_arg9 : W5 m ρ c (Proc.devRef .tc main_arg9) = (m ((c : Thread nD τ).loc main_arg9)) :=
  (StableHlo.after_of_forall_not_mem (b := (Proc.devRef .tc main_arg9)) _ _ (by not_written)).trans (at4_arg9 m ρ c)
theorem at6_v57 : W6 m ρ c (Proc.devRef .tc main_v57) = (Cert.Spec.reflect (sourceRows (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) (sources (m ((c : Thread nD τ).loc main_arg0)))) (relationRows (unitRelations (m ((c : Thread nD τ).loc main_arg3))) (m ((c : Thread nD τ).loc main_arg1)))) :=
  (W6_arr m ρ c 2).trans ((Regions.reflect2_final (V5 m ρ) c).trans
    (show Cert.Spec.reflect (W5 m ρ c (Proc.devRef .tc main_v49)) (W5 m ρ c (Proc.devRef .tc main_v56)) = _ from by rw [at5_v49 m ρ c, at5_v56 m ρ c]))
theorem at6_v3 : W6 m ρ c (Proc.devRef .tc main_v3) = (targets (m ((c : Thread nD τ).loc main_arg0))) :=
  (W6_of_ne m ρ c main_v3 (by decide)).trans (at5_v3 m ρ c)
theorem at6_v20 : W6 m ρ c (Proc.devRef .tc main_v20) = (inverseDegree (targets (m ((c : Thread nD τ).loc main_arg0)))) :=
  (W6_of_ne m ρ c main_v20 (by decide)).trans (at5_v20 m ρ c)
theorem at6_v42 : W6 m ρ c (Proc.devRef .tc main_v42) = (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) :=
  (W6_of_ne m ρ c main_v42 (by decide)).trans (at5_v42 m ρ c)
theorem at6_arg5 : W6 m ρ c (Proc.devRef .tc main_arg5) = (m ((c : Thread nD τ).loc main_arg5)) :=
  (W6_of_ne m ρ c main_arg5 (by decide)).trans (at5_arg5 m ρ c)
theorem at6_arg8 : W6 m ρ c (Proc.devRef .tc main_arg8) = (m ((c : Thread nD τ).loc main_arg8)) :=
  (W6_of_ne m ρ c main_arg8 (by decide)).trans (at5_arg8 m ρ c)
theorem at6_arg9 : W6 m ρ c (Proc.devRef .tc main_arg9) = (m ((c : Thread nD τ).loc main_arg9)) :=
  (W6_of_ne m ρ c main_arg9 (by decide)).trans (at5_arg9 m ρ c)
theorem at7_v62 : W7 m ρ c (Proc.devRef .tc main_v62) = (aggregate (Cert.Spec.reflect (sourceRows (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) (sources (m ((c : Thread nD τ).loc main_arg0)))) (relationRows (unitRelations (m ((c : Thread nD τ).loc main_arg3))) (m ((c : Thread nD τ).loc main_arg1)))) (targets (m ((c : Thread nD τ).loc main_arg0))) (inverseDegree (targets (m ((c : Thread nD τ).loc main_arg0))))) :=
  (stretch3_aggregate (W6 m ρ c)).trans (by rw [at6_v57 m ρ c, at6_v3 m ρ c, at6_v20 m ρ c])
theorem at7_v63 : W7 m ρ c (Proc.devRef .tc main_v63) = (transposed (m ((c : Thread nD τ).loc main_arg5))) :=
  (stretch3_weights (W6 m ρ c)).trans (by rw [at6_arg5 m ρ c])
theorem at7_v42 : W7 m ρ c (Proc.devRef .tc main_v42) = (Cert.Spec.relu (layer (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)))) :=
  (StableHlo.after_of_forall_not_mem (b := (Proc.devRef .tc main_v42)) _ _ (by not_written)).trans (at6_v42 m ρ c)
theorem at7_arg8 : W7 m ρ c (Proc.devRef .tc main_arg8) = (m ((c : Thread nD τ).loc main_arg8)) :=
  (StableHlo.after_of_forall_not_mem (b := (Proc.devRef .tc main_arg8)) _ _ (by not_written)).trans (at6_arg8 m ρ c)
theorem at7_arg9 : W7 m ρ c (Proc.devRef .tc main_arg9) = (m ((c : Thread nD τ).loc main_arg9)) :=
  (StableHlo.after_of_forall_not_mem (b := (Proc.devRef .tc main_arg9)) _ _ (by not_written)).trans (at6_arg9 m ρ c)

/-- The result array after the last region: the second layer of the first layer's maximum with zero, of the arguments as
    launched. -/
theorem result_eq : W8 m ρ c (Proc.devRef .tc main_v64)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 5).trans ((Regions.norm3_final (V7 m ρ) c).trans
    (show Cert.Spec.layerNorm (Cert.Spec.project (W7 m ρ c (Proc.devRef .tc main_v62)) (W7 m ρ c (Proc.devRef .tc main_v42)) (W7 m ρ c (Proc.devRef .tc main_v63))) (W7 m ρ c (Proc.devRef .tc main_arg8)) (W7 m ρ c (Proc.devRef .tc main_arg9)) = _ from by
      rw [at7_v62 m ρ c, at7_v42 m ρ c, at7_v63 m ρ c, at7_arg8 m ρ c, at7_arg9 m ρ c]; rfl))

end Cert.KernelIdeal.Fold

end
-- ==== Proof.RefRun.lean ====
/-
  The reference program's run, and its result as a composed term.

  The program is a straight line of 179 array operations. Its run is a fold: starting from the contents the buffers
  hold at launch, each operation rewrites the one buffer it writes and leaves every other buffer as it was. The fold
  is evaluated here in thirteen consecutive stretches, so that the contents of a buffer after a stretch are a short
  term over the contents of the few buffers the stretch reads before it:

    layer 1:  the edge list's two rows and the unit relation rows · the wrapped indices and the two gathers ·
              the reflection of every edge's source row across its relation row · the scatter-add of the
              reflected rows at the target nodes divided by max(degree, 1), and the weight's transpose ·
              the linear map plus the residual · the layer norm · the maximum with zero;
    layer 2:  the same, on layer 1's output, without the maximum with zero.

  Composing the stretches gives the result array as one function `refResult` of the ten argument arrays, built from
  the named steps below and from the whole-array reflection, projection, layer norm and maximum with zero.
-/
import proofs.«114701_j26036091748361_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- The program's 179 operations, in order (the called function's three operations stand in its call's place). -/
abbrev ops : List (HloOp τ sig (Elt F)) :=
  [ unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg3 main_arg3 main_v4 (mulf : (⟨S1001x128, .f32⟩ : BufTy).Contents (Elt F) → (⟨S1001x128, .f32⟩ : BufTy).Contents (Elt F) → (⟨S1001x128, .f32⟩ : BufTy).Contents (Elt F)),
    nullary main_cst (constant S_ .f32 0x00000000#32),
    binary main_v4 main_cst main_v5 ((fun x v => Host.reduceAdd x v reducesTo_S1001x128_S1001_d1 h_S_) : (⟨S1001x128, .f32⟩ : BufTy).Contents (Elt F) → (⟨S_, .f32⟩ : BufTy).Contents (Elt F) → (⟨S1001, .f32⟩ : BufTy).Contents (Elt F)),
    unary main_v5 main_v6 (broadcastInDim S1001x1 ![0] bcast_S1001_S1001x1_0 : (⟨S1001, .f32⟩ : BufTy).Contents (Elt F) → (⟨S1001x1, .f32⟩ : BufTy).Contents (Elt F)),
    unary main_v6 main_v7 (Host.sqrt : (⟨S1001x1, .f32⟩ : BufTy).Contents (Elt F) → (⟨S1001x1, .f32⟩ : BufTy).Contents (Elt F)),
    nullary main_cst_0 (constant S_ .f32 0x358637BD#32),
    unary main_cst_0 main_v8 (broadcastInDim S1001x1 ![] bcast_S_S1001x1 : (⟨S_, .f32⟩ : BufTy).Contents (Elt F) → (⟨S1001x1, .f32⟩ : BufTy).Contents (Elt F)),
    binary main_v7 main_v8 main_v9 (maximumf : (⟨S1001x1, .f32⟩ : BufTy).Contents (Elt F) → (⟨S1001x1, .f32⟩ : BufTy).Contents (Elt F) → (⟨S1001x1, .f32⟩ : BufTy).Contents (Elt F)),
    unary main_v9 main_v10 (broadcastInDim S1001x128 ![0, 1] bcast_S1001x1_S1001x128_0_1 : (⟨S1001x1, .f32⟩ : BufTy).Contents (Elt F) → (⟨S1001x128, .f32⟩ : BufTy).Contents (Elt F)),
    binary main_arg3 main_v10 main_v11 (Host.divf : (⟨S1001x128, .f32⟩ : BufTy).Contents (Elt F) → (⟨S1001x128, .f32⟩ : BufTy).Contents (Elt F) → (⟨S1001x128, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg2 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_c_2 (constantI S_ 32 0#32),
    unary main_c_2 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 1001#32),
    unary main_c_3 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S1001x128_S1600000x1_S1600000x128_1_0_n_n_0_1_1128 x i) : (⟨S1001x128, .f32⟩ : BufTy).Contents (Elt F) → (⟨S1600000x1, .i32⟩ : BufTy).Contents (Elt F) → (⟨S1600000x128, .f32⟩ : BufTy).Contents (Elt F)),
    binary main_v18 main_v25 main_v26 (mulf : (⟨S1600000x128, .f32⟩ : BufTy).Contents (Elt F) → (⟨S1600000x128, .f32⟩ : BufTy).Contents (Elt F) → (⟨S1600000x128, .f32⟩ : BufTy).Contents (Elt F)),
    nullary main_cst_4 (constant S_ .f32 0x00000000#32),
    binary main_v26 main_cst_4 main_v27 ((fun x v => Host.reduceAdd x v reducesTo_S1600000x128_S1600000_d1 h_S_) : (⟨S1600000x128, .f32⟩ : BufTy).Contents (Elt F) → (⟨S_, .f32⟩ : BufTy).Contents (Elt F) → (⟨S1600000, .f32⟩ : BufTy).Contents (Elt F)),
    unary main_v27 main_v28 (broadcastInDim S1600000x1 ![0] bcast_S1600000_S1600000x1_0 : (⟨S1600000, .f32⟩ : BufTy).Contents (Elt F) → (⟨S1600000x1, .f32⟩ : BufTy).Contents (Elt F)),
    nullary main_cst_5 (constant S_ .f32 0x40000000#32),
    unary main_cst_5 main_v29 (broadcastInDim S1600000x1 ![] bcast_S_S1600000x1 : (⟨S_, .f32⟩ : BufTy).Contents (Elt F) → (⟨S1600000x1, .f32⟩ : BufTy).Contents (Elt F)),
    binary main_v29 main_v28 main_v30 (mulf : (⟨S1600000x1, .f32⟩ : BufTy).Contents (Elt F) → (⟨S1600000x1, .f32⟩ : BufTy).Contents (Elt F) → (⟨S1600000x1, .f32⟩ : BufTy).Contents (Elt F)),
    unary main_v30 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v31 main_v25 main_v32 (mulf : (⟨S1600000x128, .f32⟩ : BufTy).Contents (Elt F) → (⟨S1600000x128, .f32⟩ : BufTy).Contents (Elt F) → (⟨S1600000x128, .f32⟩ : BufTy).Contents (Elt F)),
    binary main_v18 main_v32 main_v33 (subf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v34 (broadcastInDim S100000x128 ![] bcast_S_S100000x128 : (⟨S_, .f32⟩ : BufTy).Contents (Elt F) → (⟨S100000x128, .f32⟩ : BufTy).Contents (Elt F)),
    unary main_v3 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v37 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v38 (broadcastInDim S100000 ![] bcast_S_S100000 : (⟨S_, .f32⟩ : BufTy).Contents (Elt F) → (⟨S100000, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x128 ![0, 1] bcast_S100000x1_S100000x128_0_1 : (⟨S100000x1, .f32⟩ : BufTy).Contents (Elt F) → (⟨S100000x128, .f32⟩ : BufTy).Contents (Elt F)),
    binary main_v36 main_v44 main_v45 (Host.divf : (⟨S100000x128, .f32⟩ : BufTy).Contents (Elt F) → (⟨S100000x128, .f32⟩ : BufTy).Contents (Elt F) → (⟨S100000x128, .f32⟩ : BufTy).Contents (Elt F)),
    unary main_arg4 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v47 main_arg2 main_v48 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v48 main_cst_10 main_v49 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v55 main_cst_12 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_13 (constant S_ .f32 0x43000000#32),
    unary main_cst_13 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v52 main_v60 (broadcastInDim S100000x128 ![0, 1] bcast_S100000x1_S100000x128_0_1 : (⟨S100000x1, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v62 (broadcastInDim S100000x1 ![] bcast_S_S100000x1 : (⟨S_, .f32⟩ : BufTy).Contents (Elt F) → (⟨S100000x1, .f32⟩ : BufTy).Contents (Elt F)),
    binary main_v59 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.sqrt : (⟨S100000x1, .f32⟩ : BufTy).Contents (Elt F) → (⟨S100000x1, .f32⟩ : BufTy).Contents (Elt F)),
    unary main_v64 main_v65 (broadcastInDim S100000x128 ![0, 1] bcast_S100000x1_S100000x128_0_1 : (⟨S100000x1, .f32⟩ : BufTy).Contents (Elt F) → (⟨S100000x128, .f32⟩ : BufTy).Contents (Elt F)),
    binary main_v61 main_v65 main_v66 (Host.divf : (⟨S100000x128, .f32⟩ : BufTy).Contents (Elt F) → (⟨S100000x128, .f32⟩ : BufTy).Contents (Elt F) → (⟨S100000x128, .f32⟩ : BufTy).Contents (Elt F)),
    unary main_arg6 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg7 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v72) (TRef.of (T := ⟨S100000x128, .f32⟩) main_call0_v0) (TRef.of (T := ⟨S100000x128, .f32⟩) main_v73) maximumf,
    binary main_arg3 main_arg3 main_v74 (mulf : (⟨S1001x128, .f32⟩ : BufTy).Contents (Elt F) → (⟨S1001x128, .f32⟩ : BufTy).Contents (Elt F) → (⟨S1001x128, .f32⟩ : BufTy).Contents (Elt F)),
    nullary main_cst_15 (constant S_ .f32 0x00000000#32),
    binary main_v74 main_cst_15 main_v75 ((fun x v => Host.reduceAdd x v reducesTo_S1001x128_S1001_d1 h_S_) : (⟨S1001x128, .f32⟩ : BufTy).Contents (Elt F) → (⟨S_, .f32⟩ : BufTy).Contents (Elt F) → (⟨S1001, .f32⟩ : BufTy).Contents (Elt F)),
    unary main_v75 main_v76 (broadcastInDim S1001x1 ![0] bcast_S1001_S1001x1_0 : (⟨S1001, .f32⟩ : BufTy).Contents (Elt F) → (⟨S1001x1, .f32⟩ : BufTy).Contents (Elt F)),
    unary main_v76 main_v77 (Host.sqrt : (⟨S1001x1, .f32⟩ : BufTy).Contents (Elt F) → (⟨S1001x1, .f32⟩ : BufTy).Contents (Elt F)),
    nullary main_cst_16 (constant S_ .f32 0x358637BD#32),
    unary main_cst_16 main_v78 (broadcastInDim S1001x1 ![] bcast_S_S1001x1 : (⟨S_, .f32⟩ : BufTy).Contents (Elt F) → (⟨S1001x1, .f32⟩ : BufTy).Contents (Elt F)),
    binary main_v77 main_v78 main_v79 (maximumf : (⟨S1001x1, .f32⟩ : BufTy).Contents (Elt F) → (⟨S1001x1, .f32⟩ : BufTy).Contents (Elt F) → (⟨S1001x1, .f32⟩ : BufTy).Contents (Elt F)),
    unary main_v79 main_v80 (broadcastInDim S1001x128 ![0, 1] bcast_S1001x1_S1001x128_0_1 : (⟨S1001x1, .f32⟩ : BufTy).Contents (Elt F) → (⟨S1001x128, .f32⟩ : BufTy).Contents (Elt F)),
    binary main_arg3 main_v80 main_v81 (Host.divf : (⟨S1001x128, .f32⟩ : BufTy).Contents (Elt F) → (⟨S1001x128, .f32⟩ : BufTy).Contents (Elt F) → (⟨S1001x128, .f32⟩ : BufTy).Contents (Elt F)),
    nullary main_c_17 (constantI S_ 32 0#32),
    unary main_c_17 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v73 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_c_19 (constantI S_ 32 0#32),
    unary main_c_19 main_v89 (broadcastInDim S1600000 ![] bcast_S_S1600000 : (⟨S_, .i32⟩ : BufTy).Contents (Elt F) → (⟨S1600000, .i32⟩ : BufTy).Contents (Elt F)),
    binary main_arg1 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 1001#32),
    unary main_c_20 main_v91 (broadcastInDim S1600000 ![] bcast_S_S1600000 : (⟨S_, .i32⟩ : BufTy).Contents (Elt F) → (⟨S1600000, .i32⟩ : BufTy).Contents (Elt F)),
    binary main_arg1 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_arg1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v81 main_v94 main_v95 ((fun x i => Host.gather gather_S1001x128_S1600000x1_S1600000x128_1_0_n_n_0_1_1128 x i) : (⟨S1001x128, .f32⟩ : BufTy).Contents (Elt F) → (⟨S1600000x1, .i32⟩ : BufTy).Contents (Elt F) → (⟨S1600000x128, .f32⟩ : BufTy).Contents (Elt F)),
    binary main_v88 main_v95 main_v96 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    binary main_v96 main_cst_21 main_v97 ((fun x v => Host.reduceAdd x v reducesTo_S1600000x128_S1600000_d1 h_S_) : (⟨S1600000x128, .f32⟩ : BufTy).Contents (Elt F) → (⟨S_, .f32⟩ : BufTy).Contents (Elt F) → (⟨S1600000, .f32⟩ : BufTy).Contents (Elt F)),
    unary main_v97 main_v98 (broadcastInDim S1600000x1 ![0] bcast_S1600000_S1600000x1_0 : (⟨S1600000, .f32⟩ : BufTy).Contents (Elt F) → (⟨S1600000x1, .f32⟩ : BufTy).Contents (Elt F)),
    nullary main_cst_22 (constant S_ .f32 0x40000000#32),
    unary main_cst_22 main_v99 (broadcastInDim S1600000x1 ![] bcast_S_S1600000x1 : (⟨S_, .f32⟩ : BufTy).Contents (Elt F) → (⟨S1600000x1, .f32⟩ : BufTy).Contents (Elt F)),
    binary main_v99 main_v98 main_v100 (mulf : (⟨S1600000x1, .f32⟩ : BufTy).Contents (Elt F) → (⟨S1600000x1, .f32⟩ : BufTy).Contents (Elt F) → (⟨S1600000x1, .f32⟩ : BufTy).Contents (Elt F)),
    unary main_v100 main_v101 (broadcastInDim S1600000x128 ![0, 1] bcast_S1600000x1_S1600000x128_0_1 : (⟨S1600000x1, .f32⟩ : BufTy).Contents (Elt F) → (⟨S1600000x128, .f32⟩ : BufTy).Contents (Elt F)),
    binary main_v101 main_v95 main_v102 (mulf : (⟨S1600000x128, .f32⟩ : BufTy).Contents (Elt F) → (⟨S1600000x128, .f32⟩ : BufTy).Contents (Elt F) → (⟨S1600000x128, .f32⟩ : BufTy).Contents (Elt F)),
    binary main_v88 main_v102 main_v103 (subf : (⟨S1600000x128, .f32⟩ : BufTy).Contents (Elt F) → (⟨S1600000x128, .f32⟩ : BufTy).Contents (Elt F) → (⟨S1600000x128, .f32⟩ : BufTy).Contents (Elt F)),
    nullary main_cst_23 (constant S_ .f32 0x00000000#32),
    unary main_cst_23 main_v104 (broadcastInDim S100000x128 ![] bcast_S_S100000x128 : (⟨S_, .f32⟩ : BufTy).Contents (Elt F) → (⟨S100000x128, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_24 (constant S_ .f32 0x3F800000#32),
    unary main_cst_24 main_v107 (broadcastInDim S1600000 ![] bcast_S_S1600000 : (⟨S_, .f32⟩ : BufTy).Contents (Elt F) → (⟨S1600000, .f32⟩ : BufTy).Contents (Elt F)),
    nullary main_cst_25 (constant S_ .f32 0x00000000#32),
    unary main_cst_25 main_v108 (broadcastInDim S100000 ![] bcast_S_S100000 : (⟨S_, .f32⟩ : BufTy).Contents (Elt F) → (⟨S100000, .f32⟩ : BufTy).Contents (Elt F)),
    unary main_v3 main_v109 (broadcastInDim S1600000x1 ![0] bcast_S1600000_S1600000x1_0 : (⟨S1600000, .i32⟩ : BufTy).Contents (Elt F) → (⟨S1600000x1, .i32⟩ : BufTy).Contents (Elt F)),
    ternary main_v108 main_v109 main_v107 main_v110 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_26 (constant S_ .f32 0x3F800000#32),
    unary main_cst_26 main_v111 (broadcastInDim S100000 ![] bcast_S_S100000 : (⟨S_, .f32⟩ : BufTy).Contents (Elt F) → (⟨S100000, .f32⟩ : BufTy).Contents (Elt F)),
    binary main_v110 main_v111 main_v112 (maximumf : (⟨S100000, .f32⟩ : BufTy).Contents (Elt F) → (⟨S100000, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    unary main_v113 main_v114 (broadcastInDim S100000x128 ![0, 1] bcast_S100000x1_S100000x128_0_1 : (⟨S100000x1, .f32⟩ : BufTy).Contents (Elt F) → (⟨S100000x128, .f32⟩ : BufTy).Contents (Elt F)),
    binary main_v106 main_v114 main_v115 (Host.divf : (⟨S100000x128, .f32⟩ : BufTy).Contents (Elt F) → (⟨S100000x128, .f32⟩ : BufTy).Contents (Elt F) → (⟨S100000x128, .f32⟩ : BufTy).Contents (Elt F)),
    unary main_arg5 main_v116 ((transpose S128x128 [1, 0] · transposes_S128x128_S128x128_1_0) : (⟨S128x128, .f32⟩ : BufTy).Contents (Elt F) → (⟨S128x128, .f32⟩ : BufTy).Contents (Elt F)),
    binary main_v115 main_v116 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v117 main_v73 main_v118 (addf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v118 main_cst_27 main_v119 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v119 main_v120 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v121 (broadcastInDim S100000x1 ![] bcast_S_S100000x1 : (⟨S_, .f32⟩ : BufTy).Contents (Elt F) → (⟨S100000x1, .f32⟩ : BufTy).Contents (Elt F)),
    binary main_v120 main_v121 main_v122 (Host.divf : (⟨S100000x1, .f32⟩ : BufTy).Contents (Elt F) → (⟨S100000x1, .f32⟩ : BufTy).Contents (Elt F) → (⟨S100000x1, .f32⟩ : BufTy).Contents (Elt F)),
    unary main_v122 main_v123 (broadcastInDim S100000x128 ![0, 1] bcast_S100000x1_S100000x128_0_1 : (⟨S100000x1, .f32⟩ : BufTy).Contents (Elt F) → (⟨S100000x128, .f32⟩ : BufTy).Contents (Elt F)),
    binary main_v118 main_v123 main_v124 (subf : (⟨S100000x128, .f32⟩ : BufTy).Contents (Elt F) → (⟨S100000x128, .f32⟩ : BufTy).Contents (Elt F) → (⟨S100000x128, .f32⟩ : BufTy).Contents (Elt F)),
    binary main_v124 main_v124 main_v125 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    binary main_v125 main_cst_29 main_v126 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v126 main_v127 (broadcastInDim S100000x1 ![0] bcast_S100000_S100000x1_0 : (⟨S100000, .f32⟩ : BufTy).Contents (Elt F) → (⟨S100000x1, .f32⟩ : BufTy).Contents (Elt F)),
    nullary main_cst_30 (constant S_ .f32 0x43000000#32),
    unary main_cst_30 main_v128 (broadcastInDim S100000x1 ![] bcast_S_S100000x1 : (⟨S_, .f32⟩ : BufTy).Contents (Elt F) → (⟨S100000x1, .f32⟩ : BufTy).Contents (Elt F)),
    binary main_v127 main_v128 main_v129 (Host.divf : (⟨S100000x1, .f32⟩ : BufTy).Contents (Elt F) → (⟨S100000x1, .f32⟩ : BufTy).Contents (Elt F) → (⟨S100000x1, .f32⟩ : BufTy).Contents (Elt F)),
    unary main_v122 main_v130 (broadcastInDim S100000x128 ![0, 1] bcast_S100000x1_S100000x128_0_1 : (⟨S100000x1, .f32⟩ : BufTy).Contents (Elt F) → (⟨S100000x128, .f32⟩ : BufTy).Contents (Elt F)),
    binary main_v118 main_v130 main_v131 (subf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x3727C5AC#32),
    unary main_cst_31 main_v132 (broadcastInDim S100000x1 ![] bcast_S_S100000x1 : (⟨S_, .f32⟩ : BufTy).Contents (Elt F) → (⟨S100000x1, .f32⟩ : BufTy).Contents (Elt F)),
    binary main_v129 main_v132 main_v133 (addf : (⟨S100000x1, .f32⟩ : BufTy).Contents (Elt F) → (⟨S100000x1, .f32⟩ : BufTy).Contents (Elt F) → (⟨S100000x1, .f32⟩ : BufTy).Contents (Elt F)),
    unary main_v133 main_v134 (Host.sqrt : (⟨S100000x1, .f32⟩ : BufTy).Contents (Elt F) → (⟨S100000x1, .f32⟩ : BufTy).Contents (Elt F)),
    unary main_v134 main_v135 (broadcastInDim S100000x128 ![0, 1] bcast_S100000x1_S100000x128_0_1 : (⟨S100000x1, .f32⟩ : BufTy).Contents (Elt F) → (⟨S100000x128, .f32⟩ : BufTy).Contents (Elt F)),
    binary main_v131 main_v135 main_v136 (Host.divf : (⟨S100000x128, .f32⟩ : BufTy).Contents (Elt F) → (⟨S100000x128, .f32⟩ : BufTy).Contents (Elt F) → (⟨S100000x128, .f32⟩ : BufTy).Contents (Elt F)),
    unary main_arg8 main_v137 (broadcastInDim S1x128 ![1] bcast_S128_S1x128_1 : (⟨S128, .f32⟩ : BufTy).Contents (Elt F) → (⟨S1x128, .f32⟩ : BufTy).Contents (Elt F)),
    unary main_v137 main_v138 (broadcastInDim S100000x128 ![0, 1] bcast_S1x128_S100000x128_0_1 : (⟨S1x128, .f32⟩ : BufTy).Contents (Elt F) → (⟨S100000x128, .f32⟩ : BufTy).Contents (Elt F)),
    binary main_v136 main_v138 main_v139 (mulf : (⟨S100000x128, .f32⟩ : BufTy).Contents (Elt F) → (⟨S100000x128, .f32⟩ : BufTy).Contents (Elt F) → (⟨S100000x128, .f32⟩ : BufTy).Contents (Elt F)),
    unary main_arg9 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v139 main_v141 main_v142 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- On every device, for any float values, from any memory with zero counters: every weakly fair execution of the
    program terminates, and in its final state every buffer holds what the fold of the 179 operations over the launch
    contents assigns to it. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ

/-! ## The thirteen stretches -/

/-- Layer 1, the edge list's two rows as vectors and the unit relation rows: `main_v0` … `main_v11`. -/
abbrev A1 : List (HloOp τ sig (Elt F)) :=
  [ unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg3 main_arg3 main_v4 (mulf : (⟨S1001x128, .f32⟩ : BufTy).Contents (Elt F) → (⟨S1001x128, .f32⟩ : BufTy).Contents (Elt F) → (⟨S1001x128, .f32⟩ : BufTy).Contents (Elt F)),
    nullary main_cst (constant S_ .f32 0x00000000#32),
    binary main_v4 main_cst main_v5 ((fun x v => Host.reduceAdd x v reducesTo_S1001x128_S1001_d1 h_S_) : (⟨S1001x128, .f32⟩ : BufTy).Contents (Elt F) → (⟨S_, .f32⟩ : BufTy).Contents (Elt F) → (⟨S1001, .f32⟩ : BufTy).Contents (Elt F)),
    unary main_v5 main_v6 (broadcastInDim S1001x1 ![0] bcast_S1001_S1001x1_0 : (⟨S1001, .f32⟩ : BufTy).Contents (Elt F) → (⟨S1001x1, .f32⟩ : BufTy).Contents (Elt F)),
    unary main_v6 main_v7 (Host.sqrt : (⟨S1001x1, .f32⟩ : BufTy).Contents (Elt F) → (⟨S1001x1, .f32⟩ : BufTy).Contents (Elt F)),
    nullary main_cst_0 (constant S_ .f32 0x358637BD#32),
    unary main_cst_0 main_v8 (broadcastInDim S1001x1 ![] bcast_S_S1001x1 : (⟨S_, .f32⟩ : BufTy).Contents (Elt F) → (⟨S1001x1, .f32⟩ : BufTy).Contents (Elt F)),
    binary main_v7 main_v8 main_v9 (maximumf : (⟨S1001x1, .f32⟩ : BufTy).Contents (Elt F) → (⟨S1001x1, .f32⟩ : BufTy).Contents (Elt F) → (⟨S1001x1, .f32⟩ : BufTy).Contents (Elt F)),
    unary main_v9 main_v10 (broadcastInDim S1001x128 ![0, 1] bcast_S1001x1_S1001x128_0_1 : (⟨S1001x1, .f32⟩ : BufTy).Contents (Elt F) → (⟨S1001x128, .f32⟩ : BufTy).Contents (Elt F)),
    binary main_arg3 main_v10 main_v11 (Host.divf : (⟨S1001x128, .f32⟩ : BufTy).Contents (Elt F) → (⟨S1001x128, .f32⟩ : BufTy).Contents (Elt F) → (⟨S1001x128, .f32⟩ : BufTy).Contents (Elt F)) ]

/-- Layer 1, the wrapped indices and the two gathers: `main_v12` … `main_v25`. -/
abbrev A2 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg2 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_c_2 (constantI S_ 32 0#32),
    unary main_c_2 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 1001#32),
    unary main_c_3 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S1001x128_S1600000x1_S1600000x128_1_0_n_n_0_1_1128 x i) : (⟨S1001x128, .f32⟩ : BufTy).Contents (Elt F) → (⟨S1600000x1, .i32⟩ : BufTy).Contents (Elt F) → (⟨S1600000x128, .f32⟩ : BufTy).Contents (Elt F)) ]

/-- Layer 1, the reflection: `main_v26` … `main_v33`. -/
abbrev A3 : List (HloOp τ sig (Elt F)) :=
  [ binary main_v18 main_v25 main_v26 (mulf : (⟨S1600000x128, .f32⟩ : BufTy).Contents (Elt F) → (⟨S1600000x128, .f32⟩ : BufTy).Contents (Elt F) → (⟨S1600000x128, .f32⟩ : BufTy).Contents (Elt F)),
    nullary main_cst_4 (constant S_ .f32 0x00000000#32),
    binary main_v26 main_cst_4 main_v27 ((fun x v => Host.reduceAdd x v reducesTo_S1600000x128_S1600000_d1 h_S_) : (⟨S1600000x128, .f32⟩ : BufTy).Contents (Elt F) → (⟨S_, .f32⟩ : BufTy).Contents (Elt F) → (⟨S1600000, .f32⟩ : BufTy).Contents (Elt F)),
    unary main_v27 main_v28 (broadcastInDim S1600000x1 ![0] bcast_S1600000_S1600000x1_0 : (⟨S1600000, .f32⟩ : BufTy).Contents (Elt F) → (⟨S1600000x1, .f32⟩ : BufTy).Contents (Elt F)),
    nullary main_cst_5 (constant S_ .f32 0x40000000#32),
    unary main_cst_5 main_v29 (broadcastInDim S1600000x1 ![] bcast_S_S1600000x1 : (⟨S_, .f32⟩ : BufTy).Contents (Elt F) → (⟨S1600000x1, .f32⟩ : BufTy).Contents (Elt F)),
    binary main_v29 main_v28 main_v30 (mulf : (⟨S1600000x1, .f32⟩ : BufTy).Contents (Elt F) → (⟨S1600000x1, .f32⟩ : BufTy).Contents (Elt F) → (⟨S1600000x1, .f32⟩ : BufTy).Contents (Elt F)),
    unary main_v30 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v31 main_v25 main_v32 (mulf : (⟨S1600000x128, .f32⟩ : BufTy).Contents (Elt F) → (⟨S1600000x128, .f32⟩ : BufTy).Contents (Elt F) → (⟨S1600000x128, .f32⟩ : BufTy).Contents (Elt F)),
    binary main_v18 main_v32 main_v33 (subf : (⟨S1600000x128, .f32⟩ : BufTy).Contents (Elt F) → (⟨S1600000x128, .f32⟩ : BufTy).Contents (Elt F) → (⟨S1600000x128, .f32⟩ : BufTy).Contents (Elt F)) ]

/-- Layer 1, the scatter-add, the degree, the division and the weight's transpose: `main_v34` … `main_v46`. -/
abbrev A4 : List (HloOp τ sig (Elt F)) :=
  [ nullary main_cst_6 (constant S_ .f32 0x00000000#32),
    unary main_cst_6 main_v34 (broadcastInDim S100000x128 ![] bcast_S_S100000x128 : (⟨S_, .f32⟩ : BufTy).Contents (Elt F) → (⟨S100000x128, .f32⟩ : BufTy).Contents (Elt F)),
    unary main_v3 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v37 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v38 (broadcastInDim S100000 ![] bcast_S_S100000 : (⟨S_, .f32⟩ : BufTy).Contents (Elt F) → (⟨S100000, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x128 ![0, 1] bcast_S100000x1_S100000x128_0_1 : (⟨S100000x1, .f32⟩ : BufTy).Contents (Elt F) → (⟨S100000x128, .f32⟩ : BufTy).Contents (Elt F)),
    binary main_v36 main_v44 main_v45 (Host.divf : (⟨S100000x128, .f32⟩ : BufTy).Contents (Elt F) → (⟨S100000x128, .f32⟩ : BufTy).Contents (Elt F) → (⟨S100000x128, .f32⟩ : BufTy).Contents (Elt F)),
    unary main_arg4 main_v46 ((transpose S128x128 [1, 0] · transposes_S128x128_S128x128_1_0) : (⟨S128x128, .f32⟩ : BufTy).Contents (Elt F) → (⟨S128x128, .f32⟩ : BufTy).Contents (Elt F)) ]

/-- Layer 1, the linear map plus the residual: `main_v47`, `main_v48`. -/
abbrev A5 : List (HloOp τ sig (Elt F)) :=
  [ binary main_v45 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v47 main_arg2 main_v48 (addf : (⟨S100000x128, .f32⟩ : BufTy).Contents (Elt F) → (⟨S100000x128, .f32⟩ : BufTy).Contents (Elt F) → (⟨S100000x128, .f32⟩ : BufTy).Contents (Elt F)) ]

/-- Layer 1, the layer norm: `main_v49` … `main_v72`. -/
abbrev A6 : List (HloOp τ sig (Elt F)) :=
  [ nullary main_cst_10 (constant S_ .f32 0x00000000#32),
    binary main_v48 main_cst_10 main_v49 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v55 main_cst_12 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_13 (constant S_ .f32 0x43000000#32),
    unary main_cst_13 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v52 main_v60 (broadcastInDim S100000x128 ![0, 1] bcast_S100000x1_S100000x128_0_1 : (⟨S100000x1, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v62 (broadcastInDim S100000x1 ![] bcast_S_S100000x1 : (⟨S_, .f32⟩ : BufTy).Contents (Elt F) → (⟨S100000x1, .f32⟩ : BufTy).Contents (Elt F)),
    binary main_v59 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.sqrt : (⟨S100000x1, .f32⟩ : BufTy).Contents (Elt F) → (⟨S100000x1, .f32⟩ : BufTy).Contents (Elt F)),
    unary main_v64 main_v65 (broadcastInDim S100000x128 ![0, 1] bcast_S100000x1_S100000x128_0_1 : (⟨S100000x1, .f32⟩ : BufTy).Contents (Elt F) → (⟨S100000x128, .f32⟩ : BufTy).Contents (Elt F)),
    binary main_v61 main_v65 main_v66 (Host.divf : (⟨S100000x128, .f32⟩ : BufTy).Contents (Elt F) → (⟨S100000x128, .f32⟩ : BufTy).Contents (Elt F) → (⟨S100000x128, .f32⟩ : BufTy).Contents (Elt F)),
    unary main_arg6 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg7 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)) ]

/-- Layer 1, the maximum with zero: `main_v73`. -/
abbrev A7 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v72) (TRef.of (T := ⟨S100000x128, .f32⟩) main_call0_v0) (TRef.of (T := ⟨S100000x128, .f32⟩) main_v73) maximumf ]

/-- Layer 2, the unit relation rows again: `main_v74` … `main_v81`. -/
abbrev B1 : List (HloOp τ sig (Elt F)) :=
  [ binary main_arg3 main_arg3 main_v74 (mulf : (⟨S1001x128, .f32⟩ : BufTy).Contents (Elt F) → (⟨S1001x128, .f32⟩ : BufTy).Contents (Elt F) → (⟨S1001x128, .f32⟩ : BufTy).Contents (Elt F)),
    nullary main_cst_15 (constant S_ .f32 0x00000000#32),
    binary main_v74 main_cst_15 main_v75 ((fun x v => Host.reduceAdd x v reducesTo_S1001x128_S1001_d1 h_S_) : (⟨S1001x128, .f32⟩ : BufTy).Contents (Elt F) → (⟨S_, .f32⟩ : BufTy).Contents (Elt F) → (⟨S1001, .f32⟩ : BufTy).Contents (Elt F)),
    unary main_v75 main_v76 (broadcastInDim S1001x1 ![0] bcast_S1001_S1001x1_0 : (⟨S1001, .f32⟩ : BufTy).Contents (Elt F) → (⟨S1001x1, .f32⟩ : BufTy).Contents (Elt F)),
    unary main_v76 main_v77 (Host.sqrt : (⟨S1001x1, .f32⟩ : BufTy).Contents (Elt F) → (⟨S1001x1, .f32⟩ : BufTy).Contents (Elt F)),
    nullary main_cst_16 (constant S_ .f32 0x358637BD#32),
    unary main_cst_16 main_v78 (broadcastInDim S1001x1 ![] bcast_S_S1001x1 : (⟨S_, .f32⟩ : BufTy).Contents (Elt F) → (⟨S1001x1, .f32⟩ : BufTy).Contents (Elt F)),
    binary main_v77 main_v78 main_v79 (maximumf : (⟨S1001x1, .f32⟩ : BufTy).Contents (Elt F) → (⟨S1001x1, .f32⟩ : BufTy).Contents (Elt F) → (⟨S1001x1, .f32⟩ : BufTy).Contents (Elt F)),
    unary main_v79 main_v80 (broadcastInDim S1001x128 ![0, 1] bcast_S1001x1_S1001x128_0_1 : (⟨S1001x1, .f32⟩ : BufTy).Contents (Elt F) → (⟨S1001x128, .f32⟩ : BufTy).Contents (Elt F)),
    binary main_arg3 main_v80 main_v81 (Host.divf : (⟨S1001x128, .f32⟩ : BufTy).Contents (Elt F) → (⟨S1001x128, .f32⟩ : BufTy).Contents (Elt F) → (⟨S1001x128, .f32⟩ : BufTy).Contents (Elt F)) ]

/-- Layer 2, the wrapped indices and the two gathers: `main_v82` … `main_v95`. -/
abbrev B2 : List (HloOp τ sig (Elt F)) :=
  [ nullary main_c_17 (constantI S_ 32 0#32),
    unary main_c_17 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v73 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_c_19 (constantI S_ 32 0#32),
    unary main_c_19 main_v89 (broadcastInDim S1600000 ![] bcast_S_S1600000 : (⟨S_, .i32⟩ : BufTy).Contents (Elt F) → (⟨S1600000, .i32⟩ : BufTy).Contents (Elt F)),
    binary main_arg1 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 1001#32),
    unary main_c_20 main_v91 (broadcastInDim S1600000 ![] bcast_S_S1600000 : (⟨S_, .i32⟩ : BufTy).Contents (Elt F) → (⟨S1600000, .i32⟩ : BufTy).Contents (Elt F)),
    binary main_arg1 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_arg1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v81 main_v94 main_v95 ((fun x i => Host.gather gather_S1001x128_S1600000x1_S1600000x128_1_0_n_n_0_1_1128 x i) : (⟨S1001x128, .f32⟩ : BufTy).Contents (Elt F) → (⟨S1600000x1, .i32⟩ : BufTy).Contents (Elt F) → (⟨S1600000x128, .f32⟩ : BufTy).Contents (Elt F)) ]

/-- Layer 2, the reflection: `main_v96` … `main_v103`. -/
abbrev B3 : List (HloOp τ sig (Elt F)) :=
  [ binary main_v88 main_v95 main_v96 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    binary main_v96 main_cst_21 main_v97 ((fun x v => Host.reduceAdd x v reducesTo_S1600000x128_S1600000_d1 h_S_) : (⟨S1600000x128, .f32⟩ : BufTy).Contents (Elt F) → (⟨S_, .f32⟩ : BufTy).Contents (Elt F) → (⟨S1600000, .f32⟩ : BufTy).Contents (Elt F)),
    unary main_v97 main_v98 (broadcastInDim S1600000x1 ![0] bcast_S1600000_S1600000x1_0 : (⟨S1600000, .f32⟩ : BufTy).Contents (Elt F) → (⟨S1600000x1, .f32⟩ : BufTy).Contents (Elt F)),
    nullary main_cst_22 (constant S_ .f32 0x40000000#32),
    unary main_cst_22 main_v99 (broadcastInDim S1600000x1 ![] bcast_S_S1600000x1 : (⟨S_, .f32⟩ : BufTy).Contents (Elt F) → (⟨S1600000x1, .f32⟩ : BufTy).Contents (Elt F)),
    binary main_v99 main_v98 main_v100 (mulf : (⟨S1600000x1, .f32⟩ : BufTy).Contents (Elt F) → (⟨S1600000x1, .f32⟩ : BufTy).Contents (Elt F) → (⟨S1600000x1, .f32⟩ : BufTy).Contents (Elt F)),
    unary main_v100 main_v101 (broadcastInDim S1600000x128 ![0, 1] bcast_S1600000x1_S1600000x128_0_1 : (⟨S1600000x1, .f32⟩ : BufTy).Contents (Elt F) → (⟨S1600000x128, .f32⟩ : BufTy).Contents (Elt F)),
    binary main_v101 main_v95 main_v102 (mulf : (⟨S1600000x128, .f32⟩ : BufTy).Contents (Elt F) → (⟨S1600000x128, .f32⟩ : BufTy).Contents (Elt F) → (⟨S1600000x128, .f32⟩ : BufTy).Contents (Elt F)),
    binary main_v88 main_v102 main_v103 (subf : (⟨S1600000x128, .f32⟩ : BufTy).Contents (Elt F) → (⟨S1600000x128, .f32⟩ : BufTy).Contents (Elt F) → (⟨S1600000x128, .f32⟩ : BufTy).Contents (Elt F)) ]

/-- Layer 2, the scatter-add, the degree, the division and the weight's transpose: `main_v104` … `main_v116`. -/
abbrev B4 : List (HloOp τ sig (Elt F)) :=
  [ nullary main_cst_23 (constant S_ .f32 0x00000000#32),
    unary main_cst_23 main_v104 (broadcastInDim S100000x128 ![] bcast_S_S100000x128 : (⟨S_, .f32⟩ : BufTy).Contents (Elt F) → (⟨S100000x128, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_24 (constant S_ .f32 0x3F800000#32),
    unary main_cst_24 main_v107 (broadcastInDim S1600000 ![] bcast_S_S1600000 : (⟨S_, .f32⟩ : BufTy).Contents (Elt F) → (⟨S1600000, .f32⟩ : BufTy).Contents (Elt F)),
    nullary main_cst_25 (constant S_ .f32 0x00000000#32),
    unary main_cst_25 main_v108 (broadcastInDim S100000 ![] bcast_S_S100000 : (⟨S_, .f32⟩ : BufTy).Contents (Elt F) → (⟨S100000, .f32⟩ : BufTy).Contents (Elt F)),
    unary main_v3 main_v109 (broadcastInDim S1600000x1 ![0] bcast_S1600000_S1600000x1_0 : (⟨S1600000, .i32⟩ : BufTy).Contents (Elt F) → (⟨S1600000x1, .i32⟩ : BufTy).Contents (Elt F)),
    ternary main_v108 main_v109 main_v107 main_v110 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_26 (constant S_ .f32 0x3F800000#32),
    unary main_cst_26 main_v111 (broadcastInDim S100000 ![] bcast_S_S100000 : (⟨S_, .f32⟩ : BufTy).Contents (Elt F) → (⟨S100000, .f32⟩ : BufTy).Contents (Elt F)),
    binary main_v110 main_v111 main_v112 (maximumf : (⟨S100000, .f32⟩ : BufTy).Contents (Elt F) → (⟨S100000, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    unary main_v113 main_v114 (broadcastInDim S100000x128 ![0, 1] bcast_S100000x1_S100000x128_0_1 : (⟨S100000x1, .f32⟩ : BufTy).Contents (Elt F) → (⟨S100000x128, .f32⟩ : BufTy).Contents (Elt F)),
    binary main_v106 main_v114 main_v115 (Host.divf : (⟨S100000x128, .f32⟩ : BufTy).Contents (Elt F) → (⟨S100000x128, .f32⟩ : BufTy).Contents (Elt F) → (⟨S100000x128, .f32⟩ : BufTy).Contents (Elt F)),
    unary main_arg5 main_v116 ((transpose S128x128 [1, 0] · transposes_S128x128_S128x128_1_0) : (⟨S128x128, .f32⟩ : BufTy).Contents (Elt F) → (⟨S128x128, .f32⟩ : BufTy).Contents (Elt F)) ]

/-- Layer 2, the linear map plus the residual: `main_v117`, `main_v118`. -/
abbrev B5 : List (HloOp τ sig (Elt F)) :=
  [ binary main_v115 main_v116 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v117 main_v73 main_v118 (addf : (⟨S100000x128, .f32⟩ : BufTy).Contents (Elt F) → (⟨S100000x128, .f32⟩ : BufTy).Contents (Elt F) → (⟨S100000x128, .f32⟩ : BufTy).Contents (Elt F)) ]

/-- Layer 2, the layer norm: `main_v119` … `main_v142`. -/
abbrev B6 : List (HloOp τ sig (Elt F)) :=
  [ nullary main_cst_27 (constant S_ .f32 0x00000000#32),
    binary main_v118 main_cst_27 main_v119 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v119 main_v120 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v121 (broadcastInDim S100000x1 ![] bcast_S_S100000x1 : (⟨S_, .f32⟩ : BufTy).Contents (Elt F) → (⟨S100000x1, .f32⟩ : BufTy).Contents (Elt F)),
    binary main_v120 main_v121 main_v122 (Host.divf : (⟨S100000x1, .f32⟩ : BufTy).Contents (Elt F) → (⟨S100000x1, .f32⟩ : BufTy).Contents (Elt F) → (⟨S100000x1, .f32⟩ : BufTy).Contents (Elt F)),
    unary main_v122 main_v123 (broadcastInDim S100000x128 ![0, 1] bcast_S100000x1_S100000x128_0_1 : (⟨S100000x1, .f32⟩ : BufTy).Contents (Elt F) → (⟨S100000x128, .f32⟩ : BufTy).Contents (Elt F)),
    binary main_v118 main_v123 main_v124 (subf : (⟨S100000x128, .f32⟩ : BufTy).Contents (Elt F) → (⟨S100000x128, .f32⟩ : BufTy).Contents (Elt F) → (⟨S100000x128, .f32⟩ : BufTy).Contents (Elt F)),
    binary main_v124 main_v124 main_v125 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    binary main_v125 main_cst_29 main_v126 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v126 main_v127 (broadcastInDim S100000x1 ![0] bcast_S100000_S100000x1_0 : (⟨S100000, .f32⟩ : BufTy).Contents (Elt F) → (⟨S100000x1, .f32⟩ : BufTy).Contents (Elt F)),
    nullary main_cst_30 (constant S_ .f32 0x43000000#32),
    unary main_cst_30 main_v128 (broadcastInDim S100000x1 ![] bcast_S_S100000x1 : (⟨S_, .f32⟩ : BufTy).Contents (Elt F) → (⟨S100000x1, .f32⟩ : BufTy).Contents (Elt F)),
    binary main_v127 main_v128 main_v129 (Host.divf : (⟨S100000x1, .f32⟩ : BufTy).Contents (Elt F) → (⟨S100000x1, .f32⟩ : BufTy).Contents (Elt F) → (⟨S100000x1, .f32⟩ : BufTy).Contents (Elt F)),
    unary main_v122 main_v130 (broadcastInDim S100000x128 ![0, 1] bcast_S100000x1_S100000x128_0_1 : (⟨S100000x1, .f32⟩ : BufTy).Contents (Elt F) → (⟨S100000x128, .f32⟩ : BufTy).Contents (Elt F)),
    binary main_v118 main_v130 main_v131 (subf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x3727C5AC#32),
    unary main_cst_31 main_v132 (broadcastInDim S100000x1 ![] bcast_S_S100000x1 : (⟨S_, .f32⟩ : BufTy).Contents (Elt F) → (⟨S100000x1, .f32⟩ : BufTy).Contents (Elt F)),
    binary main_v129 main_v132 main_v133 (addf : (⟨S100000x1, .f32⟩ : BufTy).Contents (Elt F) → (⟨S100000x1, .f32⟩ : BufTy).Contents (Elt F) → (⟨S100000x1, .f32⟩ : BufTy).Contents (Elt F)),
    unary main_v133 main_v134 (Host.sqrt : (⟨S100000x1, .f32⟩ : BufTy).Contents (Elt F) → (⟨S100000x1, .f32⟩ : BufTy).Contents (Elt F)),
    unary main_v134 main_v135 (broadcastInDim S100000x128 ![0, 1] bcast_S100000x1_S100000x128_0_1 : (⟨S100000x1, .f32⟩ : BufTy).Contents (Elt F) → (⟨S100000x128, .f32⟩ : BufTy).Contents (Elt F)),
    binary main_v131 main_v135 main_v136 (Host.divf : (⟨S100000x128, .f32⟩ : BufTy).Contents (Elt F) → (⟨S100000x128, .f32⟩ : BufTy).Contents (Elt F) → (⟨S100000x128, .f32⟩ : BufTy).Contents (Elt F)),
    unary main_arg8 main_v137 (broadcastInDim S1x128 ![1] bcast_S128_S1x128_1 : (⟨S128, .f32⟩ : BufTy).Contents (Elt F) → (⟨S1x128, .f32⟩ : BufTy).Contents (Elt F)),
    unary main_v137 main_v138 (broadcastInDim S100000x128 ![0, 1] bcast_S1x128_S100000x128_0_1 : (⟨S1x128, .f32⟩ : BufTy).Contents (Elt F) → (⟨S100000x128, .f32⟩ : BufTy).Contents (Elt F)),
    binary main_v136 main_v138 main_v139 (mulf : (⟨S100000x128, .f32⟩ : BufTy).Contents (Elt F) → (⟨S100000x128, .f32⟩ : BufTy).Contents (Elt F) → (⟨S100000x128, .f32⟩ : BufTy).Contents (Elt F)),
    unary main_arg9 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v139 main_v141 main_v142 (addf : (⟨S100000x128, .f32⟩ : BufTy).Contents (Elt F) → (⟨S100000x128, .f32⟩ : BufTy).Contents (Elt F) → (⟨S100000x128, .f32⟩ : BufTy).Contents (Elt F)) ]

/-- The program is its thirteen stretches in order. -/
theorem ops_split : (ops : List (HloOp τ sig (Elt F))) = A1 ++ A2 ++ A3 ++ A4 ++ A5 ++ A6 ++ A7 ++ B1 ++ B2 ++ B3 ++ B4 ++ B5 ++ B6 := rfl

/-- The fold over two lines one after the other is the fold over the second from the fold over the first. -/
theorem after_append {Val : EltTy → Type} (A B : List (HloOp τ sig Val)) (V : Valuation τ sig Val) :
    after (A ++ B) V = after B (after A V) := by
  induction A generalizing V with
  | nil => rfl
  | cons a A ih => simp only [List.cons_append, after_cons, ih]

local notation "𝓫" => Proc.devRef (τ := τ) (sig := sig) Proc.tc

/-! ## What a stretch leaves alone

Every operation writes one buffer. A buffer that is not among the ones a stretch's operations write holds after the
stretch what it held before it. -/

/-- One written buffer, among a list of references, as a subset of the list's device buffers. -/
theorem writes_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

/-- The buffers the stretch `A1` writes, in order. -/
abbrev A1w : List (Ref sig .tc) := [main_v0, main_v1, main_v2, main_v3, main_v4, main_cst, main_v5, main_v6, main_v7, main_cst_0, main_v8, main_v9, main_v10, main_v11]
theorem A1_writes : (A1 (F := F)).Forall fun op => op.writes ⊆ (A1w.map (Proc.devRef (τ := τ) .tc)).toFinset :=
  ⟨writes_sub (y := main_v0) (by decide), writes_sub (y := main_v1) (by decide), writes_sub (y := main_v2) (by decide), writes_sub (y := main_v3) (by decide), writes_sub (y := main_v4) (by decide), writes_sub (y := main_cst) (by decide), writes_sub (y := main_v5) (by decide), writes_sub (y := main_v6) (by decide), writes_sub (y := main_v7) (by decide), writes_sub (y := main_cst_0) (by decide), writes_sub (y := main_v8) (by decide), writes_sub (y := main_v9) (by decide), writes_sub (y := main_v10) (by decide), writes_sub (y := main_v11) (by decide)⟩
theorem A1_keep {r : Ref sig .tc} (hr : r ∉ A1w) (W : Valuation τ sig (Elt F)) : after A1 W (𝓫 r) = W (𝓫 r) :=
  after_of_writes_sub A1 W A1_writes hr

/-- The buffers the stretch `A2` writes, in order. -/
abbrev A2w : List (Ref sig .tc) := [main_c, main_v12, main_v13, main_c_1, main_v14, main_v15, main_v16, main_v17, main_v18, main_c_2, main_v19, main_v20, main_c_3, main_v21, main_v22, main_v23, main_v24, main_v25]
theorem A2_writes : (A2 (F := F)).Forall fun op => op.writes ⊆ (A2w.map (Proc.devRef (τ := τ) .tc)).toFinset :=
  ⟨writes_sub (y := main_c) (by decide), writes_sub (y := main_v12) (by decide), writes_sub (y := main_v13) (by decide), writes_sub (y := main_c_1) (by decide), writes_sub (y := main_v14) (by decide), writes_sub (y := main_v15) (by decide), writes_sub (y := main_v16) (by decide), writes_sub (y := main_v17) (by decide), writes_sub (y := main_v18) (by decide), writes_sub (y := main_c_2) (by decide), writes_sub (y := main_v19) (by decide), writes_sub (y := main_v20) (by decide), writes_sub (y := main_c_3) (by decide), writes_sub (y := main_v21) (by decide), writes_sub (y := main_v22) (by decide), writes_sub (y := main_v23) (by decide), writes_sub (y := main_v24) (by decide), writes_sub (y := main_v25) (by decide)⟩
theorem A2_keep {r : Ref sig .tc} (hr : r ∉ A2w) (W : Valuation τ sig (Elt F)) : after A2 W (𝓫 r) = W (𝓫 r) :=
  after_of_writes_sub A2 W A2_writes hr

/-- The buffers the stretch `A3` writes, in order. -/
abbrev A3w : List (Ref sig .tc) := [main_v26, main_cst_4, main_v27, main_v28, main_cst_5, main_v29, main_v30, main_v31, main_v32, main_v33]
theorem A3_writes : (A3 (F := F)).Forall fun op => op.writes ⊆ (A3w.map (Proc.devRef (τ := τ) .tc)).toFinset :=
  ⟨writes_sub (y := main_v26) (by decide), writes_sub (y := main_cst_4) (by decide), writes_sub (y := main_v27) (by decide), writes_sub (y := main_v28) (by decide), writes_sub (y := main_cst_5) (by decide), writes_sub (y := main_v29) (by decide), writes_sub (y := main_v30) (by decide), writes_sub (y := main_v31) (by decide), writes_sub (y := main_v32) (by decide), writes_sub (y := main_v33) (by decide)⟩
theorem A3_keep {r : Ref sig .tc} (hr : r ∉ A3w) (W : Valuation τ sig (Elt F)) : after A3 W (𝓫 r) = W (𝓫 r) :=
  after_of_writes_sub A3 W A3_writes hr

/-- The buffers the stretch `A4` writes, in order. -/
abbrev A4w : List (Ref sig .tc) := [main_cst_6, main_v34, main_v35, main_v36, main_cst_7, main_v37, main_cst_8, main_v38, main_v39, main_v40, main_cst_9, main_v41, main_v42, main_v43, main_v44, main_v45, main_v46]
theorem A4_writes : (A4 (F := F)).Forall fun op => op.writes ⊆ (A4w.map (Proc.devRef (τ := τ) .tc)).toFinset :=
  ⟨writes_sub (y := main_cst_6) (by decide), writes_sub (y := main_v34) (by decide), writes_sub (y := main_v35) (by decide), writes_sub (y := main_v36) (by decide), writes_sub (y := main_cst_7) (by decide), writes_sub (y := main_v37) (by decide), writes_sub (y := main_cst_8) (by decide), writes_sub (y := main_v38) (by decide), writes_sub (y := main_v39) (by decide), writes_sub (y := main_v40) (by decide), writes_sub (y := main_cst_9) (by decide), writes_sub (y := main_v41) (by decide), writes_sub (y := main_v42) (by decide), writes_sub (y := main_v43) (by decide), writes_sub (y := main_v44) (by decide), writes_sub (y := main_v45) (by decide), writes_sub (y := main_v46) (by decide)⟩
theorem A4_keep {r : Ref sig .tc} (hr : r ∉ A4w) (W : Valuation τ sig (Elt F)) : after A4 W (𝓫 r) = W (𝓫 r) :=
  after_of_writes_sub A4 W A4_writes hr

/-- The buffers the stretch `A5` writes, in order. -/
abbrev A5w : List (Ref sig .tc) := [main_v47, main_v48]
theorem A5_writes : (A5 (F := F)).Forall fun op => op.writes ⊆ (A5w.map (Proc.devRef (τ := τ) .tc)).toFinset :=
  ⟨writes_sub (y := main_v47) (by decide), writes_sub (y := main_v48) (by decide)⟩
theorem A5_keep {r : Ref sig .tc} (hr : r ∉ A5w) (W : Valuation τ sig (Elt F)) : after A5 W (𝓫 r) = W (𝓫 r) :=
  after_of_writes_sub A5 W A5_writes hr

/-- The buffers the stretch `A6` writes, in order. -/
abbrev A6w : List (Ref sig .tc) := [main_cst_10, main_v49, main_v50, main_cst_11, main_v51, main_v52, main_v53, main_v54, main_v55, main_cst_12, main_v56, main_v57, main_cst_13, main_v58, main_v59, main_v60, main_v61, main_cst_14, main_v62, main_v63, main_v64, main_v65, main_v66, main_v67, main_v68, main_v69, main_v70, main_v71, main_v72]
theorem A6_writes : (A6 (F := F)).Forall fun op => op.writes ⊆ (A6w.map (Proc.devRef (τ := τ) .tc)).toFinset :=
  ⟨writes_sub (y := main_cst_10) (by decide), writes_sub (y := main_v49) (by decide), writes_sub (y := main_v50) (by decide), writes_sub (y := main_cst_11) (by decide), writes_sub (y := main_v51) (by decide), writes_sub (y := main_v52) (by decide), writes_sub (y := main_v53) (by decide), writes_sub (y := main_v54) (by decide), writes_sub (y := main_v55) (by decide), writes_sub (y := main_cst_12) (by decide), writes_sub (y := main_v56) (by decide), writes_sub (y := main_v57) (by decide), writes_sub (y := main_cst_13) (by decide), writes_sub (y := main_v58) (by decide), writes_sub (y := main_v59) (by decide), writes_sub (y := main_v60) (by decide), writes_sub (y := main_v61) (by decide), writes_sub (y := main_cst_14) (by decide), writes_sub (y := main_v62) (by decide), writes_sub (y := main_v63) (by decide), writes_sub (y := main_v64) (by decide), writes_sub (y := main_v65) (by decide), writes_sub (y := main_v66) (by decide), writes_sub (y := main_v67) (by decide), writes_sub (y := main_v68) (by decide), writes_sub (y := main_v69) (by decide), writes_sub (y := main_v70) (by decide), writes_sub (y := main_v71) (by decide), writes_sub (y := main_v72) (by decide)⟩
theorem A6_keep {r : Ref sig .tc} (hr : r ∉ A6w) (W : Valuation τ sig (Elt F)) : after A6 W (𝓫 r) = W (𝓫 r) :=
  after_of_writes_sub A6 W A6_writes hr

/-- The buffers the stretch `A7` writes, in order. -/
abbrev A7w : List (Ref sig .tc) := [main_call0_cst, main_call0_v0, main_v73]
theorem A7_writes : (A7 (F := F)).Forall fun op => op.writes ⊆ (A7w.map (Proc.devRef (τ := τ) .tc)).toFinset :=
  ⟨writes_sub (y := main_call0_cst) (by decide), writes_sub (y := main_call0_v0) (by decide), writes_sub (y := main_v73) (by decide)⟩
theorem A7_keep {r : Ref sig .tc} (hr : r ∉ A7w) (W : Valuation τ sig (Elt F)) : after A7 W (𝓫 r) = W (𝓫 r) :=
  after_of_writes_sub A7 W A7_writes hr

/-- The buffers the stretch `B1` writes, in order. -/
abbrev B1w : List (Ref sig .tc) := [main_v74, main_cst_15, main_v75, main_v76, main_v77, main_cst_16, main_v78, main_v79, main_v80, main_v81]
theorem B1_writes : (B1 (F := F)).Forall fun op => op.writes ⊆ (B1w.map (Proc.devRef (τ := τ) .tc)).toFinset :=
  ⟨writes_sub (y := main_v74) (by decide), writes_sub (y := main_cst_15) (by decide), writes_sub (y := main_v75) (by decide), writes_sub (y := main_v76) (by decide), writes_sub (y := main_v77) (by decide), writes_sub (y := main_cst_16) (by decide), writes_sub (y := main_v78) (by decide), writes_sub (y := main_v79) (by decide), writes_sub (y := main_v80) (by decide), writes_sub (y := main_v81) (by decide)⟩
theorem B1_keep {r : Ref sig .tc} (hr : r ∉ B1w) (W : Valuation τ sig (Elt F)) : after B1 W (𝓫 r) = W (𝓫 r) :=
  after_of_writes_sub B1 W B1_writes hr

/-- The buffers the stretch `B2` writes, in order. -/
abbrev B2w : List (Ref sig .tc) := [main_c_17, main_v82, main_v83, main_c_18, main_v84, main_v85, main_v86, main_v87, main_v88, main_c_19, main_v89, main_v90, main_c_20, main_v91, main_v92, main_v93, main_v94, main_v95]
theorem B2_writes : (B2 (F := F)).Forall fun op => op.writes ⊆ (B2w.map (Proc.devRef (τ := τ) .tc)).toFinset :=
  ⟨writes_sub (y := main_c_17) (by decide), writes_sub (y := main_v82) (by decide), writes_sub (y := main_v83) (by decide), writes_sub (y := main_c_18) (by decide), writes_sub (y := main_v84) (by decide), writes_sub (y := main_v85) (by decide), writes_sub (y := main_v86) (by decide), writes_sub (y := main_v87) (by decide), writes_sub (y := main_v88) (by decide), writes_sub (y := main_c_19) (by decide), writes_sub (y := main_v89) (by decide), writes_sub (y := main_v90) (by decide), writes_sub (y := main_c_20) (by decide), writes_sub (y := main_v91) (by decide), writes_sub (y := main_v92) (by decide), writes_sub (y := main_v93) (by decide), writes_sub (y := main_v94) (by decide), writes_sub (y := main_v95) (by decide)⟩
theorem B2_keep {r : Ref sig .tc} (hr : r ∉ B2w) (W : Valuation τ sig (Elt F)) : after B2 W (𝓫 r) = W (𝓫 r) :=
  after_of_writes_sub B2 W B2_writes hr

/-- The buffers the stretch `B3` writes, in order. -/
abbrev B3w : List (Ref sig .tc) := [main_v96, main_cst_21, main_v97, main_v98, main_cst_22, main_v99, main_v100, main_v101, main_v102, main_v103]
theorem B3_writes : (B3 (F := F)).Forall fun op => op.writes ⊆ (B3w.map (Proc.devRef (τ := τ) .tc)).toFinset :=
  ⟨writes_sub (y := main_v96) (by decide), writes_sub (y := main_cst_21) (by decide), writes_sub (y := main_v97) (by decide), writes_sub (y := main_v98) (by decide), writes_sub (y := main_cst_22) (by decide), writes_sub (y := main_v99) (by decide), writes_sub (y := main_v100) (by decide), writes_sub (y := main_v101) (by decide), writes_sub (y := main_v102) (by decide), writes_sub (y := main_v103) (by decide)⟩
theorem B3_keep {r : Ref sig .tc} (hr : r ∉ B3w) (W : Valuation τ sig (Elt F)) : after B3 W (𝓫 r) = W (𝓫 r) :=
  after_of_writes_sub B3 W B3_writes hr

/-- The buffers the stretch `B4` writes, in order. -/
abbrev B4w : List (Ref sig .tc) := [main_cst_23, main_v104, main_v105, main_v106, main_cst_24, main_v107, main_cst_25, main_v108, main_v109, main_v110, main_cst_26, main_v111, main_v112, main_v113, main_v114, main_v115, main_v116]
theorem B4_writes : (B4 (F := F)).Forall fun op => op.writes ⊆ (B4w.map (Proc.devRef (τ := τ) .tc)).toFinset :=
  ⟨writes_sub (y := main_cst_23) (by decide), writes_sub (y := main_v104) (by decide), writes_sub (y := main_v105) (by decide), writes_sub (y := main_v106) (by decide), writes_sub (y := main_cst_24) (by decide), writes_sub (y := main_v107) (by decide), writes_sub (y := main_cst_25) (by decide), writes_sub (y := main_v108) (by decide), writes_sub (y := main_v109) (by decide), writes_sub (y := main_v110) (by decide), writes_sub (y := main_cst_26) (by decide), writes_sub (y := main_v111) (by decide), writes_sub (y := main_v112) (by decide), writes_sub (y := main_v113) (by decide), writes_sub (y := main_v114) (by decide), writes_sub (y := main_v115) (by decide), writes_sub (y := main_v116) (by decide)⟩
theorem B4_keep {r : Ref sig .tc} (hr : r ∉ B4w) (W : Valuation τ sig (Elt F)) : after B4 W (𝓫 r) = W (𝓫 r) :=
  after_of_writes_sub B4 W B4_writes hr

/-- The buffers the stretch `B5` writes, in order. -/
abbrev B5w : List (Ref sig .tc) := [main_v117, main_v118]
theorem B5_writes : (B5 (F := F)).Forall fun op => op.writes ⊆ (B5w.map (Proc.devRef (τ := τ) .tc)).toFinset :=
  ⟨writes_sub (y := main_v117) (by decide), writes_sub (y := main_v118) (by decide)⟩
theorem B5_keep {r : Ref sig .tc} (hr : r ∉ B5w) (W : Valuation τ sig (Elt F)) : after B5 W (𝓫 r) = W (𝓫 r) :=
  after_of_writes_sub B5 W B5_writes hr

/-- The buffers the stretch `B6` writes, in order. -/
abbrev B6w : List (Ref sig .tc) := [main_cst_27, main_v119, main_v120, main_cst_28, main_v121, main_v122, main_v123, main_v124, main_v125, main_cst_29, main_v126, main_v127, main_cst_30, main_v128, main_v129, main_v130, main_v131, main_cst_31, main_v132, main_v133, main_v134, main_v135, main_v136, main_v137, main_v138, main_v139, main_v140, main_v141, main_v142]
theorem B6_writes : (B6 (F := F)).Forall fun op => op.writes ⊆ (B6w.map (Proc.devRef (τ := τ) .tc)).toFinset :=
  ⟨writes_sub (y := main_cst_27) (by decide), writes_sub (y := main_v119) (by decide), writes_sub (y := main_v120) (by decide), writes_sub (y := main_cst_28) (by decide), writes_sub (y := main_v121) (by decide), writes_sub (y := main_v122) (by decide), writes_sub (y := main_v123) (by decide), writes_sub (y := main_v124) (by decide), writes_sub (y := main_v125) (by decide), writes_sub (y := main_cst_29) (by decide), writes_sub (y := main_v126) (by decide), writes_sub (y := main_v127) (by decide), writes_sub (y := main_cst_30) (by decide), writes_sub (y := main_v128) (by decide), writes_sub (y := main_v129) (by decide), writes_sub (y := main_v130) (by decide), writes_sub (y := main_v131) (by decide), writes_sub (y := main_cst_31) (by decide), writes_sub (y := main_v132) (by decide), writes_sub (y := main_v133) (by decide), writes_sub (y := main_v134) (by decide), writes_sub (y := main_v135) (by decide), writes_sub (y := main_v136) (by decide), writes_sub (y := main_v137) (by decide), writes_sub (y := main_v138) (by decide), writes_sub (y := main_v139) (by decide), writes_sub (y := main_v140) (by decide), writes_sub (y := main_v141) (by decide), writes_sub (y := main_v142) (by decide)⟩
theorem B6_keep {r : Ref sig .tc} (hr : r ∉ B6w) (W : Valuation τ sig (Elt F)) : after B6 W (𝓫 r) = W (𝓫 r) :=
  after_of_writes_sub B6 W B6_writes hr

/-! ## The named steps (at the ideal instance: a float is an extended real) -/

/-- Row `0` of the edge list as a vector: every edge's source node. -/
def srcIdx (a0 : IVec S2x1600000 32) : IVec S1600000 32 :=
  shapeCast S1600000 (extractStridedSlice S1x1600000 ![0, 0] a0 slices_S2x1600000_S1x1600000_0_0) shapeCasts_S1x1600000_S1600000

/-- Row `1` of the edge list as a vector: every edge's target node. -/
def tgtIdx (a0 : IVec S2x1600000 32) : IVec S1600000 32 :=
  shapeCast S1600000 (extractStridedSlice S1x1600000 ![1, 0] a0 slices_S2x1600000_S1x1600000_1_0) shapeCasts_S1x1600000_S1600000

/-- Every relation row divided by the maximum of its Euclidean norm √(Σ_k r_k²) and the word 1e-6. -/
def unitRel (r : FVec Ideal S1001x128 .f32) : FVec Ideal S1001x128 .f32 :=
  Host.divf r (broadcastInDim S1001x128 ![0, 1] bcast_S1001x1_S1001x128_0_1
    (maximumf (Host.sqrt (broadcastInDim S1001x1 ![0] bcast_S1001_S1001x1_0
        (Host.reduceAdd (mulf r r) (constant (F := Ideal) S_ .f32 0x00000000#32) reducesTo_S1001x128_S1001_d1 h_S_)))
      (broadcastInDim S1001x1 ![] bcast_S_S1001x1 (constant (F := Ideal) S_ .f32 0x358637BD#32))))

/-- An index vector with `n` added wherever it is negative, as a column. -/
def wrapIdx (n : BitVec 32) (ix : IVec S1600000 32) : IVec S1600000x1 32 :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 n))) ix)

/-- Every edge's source row: the node rows gathered at the wrapped source nodes. -/
def srcRows (x : FVec Ideal S100000x128 .f32) (src : IVec S1600000 32) : FVec Ideal S1600000x128 .f32 :=
  Host.gather gather_S100000x128_S1600000x1_S1600000x128_1_0_n_n_0_1_1128 x (wrapIdx 100000#32 src)

/-- Every edge's relation row: the relation rows `u` gathered at the wrapped edge types. -/
def relRows (u : FVec Ideal S1001x128 .f32) (ty : IVec S1600000 32) : FVec Ideal S1600000x128 .f32 :=
  Host.gather gather_S1001x128_S1600000x1_S1600000x128_1_0_n_n_0_1_1128 u (wrapIdx 1001#32 ty)

/-- Every node's in-degree: ones scatter-added at the target nodes into zeros. -/
def degree (tgt : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 tgt)
    (broadcastInDim S1600000 ![] bcast_S_S1600000 (constant (F := Ideal) S_ .f32 0x3F800000#32))

/-- The mean over incoming edges: the edge rows `msg` scatter-added at the target nodes into zeros, then every node's
    row divided by the maximum of the node's in-degree and one. -/
def aggregate (msg : FVec Ideal S1600000x128 .f32) (tgt : IVec S1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 tgt) msg)
    (broadcastInDim S100000x128 ![0, 1] bcast_S100000x1_S100000x128_0_1
      (broadcastInDim S100000x1 ![0] bcast_S100000_S100000x1_0
        (maximumf (degree tgt) (broadcastInDim S100000 ![] bcast_S_S100000 (constant (F := Ideal) S_ .f32 0x3F800000#32)))))

/-- A weight matrix transposed. -/
def weightT (w : FVec Ideal S128x128 .f32) : FVec Ideal S128x128 .f32 :=
  transpose S128x128 [1, 0] w transposes_S128x128_S128x128_1_0

/-- One layer before its activation, on node rows `x`: every edge's source row reflected across its unit relation
    row, the reflected rows averaged at the target nodes, the linear map plus the residual `x`, the layer norm. -/
def layer (x : FVec Ideal S100000x128 .f32) (a0 : IVec S2x1600000 32) (a1 : IVec S1600000 32)
    (r : FVec Ideal S1001x128 .f32) (w : FVec Ideal S128x128 .f32) (g b : FVec Ideal S128 .f32) : FVec Ideal S100000x128 .f32 :=
  Cert.Spec.layerNorm
    (Cert.Spec.project
      (aggregate (Cert.Spec.reflect (srcRows x (srcIdx a0)) (relRows (unitRel r) a1)) (tgtIdx a0)) x (weightT w))
    g b

/-- The program's result as a function of its ten arguments: two layers, the first followed by the maximum with zero. -/
def refResult (a0 : IVec S2x1600000 32) (a1 : IVec S1600000 32) (x0 : FVec Ideal S100000x128 .f32)
    (r : FVec Ideal S1001x128 .f32) (w1 w2 : FVec Ideal S128x128 .f32) (g1 b1 g2 b2 : FVec Ideal S128 .f32) :
    FVec Ideal S100000x128 .f32 :=
  layer (Cert.Spec.relu (layer x0 a0 a1 r w1 g1 b1)) a0 a1 r w2 g2 b2

/-! ## Each stretch, from any contents `W`

What a stretch writes to a buffer a later stretch reads, as a term over what the buffers it reads held before it. -/

section Stretches

variable (W : Valuation τ sig (Elt Ideal))

theorem A1_v1 : after (A1 (F := Ideal)) W (𝓫 main_v1) = srcIdx (W (𝓫 main_arg0)) := by after_results_simp <;> rfl
theorem A1_v3 : after (A1 (F := Ideal)) W (𝓫 main_v3) = tgtIdx (W (𝓫 main_arg0)) := by after_results_simp <;> rfl
theorem A1_v11 : after (A1 (F := Ideal)) W (𝓫 main_v11) = unitRel (W (𝓫 main_arg3)) := by after_results_simp <;> rfl
theorem A2_v18 : after (A2 (F := Ideal)) W (𝓫 main_v18) = srcRows (W (𝓫 main_arg2)) (W (𝓫 main_v1)) := by after_results_simp <;> rfl
theorem A2_v25 : after (A2 (F := Ideal)) W (𝓫 main_v25) = relRows (W (𝓫 main_v11)) (W (𝓫 main_arg1)) := by after_results_simp <;> rfl
theorem A3_v33 : after (A3 (F := Ideal)) W (𝓫 main_v33) = Cert.Spec.reflect (W (𝓫 main_v18)) (W (𝓫 main_v25)) := by after_results_simp <;> rfl
theorem A4_v45 : after (A4 (F := Ideal)) W (𝓫 main_v45) = aggregate (W (𝓫 main_v33)) (W (𝓫 main_v3)) := by after_results_simp <;> rfl
theorem A4_v46 : after (A4 (F := Ideal)) W (𝓫 main_v46) = weightT (W (𝓫 main_arg4)) := by after_results_simp <;> rfl
theorem A5_v48 : after (A5 (F := Ideal)) W (𝓫 main_v48) = Cert.Spec.project (W (𝓫 main_v45)) (W (𝓫 main_arg2)) (W (𝓫 main_v46)) := by after_results_simp <;> rfl
theorem A6_v72 : after (A6 (F := Ideal)) W (𝓫 main_v72) = Cert.Spec.layerNorm (W (𝓫 main_v48)) (W (𝓫 main_arg6)) (W (𝓫 main_arg7)) := by after_results_simp <;> rfl
theorem A7_v73 : after (A7 (F := Ideal)) W (𝓫 main_v73) = Cert.Spec.relu (W (𝓫 main_v72)) := by after_results_simp <;> rfl
theorem B1_v81 : after (B1 (F := Ideal)) W (𝓫 main_v81) = unitRel (W (𝓫 main_arg3)) := by after_results_simp <;> rfl
theorem B2_v88 : after (B2 (F := Ideal)) W (𝓫 main_v88) = srcRows (W (𝓫 main_v73)) (W (𝓫 main_v1)) := by after_results_simp <;> rfl
theorem B2_v95 : after (B2 (F := Ideal)) W (𝓫 main_v95) = relRows (W (𝓫 main_v81)) (W (𝓫 main_arg1)) := by after_results_simp <;> rfl
theorem B3_v103 : after (B3 (F := Ideal)) W (𝓫 main_v103) = Cert.Spec.reflect (W (𝓫 main_v88)) (W (𝓫 main_v95)) := by after_results_simp <;> rfl
theorem B4_v115 : after (B4 (F := Ideal)) W (𝓫 main_v115) = aggregate (W (𝓫 main_v103)) (W (𝓫 main_v3)) := by after_results_simp <;> rfl
theorem B4_v116 : after (B4 (F := Ideal)) W (𝓫 main_v116) = weightT (W (𝓫 main_arg5)) := by after_results_simp <;> rfl
theorem B5_v118 : after (B5 (F := Ideal)) W (𝓫 main_v118) = Cert.Spec.project (W (𝓫 main_v115)) (W (𝓫 main_v73)) (W (𝓫 main_v116)) := by after_results_simp <;> rfl
theorem B6_v142 : after (B6 (F := Ideal)) W (𝓫 main_v142) = Cert.Spec.layerNorm (W (𝓫 main_v118)) (W (𝓫 main_arg8)) (W (𝓫 main_arg9)) := by after_results_simp <;> rfl

end Stretches

/-! ## The fold, stretch after stretch

`U k V` is what the buffers hold after the first `k` stretches from the contents `V`. A buffer none of them writes still
holds `V`'s contents; a buffer a later stretch reads holds the composed term below. -/

/-- The contents after the first stretch. -/
def U1 (V : Valuation τ sig (Elt F)) : Valuation τ sig (Elt F) := after A1 (V)
/-- The contents after the first 2 stretches. -/
def U2 (V : Valuation τ sig (Elt F)) : Valuation τ sig (Elt F) := after A2 (U1 V)
/-- The contents after the first 3 stretches. -/
def U3 (V : Valuation τ sig (Elt F)) : Valuation τ sig (Elt F) := after A3 (U2 V)
/-- The contents after the first 4 stretches. -/
def U4 (V : Valuation τ sig (Elt F)) : Valuation τ sig (Elt F) := after A4 (U3 V)
/-- The contents after the first 5 stretches. -/
def U5 (V : Valuation τ sig (Elt F)) : Valuation τ sig (Elt F) := after A5 (U4 V)
/-- The contents after the first 6 stretches. -/
def U6 (V : Valuation τ sig (Elt F)) : Valuation τ sig (Elt F) := after A6 (U5 V)
/-- The contents after the first 7 stretches. -/
def U7 (V : Valuation τ sig (Elt F)) : Valuation τ sig (Elt F) := after A7 (U6 V)
/-- The contents after the first 8 stretches. -/
def U8 (V : Valuation τ sig (Elt F)) : Valuation τ sig (Elt F) := after B1 (U7 V)
/-- The contents after the first 9 stretches. -/
def U9 (V : Valuation τ sig (Elt F)) : Valuation τ sig (Elt F) := after B2 (U8 V)
/-- The contents after the first 10 stretches. -/
def U10 (V : Valuation τ sig (Elt F)) : Valuation τ sig (Elt F) := after B3 (U9 V)
/-- The contents after the first 11 stretches. -/
def U11 (V : Valuation τ sig (Elt F)) : Valuation τ sig (Elt F) := after B4 (U10 V)
/-- The contents after the first 12 stretches. -/
def U12 (V : Valuation τ sig (Elt F)) : Valuation τ sig (Elt F) := after B5 (U11 V)
/-- The contents after the first 13 stretches. -/
def U13 (V : Valuation τ sig (Elt F)) : Valuation τ sig (Elt F) := after B6 (U12 V)

/-- The whole fold is the fold of the thirteen stretches in order. -/
theorem after_ops (V : Valuation τ sig (Elt F)) : after ops V = U13 V := by
  rw [ops_split]; simp only [after_append]; rfl

theorem U1_keep {r : Ref sig .tc} (hr : r ∉ A1w) (V : Valuation τ sig (Elt F)) : U1 V (𝓫 r) = V (𝓫 r) := A1_keep hr V
theorem U2_keep {r : Ref sig .tc} (hr : r ∉ A1w ++ A2w) (V : Valuation τ sig (Elt F)) : U2 V (𝓫 r) = V (𝓫 r) :=
  (A2_keep (fun h => hr (List.mem_append_right _ h)) (U1 V)).trans (U1_keep (fun h => hr (List.mem_append_left _ h)) V)
theorem U3_keep {r : Ref sig .tc} (hr : r ∉ A1w ++ A2w ++ A3w) (V : Valuation τ sig (Elt F)) : U3 V (𝓫 r) = V (𝓫 r) :=
  (A3_keep (fun h => hr (List.mem_append_right _ h)) (U2 V)).trans (U2_keep (fun h => hr (List.mem_append_left _ h)) V)
theorem U4_keep {r : Ref sig .tc} (hr : r ∉ A1w ++ A2w ++ A3w ++ A4w) (V : Valuation τ sig (Elt F)) : U4 V (𝓫 r) = V (𝓫 r) :=
  (A4_keep (fun h => hr (List.mem_append_right _ h)) (U3 V)).trans (U3_keep (fun h => hr (List.mem_append_left _ h)) V)
theorem U5_keep {r : Ref sig .tc} (hr : r ∉ A1w ++ A2w ++ A3w ++ A4w ++ A5w) (V : Valuation τ sig (Elt F)) : U5 V (𝓫 r) = V (𝓫 r) :=
  (A5_keep (fun h => hr (List.mem_append_right _ h)) (U4 V)).trans (U4_keep (fun h => hr (List.mem_append_left _ h)) V)
theorem U6_keep {r : Ref sig .tc} (hr : r ∉ A1w ++ A2w ++ A3w ++ A4w ++ A5w ++ A6w) (V : Valuation τ sig (Elt F)) : U6 V (𝓫 r) = V (𝓫 r) :=
  (A6_keep (fun h => hr (List.mem_append_right _ h)) (U5 V)).trans (U5_keep (fun h => hr (List.mem_append_left _ h)) V)
theorem U7_keep {r : Ref sig .tc} (hr : r ∉ A1w ++ A2w ++ A3w ++ A4w ++ A5w ++ A6w ++ A7w) (V : Valuation τ sig (Elt F)) : U7 V (𝓫 r) = V (𝓫 r) :=
  (A7_keep (fun h => hr (List.mem_append_right _ h)) (U6 V)).trans (U6_keep (fun h => hr (List.mem_append_left _ h)) V)
theorem U8_keep {r : Ref sig .tc} (hr : r ∉ A1w ++ A2w ++ A3w ++ A4w ++ A5w ++ A6w ++ A7w ++ B1w) (V : Valuation τ sig (Elt F)) : U8 V (𝓫 r) = V (𝓫 r) :=
  (B1_keep (fun h => hr (List.mem_append_right _ h)) (U7 V)).trans (U7_keep (fun h => hr (List.mem_append_left _ h)) V)
theorem U9_keep {r : Ref sig .tc} (hr : r ∉ A1w ++ A2w ++ A3w ++ A4w ++ A5w ++ A6w ++ A7w ++ B1w ++ B2w) (V : Valuation τ sig (Elt F)) : U9 V (𝓫 r) = V (𝓫 r) :=
  (B2_keep (fun h => hr (List.mem_append_right _ h)) (U8 V)).trans (U8_keep (fun h => hr (List.mem_append_left _ h)) V)
theorem U10_keep {r : Ref sig .tc} (hr : r ∉ A1w ++ A2w ++ A3w ++ A4w ++ A5w ++ A6w ++ A7w ++ B1w ++ B2w ++ B3w) (V : Valuation τ sig (Elt F)) : U10 V (𝓫 r) = V (𝓫 r) :=
  (B3_keep (fun h => hr (List.mem_append_right _ h)) (U9 V)).trans (U9_keep (fun h => hr (List.mem_append_left _ h)) V)
theorem U11_keep {r : Ref sig .tc} (hr : r ∉ A1w ++ A2w ++ A3w ++ A4w ++ A5w ++ A6w ++ A7w ++ B1w ++ B2w ++ B3w ++ B4w) (V : Valuation τ sig (Elt F)) : U11 V (𝓫 r) = V (𝓫 r) :=
  (B4_keep (fun h => hr (List.mem_append_right _ h)) (U10 V)).trans (U10_keep (fun h => hr (List.mem_append_left _ h)) V)
theorem U12_keep {r : Ref sig .tc} (hr : r ∉ A1w ++ A2w ++ A3w ++ A4w ++ A5w ++ A6w ++ A7w ++ B1w ++ B2w ++ B3w ++ B4w ++ B5w) (V : Valuation τ sig (Elt F)) : U12 V (𝓫 r) = V (𝓫 r) :=
  (B5_keep (fun h => hr (List.mem_append_right _ h)) (U11 V)).trans (U11_keep (fun h => hr (List.mem_append_left _ h)) V)
theorem U13_keep {r : Ref sig .tc} (hr : r ∉ A1w ++ A2w ++ A3w ++ A4w ++ A5w ++ A6w ++ A7w ++ B1w ++ B2w ++ B3w ++ B4w ++ B5w ++ B6w) (V : Valuation τ sig (Elt F)) : U13 V (𝓫 r) = V (𝓫 r) :=
  (B6_keep (fun h => hr (List.mem_append_right _ h)) (U12 V)).trans (U12_keep (fun h => hr (List.mem_append_left _ h)) V)

section Values

variable (V : Valuation τ sig (Elt Ideal))

theorem U1_v1 : U1 V (𝓫 main_v1) = srcIdx (V (𝓫 main_arg0)) :=
  A1_v1 V
theorem U1_v3 : U1 V (𝓫 main_v3) = tgtIdx (V (𝓫 main_arg0)) :=
  A1_v3 V
theorem U1_v11 : U1 V (𝓫 main_v11) = unitRel (V (𝓫 main_arg3)) :=
  A1_v11 V
theorem U2_v18 : U2 V (𝓫 main_v18) = srcRows (V (𝓫 main_arg2)) (srcIdx (V (𝓫 main_arg0))) :=
  (A2_v18 (U1 V)).trans (by rw [U1_keep (r := main_arg2) (by decide) V, U1_v1 V])
theorem U2_v25 : U2 V (𝓫 main_v25) = relRows (unitRel (V (𝓫 main_arg3))) (V (𝓫 main_arg1)) :=
  (A2_v25 (U1 V)).trans (by rw [U1_v11 V, U1_keep (r := main_arg1) (by decide) V])
theorem U2_v1 : U2 V (𝓫 main_v1) = srcIdx (V (𝓫 main_arg0)) :=
  (A2_keep (by decide) (U1 V)).trans (U1_v1 V)
theorem U2_v3 : U2 V (𝓫 main_v3) = tgtIdx (V (𝓫 main_arg0)) :=
  (A2_keep (by decide) (U1 V)).trans (U1_v3 V)
theorem U3_v33 : U3 V (𝓫 main_v33) = Cert.Spec.reflect (srcRows (V (𝓫 main_arg2)) (srcIdx (V (𝓫 main_arg0)))) (relRows (unitRel (V (𝓫 main_arg3))) (V (𝓫 main_arg1))) :=
  (A3_v33 (U2 V)).trans (by rw [U2_v18 V, U2_v25 V])
theorem U3_v1 : U3 V (𝓫 main_v1) = srcIdx (V (𝓫 main_arg0)) :=
  (A3_keep (by decide) (U2 V)).trans (U2_v1 V)
theorem U3_v3 : U3 V (𝓫 main_v3) = tgtIdx (V (𝓫 main_arg0)) :=
  (A3_keep (by decide) (U2 V)).trans (U2_v3 V)
theorem U4_v45 : U4 V (𝓫 main_v45) = aggregate (Cert.Spec.reflect (srcRows (V (𝓫 main_arg2)) (srcIdx (V (𝓫 main_arg0)))) (relRows (unitRel (V (𝓫 main_arg3))) (V (𝓫 main_arg1)))) (tgtIdx (V (𝓫 main_arg0))) :=
  (A4_v45 (U3 V)).trans (by rw [U3_v33 V, U3_v3 V])
theorem U4_v46 : U4 V (𝓫 main_v46) = weightT (V (𝓫 main_arg4)) :=
  (A4_v46 (U3 V)).trans (by rw [U3_keep (r := main_arg4) (by decide) V])
theorem U4_v1 : U4 V (𝓫 main_v1) = srcIdx (V (𝓫 main_arg0)) :=
  (A4_keep (by decide) (U3 V)).trans (U3_v1 V)
theorem U4_v3 : U4 V (𝓫 main_v3) = tgtIdx (V (𝓫 main_arg0)) :=
  (A4_keep (by decide) (U3 V)).trans (U3_v3 V)
theorem U5_v48 : U5 V (𝓫 main_v48) = Cert.Spec.project (aggregate (Cert.Spec.reflect (srcRows (V (𝓫 main_arg2)) (srcIdx (V (𝓫 main_arg0)))) (relRows (unitRel (V (𝓫 main_arg3))) (V (𝓫 main_arg1)))) (tgtIdx (V (𝓫 main_arg0)))) (V (𝓫 main_arg2)) (weightT (V (𝓫 main_arg4))) :=
  (A5_v48 (U4 V)).trans (by rw [U4_v45 V, U4_keep (r := main_arg2) (by decide) V, U4_v46 V])
theorem U5_v1 : U5 V (𝓫 main_v1) = srcIdx (V (𝓫 main_arg0)) :=
  (A5_keep (by decide) (U4 V)).trans (U4_v1 V)
theorem U5_v3 : U5 V (𝓫 main_v3) = tgtIdx (V (𝓫 main_arg0)) :=
  (A5_keep (by decide) (U4 V)).trans (U4_v3 V)
theorem U6_v72 : U6 V (𝓫 main_v72) = layer (V (𝓫 main_arg2)) (V (𝓫 main_arg0)) (V (𝓫 main_arg1)) (V (𝓫 main_arg3)) (V (𝓫 main_arg4)) (V (𝓫 main_arg6)) (V (𝓫 main_arg7)) :=
  (A6_v72 (U5 V)).trans (by rw [U5_v48 V, U5_keep (r := main_arg6) (by decide) V, U5_keep (r := main_arg7) (by decide) V]; rfl)
theorem U6_v1 : U6 V (𝓫 main_v1) = srcIdx (V (𝓫 main_arg0)) :=
  (A6_keep (by decide) (U5 V)).trans (U5_v1 V)
theorem U6_v3 : U6 V (𝓫 main_v3) = tgtIdx (V (𝓫 main_arg0)) :=
  (A6_keep (by decide) (U5 V)).trans (U5_v3 V)
theorem U7_v73 : U7 V (𝓫 main_v73) = Cert.Spec.relu (layer (V (𝓫 main_arg2)) (V (𝓫 main_arg0)) (V (𝓫 main_arg1)) (V (𝓫 main_arg3)) (V (𝓫 main_arg4)) (V (𝓫 main_arg6)) (V (𝓫 main_arg7))) :=
  (A7_v73 (U6 V)).trans (by rw [U6_v72 V])
theorem U7_v1 : U7 V (𝓫 main_v1) = srcIdx (V (𝓫 main_arg0)) :=
  (A7_keep (by decide) (U6 V)).trans (U6_v1 V)
theorem U7_v3 : U7 V (𝓫 main_v3) = tgtIdx (V (𝓫 main_arg0)) :=
  (A7_keep (by decide) (U6 V)).trans (U6_v3 V)
theorem U8_v81 : U8 V (𝓫 main_v81) = unitRel (V (𝓫 main_arg3)) :=
  (B1_v81 (U7 V)).trans (by rw [U7_keep (r := main_arg3) (by decide) V])
theorem U8_v1 : U8 V (𝓫 main_v1) = srcIdx (V (𝓫 main_arg0)) :=
  (B1_keep (by decide) (U7 V)).trans (U7_v1 V)
theorem U8_v3 : U8 V (𝓫 main_v3) = tgtIdx (V (𝓫 main_arg0)) :=
  (B1_keep (by decide) (U7 V)).trans (U7_v3 V)
theorem U8_v73 : U8 V (𝓫 main_v73) = Cert.Spec.relu (layer (V (𝓫 main_arg2)) (V (𝓫 main_arg0)) (V (𝓫 main_arg1)) (V (𝓫 main_arg3)) (V (𝓫 main_arg4)) (V (𝓫 main_arg6)) (V (𝓫 main_arg7))) :=
  (B1_keep (by decide) (U7 V)).trans (U7_v73 V)
theorem U9_v88 : U9 V (𝓫 main_v88) = srcRows (Cert.Spec.relu (layer (V (𝓫 main_arg2)) (V (𝓫 main_arg0)) (V (𝓫 main_arg1)) (V (𝓫 main_arg3)) (V (𝓫 main_arg4)) (V (𝓫 main_arg6)) (V (𝓫 main_arg7)))) (srcIdx (V (𝓫 main_arg0))) :=
  (B2_v88 (U8 V)).trans (by rw [U8_v73 V, U8_v1 V])
theorem U9_v95 : U9 V (𝓫 main_v95) = relRows (unitRel (V (𝓫 main_arg3))) (V (𝓫 main_arg1)) :=
  (B2_v95 (U8 V)).trans (by rw [U8_v81 V, U8_keep (r := main_arg1) (by decide) V])
theorem U9_v3 : U9 V (𝓫 main_v3) = tgtIdx (V (𝓫 main_arg0)) :=
  (B2_keep (by decide) (U8 V)).trans (U8_v3 V)
theorem U9_v73 : U9 V (𝓫 main_v73) = Cert.Spec.relu (layer (V (𝓫 main_arg2)) (V (𝓫 main_arg0)) (V (𝓫 main_arg1)) (V (𝓫 main_arg3)) (V (𝓫 main_arg4)) (V (𝓫 main_arg6)) (V (𝓫 main_arg7))) :=
  (B2_keep (by decide) (U8 V)).trans (U8_v73 V)
theorem U10_v103 : U10 V (𝓫 main_v103) = Cert.Spec.reflect (srcRows (Cert.Spec.relu (layer (V (𝓫 main_arg2)) (V (𝓫 main_arg0)) (V (𝓫 main_arg1)) (V (𝓫 main_arg3)) (V (𝓫 main_arg4)) (V (𝓫 main_arg6)) (V (𝓫 main_arg7)))) (srcIdx (V (𝓫 main_arg0)))) (relRows (unitRel (V (𝓫 main_arg3))) (V (𝓫 main_arg1))) :=
  (B3_v103 (U9 V)).trans (by rw [U9_v88 V, U9_v95 V])
theorem U10_v3 : U10 V (𝓫 main_v3) = tgtIdx (V (𝓫 main_arg0)) :=
  (B3_keep (by decide) (U9 V)).trans (U9_v3 V)
theorem U10_v73 : U10 V (𝓫 main_v73) = Cert.Spec.relu (layer (V (𝓫 main_arg2)) (V (𝓫 main_arg0)) (V (𝓫 main_arg1)) (V (𝓫 main_arg3)) (V (𝓫 main_arg4)) (V (𝓫 main_arg6)) (V (𝓫 main_arg7))) :=
  (B3_keep (by decide) (U9 V)).trans (U9_v73 V)
theorem U11_v115 : U11 V (𝓫 main_v115) = aggregate (Cert.Spec.reflect (srcRows (Cert.Spec.relu (layer (V (𝓫 main_arg2)) (V (𝓫 main_arg0)) (V (𝓫 main_arg1)) (V (𝓫 main_arg3)) (V (𝓫 main_arg4)) (V (𝓫 main_arg6)) (V (𝓫 main_arg7)))) (srcIdx (V (𝓫 main_arg0)))) (relRows (unitRel (V (𝓫 main_arg3))) (V (𝓫 main_arg1)))) (tgtIdx (V (𝓫 main_arg0))) :=
  (B4_v115 (U10 V)).trans (by rw [U10_v103 V, U10_v3 V])
theorem U11_v116 : U11 V (𝓫 main_v116) = weightT (V (𝓫 main_arg5)) :=
  (B4_v116 (U10 V)).trans (by rw [U10_keep (r := main_arg5) (by decide) V])
theorem U11_v73 : U11 V (𝓫 main_v73) = Cert.Spec.relu (layer (V (𝓫 main_arg2)) (V (𝓫 main_arg0)) (V (𝓫 main_arg1)) (V (𝓫 main_arg3)) (V (𝓫 main_arg4)) (V (𝓫 main_arg6)) (V (𝓫 main_arg7))) :=
  (B4_keep (by decide) (U10 V)).trans (U10_v73 V)
theorem U12_v118 : U12 V (𝓫 main_v118) = Cert.Spec.project (aggregate (Cert.Spec.reflect (srcRows (Cert.Spec.relu (layer (V (𝓫 main_arg2)) (V (𝓫 main_arg0)) (V (𝓫 main_arg1)) (V (𝓫 main_arg3)) (V (𝓫 main_arg4)) (V (𝓫 main_arg6)) (V (𝓫 main_arg7)))) (srcIdx (V (𝓫 main_arg0)))) (relRows (unitRel (V (𝓫 main_arg3))) (V (𝓫 main_arg1)))) (tgtIdx (V (𝓫 main_arg0)))) (Cert.Spec.relu (layer (V (𝓫 main_arg2)) (V (𝓫 main_arg0)) (V (𝓫 main_arg1)) (V (𝓫 main_arg3)) (V (𝓫 main_arg4)) (V (𝓫 main_arg6)) (V (𝓫 main_arg7)))) (weightT (V (𝓫 main_arg5))) :=
  (B5_v118 (U11 V)).trans (by rw [U11_v115 V, U11_v73 V, U11_v116 V])
theorem U13_v142 : U13 V (𝓫 main_v142) = refResult (V (𝓫 main_arg0)) (V (𝓫 main_arg1)) (V (𝓫 main_arg2)) (V (𝓫 main_arg3)) (V (𝓫 main_arg4)) (V (𝓫 main_arg5)) (V (𝓫 main_arg6)) (V (𝓫 main_arg7)) (V (𝓫 main_arg8)) (V (𝓫 main_arg9)) :=
  (B6_v142 (U12 V)).trans (by rw [U12_v118 V, U12_keep (r := main_arg8) (by decide) V, U12_keep (r := main_arg9) (by decide) V]; rfl)

end Values

/-! ## The arguments and the result after the whole fold -/

/-- No operation writes argument 0. -/
theorem after_arg0 (V : Valuation τ sig (Elt F)) : after ops V (𝓫 main_arg0) = V (𝓫 main_arg0) :=
  (congrFun (after_ops V) _).trans (U13_keep (by decide) V)
/-- No operation writes argument 1. -/
theorem after_arg1 (V : Valuation τ sig (Elt F)) : after ops V (𝓫 main_arg1) = V (𝓫 main_arg1) :=
  (congrFun (after_ops V) _).trans (U13_keep (by decide) V)
/-- No operation writes argument 2. -/
theorem after_arg2 (V : Valuation τ sig (Elt F)) : after ops V (𝓫 main_arg2) = V (𝓫 main_arg2) :=
  (congrFun (after_ops V) _).trans (U13_keep (by decide) V)
/-- No operation writes argument 3. -/
theorem after_arg3 (V : Valuation τ sig (Elt F)) : after ops V (𝓫 main_arg3) = V (𝓫 main_arg3) :=
  (congrFun (after_ops V) _).trans (U13_keep (by decide) V)
/-- No operation writes argument 4. -/
theorem after_arg4 (V : Valuation τ sig (Elt F)) : after ops V (𝓫 main_arg4) = V (𝓫 main_arg4) :=
  (congrFun (after_ops V) _).trans (U13_keep (by decide) V)
/-- No operation writes argument 5. -/
theorem after_arg5 (V : Valuation τ sig (Elt F)) : after ops V (𝓫 main_arg5) = V (𝓫 main_arg5) :=
  (congrFun (after_ops V) _).trans (U13_keep (by decide) V)
/-- No operation writes argument 6. -/
theorem after_arg6 (V : Valuation τ sig (Elt F)) : after ops V (𝓫 main_arg6) = V (𝓫 main_arg6) :=
  (congrFun (after_ops V) _).trans (U13_keep (by decide) V)
/-- No operation writes argument 7. -/
theorem after_arg7 (V : Valuation τ sig (Elt F)) : after ops V (𝓫 main_arg7) = V (𝓫 main_arg7) :=
  (congrFun (after_ops V) _).trans (U13_keep (by decide) V)
/-- No operation writes argument 8. -/
theorem after_arg8 (V : Valuation τ sig (Elt F)) : after ops V (𝓫 main_arg8) = V (𝓫 main_arg8) :=
  (congrFun (after_ops V) _).trans (U13_keep (by decide) V)
/-- No operation writes argument 9. -/
theorem after_arg9 (V : Valuation τ sig (Elt F)) : after ops V (𝓫 main_arg9) = V (𝓫 main_arg9) :=
  (congrFun (after_ops V) _).trans (U13_keep (by decide) V)

/-- The result buffer after the whole fold is `refResult` of the ten argument buffers' contents. -/
theorem result_eq (V : Valuation τ sig (Elt Ideal)) :
    after ops V (𝓫 main_v142) = refResult (V (𝓫 main_arg0)) (V (𝓫 main_arg1)) (V (𝓫 main_arg2)) (V (𝓫 main_arg3)) (V (𝓫 main_arg4)) (V (𝓫 main_arg5)) (V (𝓫 main_arg6)) (V (𝓫 main_arg7)) (V (𝓫 main_arg8)) (V (𝓫 main_arg9)) :=
  (congrFun (after_ops V) _).trans (U13_v142 V)

end Cert.ReferenceIdeal.Hand

end
-- ==== Proof.DegreeLaw.lean ====
/-
  A node's summed messages divided by max(degree, 1), as the reference normalizes them, against the same sums multiplied
  by 1 / max(degree, 1), as the kernel's host part does.

  At the extended reals a quotient x / y off y = 0 is x · y⁻¹, so 1 / y is y⁻¹ and x / y = x · (1 / y). And max(d, 1) ≥ 1
  is never 0, whatever d is (the infinities included). So the two whole-array terms agree at every entry, with no
  finiteness asked of the sums or of the degrees. The degree column [100000] viewed [100000, 1] and spread along the 128
  lanes reads, at (n, q), its entry n; the splat of the word 1.0 reads 1 everywhere.
-/
import proofs.«114701_j26036091748361_1_alg».proof.Proof.Gen.KernelIdeal
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

open Idealize.ShloMosaic Idealize.ShloMosaic.ValueIdx

namespace Cert.KernelIdeal.Law

open Cert.KernelIdeal Cert.KernelIdeal.Gen

/-! ### The scalar law -/

/-- The word 1.0 is the extended real 1. -/
theorem oneWord_eq_one : Ideal.ofBits .f32 0x3F800000#32 = 1 := IdealRules.sign_bit.ideal_onePat .f32

/-- Off a zero divisor, x / y = x · (1 / y): both are x · y⁻¹. -/
theorem div_eq_mul_one_div (x y : EReal) (hy : y ≠ 0) :
    Ideal.div x y = x * Ideal.div (Ideal.ofBits .f32 0x3F800000#32) y := by
  rw [oneWord_eq_one]
  unfold Ideal.div
  rw [if_neg hy, if_neg hy, one_mul]

/-- max(d, 1) ≥ 1 > 0, so it is not 0, at every extended real d. -/
theorem max_one_ne_zero (d : EReal) : max d (Ideal.ofBits .f32 0x3F800000#32) ≠ 0 := by
  rw [oneWord_eq_one]
  exact (lt_of_lt_of_le zero_lt_one (le_max_right d 1)).ne'

/-! ### The column view and the spread along the lanes, each at an index -/

/-- The host's quotient reads pointwise. -/
theorem hostDivf_apply {s : Shape} (a b : FVec Ideal s .f32) (i : s.Idx) : Host.divf a b i = Ideal.div (a i) (b i) := rfl

/-- A vector of 100000 entries viewed as a column reads, at (n, 0), its entry n. -/
theorem column_apply (y : FVec Ideal S100000 .f32) (n : Fin 100000) (z : Fin 1) :
    broadcastInDim S100000x1 ![0] bcast_S100000_S100000x1_0 y (ix2 n z) = y (ix1 n) :=
  broadcastInDim_apply _ bcast_S100000_S100000x1_0 y (ix2 n z) (ix1 n) (fun a => match a with
    | ⟨0, _⟩ => by show n.val = if (100000 : Nat) = 1 then 0 else n.val; rw [if_neg (by decide)])

/-- A column spread along the lanes reads, at (n, q), the column's entry of row n. -/
theorem spread_apply (c : FVec Ideal S100000x1 .f32) (n : Fin 100000) (q : Fin 128) :
    broadcastInDim S100000x128 ![0, 1] bcast_S100000x1_S100000x128_0_1 c (ix2 n q) = c (ix2 n 0) :=
  broadcastInDim_apply _ bcast_S100000x1_S100000x128_0_1 c (ix2 n q) (ix2 n 0) (fun a => match a with
    | ⟨0, _⟩ => by show n.val = if (100000 : Nat) = 1 then 0 else n.val; rw [if_neg (by decide)]
    | ⟨1, _⟩ => by show 0 = if (1 : Nat) = 1 then 0 else q.val; rw [if_pos rfl])

/-- The splat of the word 1.0 over the 100000 nodes reads the word's value at every node. -/
theorem oneSplat_apply (j : S100000.Idx) :
    broadcastInDim S100000 ![] bcast_S_S100000 (constant (F := Ideal) S_ .f32 0x3F800000#32) j
      = Ideal.ofBits .f32 0x3F800000#32 := rfl

/-! ### The two whole-array terms agree -/

/-- Dividing every row of sums by its node's max(degree, 1) is multiplying it by 1 / max(degree, 1). -/
theorem divide_by_degree (s : FVec Ideal S100000x128 .f32) (d : FVec Ideal S100000 .f32) :
    Host.divf s (broadcastInDim S100000x128 ![0, 1] bcast_S100000x1_S100000x128_0_1 (broadcastInDim S100000x1 ![0] bcast_S100000_S100000x1_0
        (maximumf d (broadcastInDim S100000 ![] bcast_S_S100000 (constant (F := Ideal) S_ .f32 0x3F800000#32)))))
      = mulf s (broadcastInDim S100000x128 ![0, 1] bcast_S100000x1_S100000x128_0_1 (broadcastInDim S100000x1 ![0] bcast_S100000_S100000x1_0
          (Host.divf (broadcastInDim S100000 ![] bcast_S_S100000 (constant (F := Ideal) S_ .f32 0x3F800000#32))
            (maximumf d (broadcastInDim S100000 ![] bcast_S_S100000 (constant (F := Ideal) S_ .f32 0x3F800000#32)))))) := by
  refine funext fun i => ?_
  obtain ⟨n, q, rfl⟩ : ∃ n q, i = ix2 n q := ⟨i 0, i 1, eq_ix2 i⟩
  rw [hostDivf_apply, mulf_apply, spread_apply, spread_apply, column_apply, column_apply, hostDivf_apply, maximumf_apply,
    oneSplat_apply]
  exact div_eq_mul_one_div _ _ (max_one_ne_zero _)

end Cert.KernelIdeal.Law

end
-- ==== Proof.Bridge.lean ====
/-
  The two programs' results are one function of the arguments.

  Written as composed terms, the idealized kernel program and the reference do the same things in the same order — split
  the edge list, scale the relation rows to unit length, gather, reflect, add the messages into their targets' rows,
  project, normalize, twice — with one difference: the reference divides each node's summed messages by max(degree, 1),
  the kernel multiplies them by 1 / max(degree, 1). On the extended reals a quotient by a nonzero divisor is the product
  with the divisor's reciprocal, and max(degree, 1) is at least one whatever the degree is, so the two agree at every
  extended real; no finiteness of the inputs is used.
-/
import proofs.«114701_j26036091748361_1_alg».proof.Proof.KernelValue
import proofs.«114701_j26036091748361_1_alg».proof.Proof.RefRun
import proofs.«114701_j26036091748361_1_alg».proof.Proof.DegreeLaw

noncomputable section

open Idealize.ShloMosaic

namespace Cert.Bridge

open Cert.KernelIdeal.Fold

/-- The mean over incoming edges, by the reciprocal degree or by the degree: one array. -/
theorem aggregate_eq (msg : F32 Cert.KernelIdeal.S1600000x128) (tgt : I32 Cert.KernelIdeal.S1600000) :
    Cert.KernelIdeal.Fold.aggregate msg tgt (Cert.KernelIdeal.Fold.inverseDegree tgt) = Cert.ReferenceIdeal.Hand.aggregate msg tgt := by
  unfold Cert.KernelIdeal.Fold.aggregate Cert.KernelIdeal.Fold.inverseDegree Cert.KernelIdeal.Fold.degree Cert.ReferenceIdeal.Hand.aggregate Cert.ReferenceIdeal.Hand.degree
  exact (Cert.KernelIdeal.Law.divide_by_degree _ _).symm

/-- One layer, in the kernel program's form and in the reference's. -/
theorem layer_eq (x : F32 Cert.KernelIdeal.S100000x128) (a0 : I32 Cert.KernelIdeal.S2x1600000) (a1 : I32 Cert.KernelIdeal.S1600000) (r : F32 Cert.KernelIdeal.S1001x128)
    (w : F32 Cert.KernelIdeal.S128x128) (g b : F32 Cert.KernelIdeal.S128) :
    Cert.KernelIdeal.Fold.layer x a0 a1 r w g b = Cert.ReferenceIdeal.Hand.layer x a0 a1 r w g b := by
  unfold Cert.KernelIdeal.Fold.layer Cert.ReferenceIdeal.Hand.layer
  rw [aggregate_eq]
  rfl

/-- The whole result. -/
theorem result_eq (a0 : I32 Cert.KernelIdeal.S2x1600000) (a1 : I32 Cert.KernelIdeal.S1600000) (x0 : F32 Cert.KernelIdeal.S100000x128) (r : F32 Cert.KernelIdeal.S1001x128)
    (w1 w2 : F32 Cert.KernelIdeal.S128x128) (g1 b1 g2 b2 : F32 Cert.KernelIdeal.S128) :
    Cert.KernelIdeal.Fold.result a0 a1 x0 r w1 w2 g1 b1 g2 b2 = Cert.ReferenceIdeal.Hand.refResult a0 a1 x0 r w1 w2 g1 b1 g2 b2 := by
  unfold Cert.KernelIdeal.Fold.result Cert.ReferenceIdeal.Hand.refResult
  rw [layer_eq, layer_eq]

end Cert.Bridge

end
-- ==== Proof.lean ====
/-
  The claim: three frames, the idealization's (empty) ledger, and the equality of results at the extended reals.

  Both word-level and idealized kernel programs terminate with their arguments unchanged by the run of their eight
  segments; the reference by the run of its 179 host operations. For the equality, the idealized kernel program's result
  array is the fold of its segments at the last region's output, which is the two-layer composed term of the arguments
  (Proof/KernelValue.lean); the reference's result is its operations' composed term (Proof/RefRun.lean); from memories
  that agree on the arguments the two terms are one function (Proof/Bridge.lean: a quotient by max(degree, 1) is the
  product with its reciprocal).
-/
import proofs.«114701_j26036091748361_1_alg».proof.Defs
import proofs.«114701_j26036091748361_1_alg».proof.Proof.Gen.Kernel
import proofs.«114701_j26036091748361_1_alg».proof.Proof.Gen.Kernel.Skeleton
import proofs.«114701_j26036091748361_1_alg».proof.Proof.Gen.Kernel.Launch
import proofs.«114701_j26036091748361_1_alg».proof.Proof.Gen.Kernel.Points
import proofs.«114701_j26036091748361_1_alg».proof.Proof.Gen.Kernel.Frame
import proofs.«114701_j26036091748361_1_alg».proof.Proof.Gen.KernelIdeal
import proofs.«114701_j26036091748361_1_alg».proof.Proof.Gen.KernelIdeal.Skeleton
import proofs.«114701_j26036091748361_1_alg».proof.Proof.Gen.KernelIdeal.Launch
import proofs.«114701_j26036091748361_1_alg».proof.Proof.Gen.KernelIdeal.Points
import proofs.«114701_j26036091748361_1_alg».proof.Proof.Gen.KernelIdeal.Frame
import proofs.«114701_j26036091748361_1_alg».proof.Proof.Gen.ReferenceIdeal
import proofs.«114701_j26036091748361_1_alg».proof.Proof.Gen.Pre_finite_inputs
import proofs.«114701_j26036091748361_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- No host operation of the reference writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Hand.after_arg0 _),
     (h c Cert.ReferenceIdeal.main_arg1).trans (Cert.ReferenceIdeal.Hand.after_arg1 _),
     (h c Cert.ReferenceIdeal.main_arg2).trans (Cert.ReferenceIdeal.Hand.after_arg2 _),
     (h c Cert.ReferenceIdeal.main_arg3).trans (Cert.ReferenceIdeal.Hand.after_arg3 _),
     (h c Cert.ReferenceIdeal.main_arg4).trans (Cert.ReferenceIdeal.Hand.after_arg4 _),
     (h c Cert.ReferenceIdeal.main_arg5).trans (Cert.ReferenceIdeal.Hand.after_arg5 _),
     (h c Cert.ReferenceIdeal.main_arg6).trans (Cert.ReferenceIdeal.Hand.after_arg6 _),
     (h c Cert.ReferenceIdeal.main_arg7).trans (Cert.ReferenceIdeal.Hand.after_arg7 _),
     (h c Cert.ReferenceIdeal.main_arg8).trans (Cert.ReferenceIdeal.Hand.after_arg8 _),
     (h c Cert.ReferenceIdeal.main_arg9).trans (Cert.ReferenceIdeal.Hand.after_arg9 _)⟩)
    (Cert.ReferenceIdeal.Hand.run_after (F := Ideal) m ρ)

/-- The ideal pass rewrote no operation: nothing to preserve. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.Fold.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(Cert.KernelIdeal.Fold.result_of_fold m ρ h c).trans (Cert.KernelIdeal.Fold.result_eq m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c),
       (h c _ (Cert.KernelIdeal.Gen.mem_uc Cert.KernelIdeal.main_arg8 (by decide))).trans (Cert.KernelIdeal.Gen.W8_main_arg8 m ρ c),
       (h c _ (Cert.KernelIdeal.Gen.mem_uc Cert.KernelIdeal.main_arg9 (by decide))).trans (Cert.KernelIdeal.Gen.W8_main_arg9 m ρ c)⟩)
      (Cert.KernelIdeal.Fold.run_fold m ρ)
  · refine (θ_run Cert.ReferenceIdeal.defs _ _).mono (fun r h c => ⟨?_,
      (h c Cert.ReferenceIdeal.main_arg0).trans (Cert.ReferenceIdeal.Hand.after_arg0 _),
      (h c Cert.ReferenceIdeal.main_arg1).trans (Cert.ReferenceIdeal.Hand.after_arg1 _),
      (h c Cert.ReferenceIdeal.main_arg2).trans (Cert.ReferenceIdeal.Hand.after_arg2 _),
      (h c Cert.ReferenceIdeal.main_arg3).trans (Cert.ReferenceIdeal.Hand.after_arg3 _),
      (h c Cert.ReferenceIdeal.main_arg4).trans (Cert.ReferenceIdeal.Hand.after_arg4 _),
      (h c Cert.ReferenceIdeal.main_arg5).trans (Cert.ReferenceIdeal.Hand.after_arg5 _),
      (h c Cert.ReferenceIdeal.main_arg6).trans (Cert.ReferenceIdeal.Hand.after_arg6 _),
      (h c Cert.ReferenceIdeal.main_arg7).trans (Cert.ReferenceIdeal.Hand.after_arg7 _),
      (h c Cert.ReferenceIdeal.main_arg8).trans (Cert.ReferenceIdeal.Hand.after_arg8 _),
      (h c Cert.ReferenceIdeal.main_arg9).trans (Cert.ReferenceIdeal.Hand.after_arg9 _)⟩)
      (Cert.ReferenceIdeal.Hand.run_after (F := Ideal) m' ρ')
    obtain ⟨e0, e1, e2, e3, e4, e5, e6, e7, e8, e9⟩ := hagree c
    refine (h c Cert.ReferenceIdeal.main_v142).trans ((Cert.ReferenceIdeal.Hand.result_eq _).trans ?_)
    show Cert.ReferenceIdeal.Hand.refResult (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]
    exact (Cert.Bridge.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
